-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x256 : Shape := ⟨2, ![128, 256]⟩
abbrev S256 : Shape := ⟨1, ![256]⟩
abbrev S256x40 : Shape := ⟨2, ![256, 40]⟩
abbrev S40 : Shape := ⟨1, ![40]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S256x40 .f32) (main_arg5 : FVec F S40 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x40 .f32 := Host.absf main_arg4
  let main_cst_6 : FVec F S_ .f32 := constant S_ .f32 0x7F800000#32
  let main_v20 : FVec F S256x40 .f32 := broadcastInDim S256x40 ![] bcast_S_S256x40 main_cst_6
  let main_v21 : IVec S256x40 1 := cmpf .olt main_v19 main_v20
  let main_c_7 : IVec S_ 1 := constantI S_ 1 1#1
  let main_v22 : IVec S_ 1 := (fun x v => Host.reduce IntOp.andi x v reducesTo_S256x40_S_d0_1 h_S_) main_v21 main_c_7
  let main_v23 : IVec S_ 1 := andi main_v18 main_v22
  let main_v24 : FVec F S40 .f32 := Host.absf main_arg5
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x256 .f32) (main_arg3 : FVec F S256 .f32) (main_arg4 : FVec F S256x40 .f32) (main_arg5 : FVec F S40 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x256 : Shape := ⟨2, ![128, 256]⟩
abbrev S256 : Shape := ⟨1, ![256]⟩
abbrev S256x40 : Shape := ⟨2, ![256, 40]⟩
abbrev S40 : Shape := ⟨1, ![40]⟩
abbrev S1x256 : Shape := ⟨2, ![1, 256]⟩
abbrev S1x40 : Shape := ⟨2, ![1, 40]⟩
abbrev S5000x40 : Shape := ⟨2, ![5000, 40]⟩
abbrev S5000x1 : Shape := ⟨2, ![5000, 1]⟩
abbrev S200x10000 : Shape := ⟨2, ![200, 10000]⟩
abbrev S200x40 : Shape := ⟨2, ![200, 40]⟩
abbrev S200x1 : Shape := ⟨2, ![200, 1]⟩
abbrev S200 : Shape := ⟨1, ![200]⟩
abbrev S200x128 : Shape := ⟨2, ![200, 128]⟩
abbrev S200x256 : Shape := ⟨2, ![200, 256]⟩
abbrev S10000x40 : Shape := ⟨2, ![10000, 40]⟩

abbrev nBuf : Space → Nat
  | .hbm => 16
  | .vmem => 30
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x256, .f32⟩
  | .hbm, ⟨3, _⟩ => ⟨S256, .f32⟩
  | .hbm, ⟨4, _⟩ => ⟨S256x40, .f32⟩
  | .hbm, ⟨5, _⟩ => ⟨S40, .f32⟩
  | .hbm, ⟨6, _⟩ => ⟨S1x256, .f32⟩
  | .hbm, ⟨7, _⟩ => ⟨S1x40, .f32⟩
  | .hbm, ⟨8, _⟩ => ⟨S5000x40, .f32⟩
  | .hbm, ⟨9, _⟩ => ⟨S5000x40, .f32⟩
  | .hbm, ⟨10, _⟩ => ⟨S5000x1, .f32⟩
  | .hbm, ⟨11, _⟩ => ⟨S5000x1, .f32⟩
  | .hbm, ⟨12, _⟩ => ⟨S10000x40, .f32⟩
  | .hbm, ⟨13, _⟩ => ⟨S5000x40, .f32⟩
  | .hbm, ⟨14, _⟩ => ⟨S5000x40, .f32⟩
  | .hbm, ⟨15, _⟩ => ⟨S10000x40, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x128, .f32⟩
  | .local _ .vmem, ⟨5, _⟩ => ⟨S128x256, .f32⟩
  | .local _ .vmem, ⟨6, _⟩ => ⟨S1x256, .f32⟩
  | .local _ .vmem, ⟨7, _⟩ => ⟨S256x40, .f32⟩
  | .local _ .vmem, ⟨8, _⟩ => ⟨S200x40, .f32⟩
  | .local _ .vmem, ⟨9, _⟩ => ⟨S200x40, .f32⟩
  | .local _ .vmem, ⟨10, _⟩ => ⟨S200x40, .f32⟩
  | .local _ .vmem, ⟨11, _⟩ => ⟨S200x40, .f32⟩
  | .local _ .vmem, ⟨12, _⟩ => ⟨S200x1, .f32⟩
  | .local _ .vmem, ⟨13, _⟩ => ⟨S200x1, .f32⟩
  | .local _ .vmem, ⟨14, _⟩ => ⟨S200x1, .f32⟩
  | .local _ .vmem, ⟨15, _⟩ => ⟨S200x1, .f32⟩
  | .local _ .vmem, ⟨16, _⟩ => ⟨S200x10000, .f32⟩
  | .local _ .vmem, ⟨17, _⟩ => ⟨S200x10000, .f32⟩
  | .local _ .vmem, ⟨18, _⟩ => ⟨S200x10000, .f32⟩
  | .local _ .vmem, ⟨19, _⟩ => ⟨S200x10000, .f32⟩
  | .local _ .vmem, ⟨20, _⟩ => ⟨S10000x40, .f32⟩
  | .local _ .vmem, ⟨21, _⟩ => ⟨S200x1, .f32⟩
  | .local _ .vmem, ⟨22, _⟩ => ⟨S200x1, .f32⟩
  | .local _ .vmem, ⟨23, _⟩ => ⟨S200x1, .f32⟩
  | .local _ .vmem, ⟨24, _⟩ => ⟨S200x1, .f32⟩
  | .local _ .vmem, ⟨25, _⟩ => ⟨S1x40, .f32⟩
  | .local _ .vmem, ⟨26, _⟩ => ⟨S200x40, .f32⟩
  | .local _ .vmem, ⟨27, _⟩ => ⟨S200x40, .f32⟩
  | .local _ .vmem, ⟨28, _⟩ => ⟨S200x40, .f32⟩
  | .local _ .vmem, ⟨29, _⟩ => ⟨S200x40, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem3_1 : DmaSem sig := 22
abbrev cc1_sem4_0 : DmaSem sig := 23
abbrev cc1_sem4_1 : DmaSem sig := 24
abbrev cc1_sem5_0 : DmaSem sig := 25
abbrev cc1_sem6_0 : DmaSem sig := 26
abbrev cc1_sem6_1 : DmaSem sig := 27
abbrev cc1_sem7_0 : DmaSem sig := 28
abbrev cc1_sem7_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c25_i32 : BitVec 32 := 25#32
  let v0 : BitVec 32 := Scalar.addi arg0 c25_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x40 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S200x40 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S200x40 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S200x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S200x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c25_i32 : BitVec 32 := 25#32
  let v0 : BitVec 32 := Scalar.addi arg0 c25_i32
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S10000x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S200x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S200x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x40 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S200x40 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S200x40 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  shapeCasts_S256_S1x256 : S256.ShapeCasts S1x256
  shapeCasts_S40_S1x40 : S40.ShapeCasts S1x40
  inb_S10000x128_S10000x128_0_0 : ∀ a, (![0, 0] : Fin 2 → Nat) a + S10000x128.size a ≤ S10000x128.size a
  h_S10000x128 : 0 < S10000x128.numel
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x40_S256x40_0_0 : ∀ a, (![0, 0] : Fin 2 → Nat) a + S256x40.size a ≤ S256x40.size a
  h_S256x40 : 0 < S256x40.numel
  inb_S200x10000_S200x10000_0_0 : ∀ a, (![0, 0] : Fin 2 → Nat) a + S200x10000.size a ≤ S200x10000.size a
  h_S200x10000 : 0 < S200x10000.numel
  reduces_S200x10000_S200 : S200x10000.Reduces [1] S200
  shapeCasts_S200_S200x1 : S200.ShapeCasts S200x1
  broadcasts_S200x1_S200x128 : S200x1.Broadcasts S200x128
  broadcasts_S1x256_S200x256 : S1x256.Broadcasts S200x256
  inb_S200x40_S200x40_0_0 : ∀ a, (![0, 0] : Fin 2 → Nat) a + S200x40.size a ≤ S200x40.size a
  h_S200x40 : 0 < S200x40.numel
  inb_S200x1_S200x1_0_0 : ∀ a, (![0, 0] : Fin 2 → Nat) a + S200x1.size a ≤ S200x1.size a
  h_S200x1 : 0 < S200x1.numel
  concatenates_S5000x40_S5000x40_S10000x40_d0 : Shape.Concatenates [S5000x40, S5000x40] S10000x40 0
  inb_S10000x40_S10000x40_0_0 : ∀ a, (![0, 0] : Fin 2 → Nat) a + S10000x40.size a ≤ S10000x40.size a
  h_S10000x40 : 0 < S10000x40.numel
  shapeCasts_S10000x40_S10000x40 : S10000x40.ShapeCasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  shapeCasts_S200x1_S200x1 : S200x1.ShapeCasts S200x1
  broadcasts_S200x1_S200x40 : S200x1.Broadcasts S200x40
  broadcasts_S1x40_S200x40 : S1x40.Broadcasts S200x40
  dot_S200x10000_S10000x128_S200x128_1_0_0_1_n_n_wf : DotDims.WF S200x10000 S10000x128 S200x128 [1] [0] [0] [1] [] []
  dot_S200x128_S128x256_S200x256_1_0_0_1_n_n_wf : DotDims.WF S200x128 S128x256 S200x256 [1] [0] [0] [1] [] []
  dot_S200x256_S256x40_S200x40_1_0_0_1_n_n_wf : DotDims.WF S200x256 S256x40 S200x40 [1] [0] [0] [1] [] []
  dot_S200x10000_S10000x40_S200x40_1_0_0_1_n_n_wf : DotDims.WF S200x10000 S10000x40 S200x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x40.size a ≤ S256x40.size a
  hwx0_5 : ∀ i : grid0.Coords, EltTy.bits .f32 = 32 ∨ (Rect.block (s := S256x40) S256x40.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S200x40.size a ≤ S5000x40.size a
  hwx0_6 : ∀ i : grid0.Coords, EltTy.bits .f32 = 32 ∨ (Rect.block (s := S5000x40) S200x40.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S200x40.size a ≤ S5000x40.size a
  hwx0_7 : ∀ i : grid0.Coords, EltTy.bits .f32 = 32 ∨ (Rect.block (s := S5000x40) S200x40.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S200x1.size a ≤ S5000x1.size a
  hwx0_8 : ∀ i : grid0.Coords, EltTy.bits .f32 = 32 ∨ (Rect.block (s := S5000x1) S200x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S200x1.size a ≤ S5000x1.size a
  hwx0_9 : ∀ i : grid0.Coords, EltTy.bits .f32 = 32 ∨ (Rect.block (s := S5000x1) S200x1.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x10000.size a ≤ S10000x10000.size a
  hwx1_1 : ∀ i : grid1.Coords, EltTy.bits .f32 = 32 ∨ (Rect.block (s := S10000x10000) S200x10000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10000x40.size a ≤ S10000x40.size a
  hwx1_2 : ∀ i : grid1.Coords, EltTy.bits .f32 = 32 ∨ (Rect.block (s := S10000x40) S10000x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S200x1.size a ≤ S5000x1.size a
  hwx1_3 : ∀ i : grid1.Coords, EltTy.bits .f32 = 32 ∨ (Rect.block (s := S5000x1) S200x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S200x1.size a ≤ S5000x1.size a
  hwx1_4 : ∀ i : grid1.Coords, EltTy.bits .f32 = 32 ∨ (Rect.block (s := S5000x1) S200x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x40.size a ≤ S1x40.size a
  hwx1_5 : ∀ i : grid1.Coords, EltTy.bits .f32 = 32 ∨ (Rect.block (s := S1x40) S1x40.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S200x40.size a ≤ S5000x40.size a
  hwx1_6 : ∀ i : grid1.Coords, EltTy.bits .f32 = 32 ∨ (Rect.block (s := S5000x40) S200x40.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S200x40.size a ≤ S5000x40.size a
  hwx1_7 : ∀ i : grid1.Coords, EltTy.bits .f32 = 32 ∨ (Rect.block (s := S5000x40) S200x40.size (cc1_transform_7 i) (hinb1_7 i)).WholeWords (EltTy.packing .f32)

variable [Facts₀]

def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x256_S200x256_1_0_0_1_n_n : DotDims S200x128 S128x256 S200x256 where
  lhsContracting := [1]
  rhsContracting := [0]
  lhsNonContracting := [0]
  rhsNonContracting := [1]
  lhsBatch := []
  rhsBatch := []
  wf := dot_S200x128_S128x256_S200x256_1_0_0_1_n_n_wf
def dot_S200x256_S256x40_S200x40_1_0_0_1_n_n : DotDims S200x256 S256x40 S200x40 where
  lhsContracting := [1]
  rhsContracting := [0]
  lhsNonContracting := [0]
  rhsNonContracting := [1]
  lhsBatch := []
  rhsBatch := []
  wf := dot_S200x256_S256x40_S200x40_1_0_0_1_n_n_wf
def dot_S200x10000_S10000x40_S200x40_1_0_0_1_n_n : DotDims S200x10000 S10000x40 S200x40 where
  lhsContracting := [1]
  rhsContracting := [0]
  lhsNonContracting := [0]
  rhsNonContracting := [1]
  lhsBatch := []
  rhsBatch := []
  wf := dot_S200x10000_S10000x40_S200x40_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256x40.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2_0) S200x40.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_1) S200x40.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2_2) S200x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v2_3) S200x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S200x10000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S10000x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2_2) S200x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2_3) S200x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v1) S1x40.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v4_0) S200x40.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v4_1) S200x40.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x256 : Shape := ⟨2, ![128, 256]⟩
abbrev S256 : Shape := ⟨1, ![256]⟩
abbrev S256x40 : Shape := ⟨2, ![256, 40]⟩
abbrev S40 : Shape := ⟨1, ![40]⟩
abbrev S_ : Shape := ⟨0, ![]⟩
abbrev S10000 : Shape := ⟨1, ![10000]⟩
abbrev S10000x1 : Shape := ⟨2, ![10000, 1]⟩
abbrev S10000x256 : Shape := ⟨2, ![10000, 256]⟩
abbrev S1x256 : Shape := ⟨2, ![1, 256]⟩
abbrev S10000x40 : Shape := ⟨2, ![10000, 40]⟩
abbrev S1x40 : Shape := ⟨2, ![1, 40]⟩

abbrev nBuf : Space → Nat
  | .hbm => 29
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x256, .f32⟩
  | .hbm, ⟨3, _⟩ => ⟨S256, .f32⟩
  | .hbm, ⟨4, _⟩ => ⟨S256x40, .f32⟩
  | .hbm, ⟨5, _⟩ => ⟨S40, .f32⟩
  | .hbm, ⟨6, _⟩ => ⟨S_, .f32⟩
  | .hbm, ⟨7, _⟩ => ⟨S10000, .f32⟩
  | .hbm, ⟨8, _⟩ => ⟨S10000x1, .f32⟩
  | .hbm, ⟨9, _⟩ => ⟨S_, .f32⟩
  | .hbm, ⟨10, _⟩ => ⟨S10000x1, .f32⟩
  | .hbm, ⟨11, _⟩ => ⟨S10000x1, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S10000x256, .f32⟩
  | .hbm, ⟨16, _⟩ => ⟨S1x256, .f32⟩
  | .hbm, ⟨17, _⟩ => ⟨S10000x256, .f32⟩
  | .hbm, ⟨18, _⟩ => ⟨S10000x256, .f32⟩
  | .hbm, ⟨19, _⟩ => ⟨S_, .f32⟩
  | .hbm, ⟨20, _⟩ => ⟨S10000x256, .f32⟩
  | .hbm, ⟨21, _⟩ => ⟨S10000x256, .f32⟩
  | .hbm, ⟨22, _⟩ => ⟨S10000x256, .f32⟩
  | .hbm, ⟨23, _⟩ => ⟨S10000x256, .f32⟩
  | .hbm, ⟨24, _⟩ => ⟨S10000x256, .f32⟩
  | .hbm, ⟨25, _⟩ => ⟨S10000x40, .f32⟩
  | .hbm, ⟨26, _⟩ => ⟨S1x40, .f32⟩
  | .hbm, ⟨27, _⟩ => ⟨S10000x40, .f32⟩
  | .hbm, ⟨28, _⟩ => ⟨S10000x40, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_cst : Ref sig .tc := ⟨.hbm, 19, rfl⟩
abbrev main_call0_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  reducesTo_S10000x10000_S10000_d1 : S10000x10000.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  bcast_S10000x1_S10000x256_0_1 : S10000x1.BroadcastsInDim S10000x256 (![0, 1] : Fin 2 → Fin S10000x256.rank)
  bcast_S40_S1x40_1 : S40.BroadcastsInDim S1x40 (![1] : Fin 1 → Fin S1x40.rank)
  bcast_S1x40_S10000x40_0_1 : S1x40.BroadcastsInDim S10000x40 (![0, 1] : Fin 2 → Fin S10000x40.rank)
  dot_S10000x10000_S10000x128_S10000x128_1_0_0_1_n_n_wf : DotDims.WF S10000x10000 S10000x128 S10000x128 [1] [0] [0] [1] [] []
  dot_S10000x128_S128x256_S10000x256_1_0_0_1_n_n_wf : DotDims.WF S10000x128 S128x256 S10000x256 [1] [0] [0] [1] [] []
  dot_S10000x10000_S10000x256_S10000x256_1_0_0_1_n_n_wf : DotDims.WF S10000x10000 S10000x256 S10000x256 [1] [0] [0] [1] [] []
  dot_S10000x256_S256x40_S10000x40_1_0_0_1_n_n_wf : DotDims.WF S10000x256 S256x40 S10000x40 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x256_S256x40_S10000x40_1_0_0_1_n_n : DotDims S10000x256 S256x40 S10000x40 where
  lhsContracting := [1]
  rhsContracting := [0]
  lhsNonContracting := [0]
  rhsNonContracting := [1]
  lhsBatch := []
  rhsBatch := []
  wf := dot_S10000x256_S256x40_S10000x40_1_0_0_1_n_n_wf

class Facts : Prop extends Facts₀ where

variable [Facts]
-- ==== Proof.DataIdeal.lean ====
/-
  The proof data of the two aggregation passes of `KernelIdeal`, at the buffer contents `V` the pass is entered from.

  A pass runs over 25 grid points; at point `t` it is handed rows `200·t …` of the adjacency's top half and of its
  bottom half (two windows on ONE array, read only: each holds half of the array's share), the whole of the other
  operands, and leaves in each result window the block computed from them. `after` names what every staging
  buffer holds after the body: an input's its block, a result's the body's value of the input blocks.
-/
import proofs.«115625_g20418274525701_cont_8to1_1804_5_alg».proof.Proof.Gen.KernelIdeal.Launch
import proofs.«115625_g20418274525701_cont_8to1_1804_5_alg».proof.Proof.Gen.KernelIdeal.Skeleton
import proofs.«115625_g20418274525701_cont_8to1_1804_5_alg».proof.Proof.Gen.KernelIdeal.Points
import Idealize.ShloMosaic.Lib.Pipeline.FrameBody
import Idealize.ShloMosaic.Lib.Pipeline.Frame

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window)

variable {F : FTy → Type} [FloatOps F]

variable (V : (c : Dev nD) → (b : Ref sig .tc) → Buf (Elt F) ((c : Thread nD τ).loc b))

/-! ## The first pass -/

/-- Window `w`'s block at point `t` of the first pass, read off its array as the pass finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first pass on core `c`: the projected hidden rows of the top and of the bottom half (windows 6, 7) and the two
    halves' floored degrees (windows 8, 9), each block the body's value of the point's input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => k0_pay4 (iblk0 V c 2 t) (iblk0 V c 3 t) (iblk0 V c 4 t) (iblk0 V c 5 t) (iblk0 V c 0 t)
    | ⟨7, _⟩ => k0_pay1 (iblk0 V c 5 t) (k0_pay6 (iblk0 V c 2 t) (iblk0 V c 3 t) (iblk0 V c 1 t)) (k0_pay7 (iblk0 V c 4 t))
    | ⟨8, _⟩ => k0_pay3 (iblk0 V c 0 t)
    | ⟨9, _⟩ => k0_pay5 (iblk0 V c 1 t)
  Φ _ := Pipeline.ΦA spec0 c
  q w := match w with
    | ⟨0, _⟩ => fullShare.left
    | ⟨1, _⟩ => fullShare.right
    | _ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = k0_pay4 (iblk0 V c 2 t) (iblk0 V c 3 t) (iblk0 V c 4 t) (iblk0 V c 5 t) (iblk0 V c 0 t) := by dsimp only [dat0]
theorem after0_7 (c : Dev nD) (t : Fin cfg0.N) : (dat0 V c).after 7 t
    = k0_pay1 (iblk0 V c 5 t) (k0_pay6 (iblk0 V c 2 t) (iblk0 V c 3 t) (iblk0 V c 1 t)) (k0_pay7 (iblk0 V c 4 t)) := by dsimp only [dat0]
theorem after0_8 (c : Dev nD) (t : Fin cfg0.N) : (dat0 V c).after 8 t = k0_pay3 (iblk0 V c 0 t) := by dsimp only [dat0]
theorem after0_9 (c : Dev nD) (t : Fin cfg0.N) : (dat0 V c).after 9 t = k0_pay5 (iblk0 V c 1 t) := by dsimp only [dat0]

/-! ## The second pass -/

/-- Window `w`'s block at point `t` of the second pass, read off its array as the pass finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The second pass on core `c`: the result rows of the top and of the bottom half (windows 6, 7). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => k1_pay3 (iblk1 V c 2 t) (iblk1 V c 5 t) (iblk1 V c 0 t) (iblk1 V c 3 t)
    | ⟨7, _⟩ => k1_pay4 (iblk1 V c 2 t) (iblk1 V c 5 t) (iblk1 V c 1 t) (iblk1 V c 4 t)
  Φ _ := Pipeline.ΦA spec1 c
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = k1_pay3 (iblk1 V c 2 t) (iblk1 V c 5 t) (iblk1 V c 0 t) (iblk1 V c 3 t) := by dsimp only [dat1]
theorem after1_7 (c : Dev nD) (t : Fin cfg1.N) : (dat1 V c).after 7 t
    = k1_pay4 (iblk1 V c 2 t) (iblk1 V c 5 t) (iblk1 V c 1 t) (iblk1 V c 4 t) := by dsimp only [dat1]

end Cert.KernelIdeal.Gen

end
-- ==== Proof.FoldIdeal.lean ====
/-
  The buffer contents between the items of @main of `KernelIdeal`, as a fold from the launch memory: after the two reshapes, after the
  first pass (its four result arrays at what the pass's write-backs leave, every other buffer untouched), after the
  concatenation of the two halves of the projected rows, after the second pass, after the last concatenation. No item
  writes an argument, so each argument's buffer is the launch's at every stage.
-/
import proofs.«115625_g20418274525701_cont_8to1_1804_5_alg».proof.Proof.DataIdeal
import proofs.«115625_g20418274525701_cont_8to1_1804_5_alg».proof.Proof.Gen.KernelIdeal.Regions
import Idealize.ShloMosaic.Lib.Pipeline.FrameBody
import Idealize.ShloMosaic.Lib.Pipeline.RegionsLoop
import Idealize.ShloMosaic.Lib.Pipeline.FrameSuffix

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s unscoped buffers at launch. -/
abbrev W0 (c : Dev nD) : Valuation τ sig (Elt F) := fun b => m (c, b)
/-- After the two reshapes of the biases. -/
abbrev W1 (c : Dev nD) : Valuation τ sig (Elt F) := StableHlo.after hostOps0 (W0 m c)
/-- The same read at the TensorCore's references: what the first pass is entered from. -/
abbrev T1 : (c : Dev nD) → (b : Ref sig .tc) → Buf (Elt F) ((c : Thread nD τ).loc b) := fun c b => W1 m c b

/-- After the first pass: its four result arrays at what the write-backs of all 25 points leave. -/
def W2 (c : Dev nD) : Valuation τ sig (Elt F) :=
  Function.update (Function.update (Function.update (Function.update (W1 m c)
    main_v2_0 ((dat0 (T1 m) c).arrAt 6 cfg0.N)) main_v2_1 ((dat0 (T1 m) c).arrAt 7 cfg0.N))
    main_v2_2 ((dat0 (T1 m) c).arrAt 8 cfg0.N)) main_v2_3 ((dat0 (T1 m) c).arrAt 9 cfg0.N)

theorem W2_v2_0 (c : Dev nD) : W2 m c main_v2_0 = (dat0 (T1 m) c).arrAt 6 cfg0.N := by
  unfold W2
  rw [Function.update_of_ne (StableHlo.devRef_ne_of_ne (by decide)), Function.update_of_ne (StableHlo.devRef_ne_of_ne (by decide)),
    Function.update_of_ne (StableHlo.devRef_ne_of_ne (by decide)), Function.update_self]
theorem W2_v2_1 (c : Dev nD) : W2 m c main_v2_1 = (dat0 (T1 m) c).arrAt 7 cfg0.N := by
  unfold W2
  rw [Function.update_of_ne (StableHlo.devRef_ne_of_ne (by decide)), Function.update_of_ne (StableHlo.devRef_ne_of_ne (by decide)),
    Function.update_self]
theorem W2_v2_2 (c : Dev nD) : W2 m c main_v2_2 = (dat0 (T1 m) c).arrAt 8 cfg0.N := by
  unfold W2
  rw [Function.update_of_ne (StableHlo.devRef_ne_of_ne (by decide)), Function.update_self]
theorem W2_v2_3 (c : Dev nD) : W2 m c main_v2_3 = (dat0 (T1 m) c).arrAt 9 cfg0.N := by
  unfold W2
  rw [Function.update_self]
/-- Every other buffer is as the pass found it. -/
theorem W2_of (c : Dev nD) (r : Ref sig .tc) (h : r ∉ ([main_v2_0, main_v2_1, main_v2_2, main_v2_3] : List (Ref sig .tc))) : W2 m c r = W1 m c r := by
  unfold W2
  rw [Function.update_of_ne (StableHlo.devRef_ne_of_ne (List.ne_of_not_mem_cons (List.not_mem_of_not_mem_cons (List.not_mem_of_not_mem_cons (List.not_mem_of_not_mem_cons h)))) : (Proc.devRef .tc r : DevRef τ sig) ≠ Proc.devRef .tc main_v2_3),
    Function.update_of_ne (StableHlo.devRef_ne_of_ne (List.ne_of_not_mem_cons (List.not_mem_of_not_mem_cons (List.not_mem_of_not_mem_cons h))) : (Proc.devRef .tc r : DevRef τ sig) ≠ Proc.devRef .tc main_v2_2),
    Function.update_of_ne (StableHlo.devRef_ne_of_ne (List.ne_of_not_mem_cons (List.not_mem_of_not_mem_cons h)) : (Proc.devRef .tc r : DevRef τ sig) ≠ Proc.devRef .tc main_v2_1),
    Function.update_of_ne (StableHlo.devRef_ne_of_ne (List.ne_of_not_mem_cons h) : (Proc.devRef .tc r : DevRef τ sig) ≠ Proc.devRef .tc main_v2_0)]

/-- The same read at the TensorCore's references. -/
abbrev T2 : (c : Dev nD) → (b : Ref sig .tc) → Buf (Elt F) ((c : Thread nD τ).loc b) := fun c b => W2 m c b
/-- After the concatenation of the projected rows' two halves. -/
abbrev W3 (c : Dev nD) : Valuation τ sig (Elt F) := StableHlo.after hostOps1 (W2 m c)
/-- What the second pass is entered from. -/
abbrev T3 : (c : Dev nD) → (b : Ref sig .tc) → Buf (Elt F) ((c : Thread nD τ).loc b) := fun c b => W3 m c b

/-- After the second pass: its two result arrays at what the write-backs leave. -/
def W4 (c : Dev nD) : Valuation τ sig (Elt F) :=
  Function.update (Function.update (W3 m c) main_v4_0 ((dat1 (T3 m) c).arrAt 6 cfg1.N)) main_v4_1 ((dat1 (T3 m) c).arrAt 7 cfg1.N)

theorem W4_v4_0 (c : Dev nD) : W4 m c main_v4_0 = (dat1 (T3 m) c).arrAt 6 cfg1.N := by
  unfold W4
  rw [Function.update_of_ne (StableHlo.devRef_ne_of_ne (by decide)), Function.update_self]
theorem W4_v4_1 (c : Dev nD) : W4 m c main_v4_1 = (dat1 (T3 m) c).arrAt 7 cfg1.N := by
  unfold W4
  rw [Function.update_self]
theorem W4_of (c : Dev nD) (r : Ref sig .tc) (h : r ∉ ([main_v4_0, main_v4_1] : List (Ref sig .tc))) : W4 m c r = W3 m c r := by
  unfold W4
  rw [Function.update_of_ne (StableHlo.devRef_ne_of_ne (List.ne_of_not_mem_cons (List.not_mem_of_not_mem_cons h)) : (Proc.devRef .tc r : DevRef τ sig) ≠ Proc.devRef .tc main_v4_1),
    Function.update_of_ne (StableHlo.devRef_ne_of_ne (List.ne_of_not_mem_cons h) : (Proc.devRef .tc r : DevRef τ sig) ≠ Proc.devRef .tc main_v4_0)]

abbrev T4 : (c : Dev nD) → (b : Ref sig .tc) → Buf (Elt F) ((c : Thread nD τ).loc b) := fun c b => W4 m c b
/-- After the last concatenation: the program's end. -/
abbrev W5 (c : Dev nD) : Valuation τ sig (Elt F) := StableHlo.after hostOps2 (W4 m c)

/-! ## What each host stretch leaves unchanged -/

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W5_of (c : Dev nD) (r : Ref sig .tc) (h : r ∉ hostOps2_W) : W5 m c r = W4 m c r :=
  StableHlo.after_of_writes_sub hostOps2 _ hostOps2_writes h

/-- A buffer no item writes ends as launched. -/
theorem W5_kept (c : Dev nD) (r : Ref sig .tc) (h0 : r ∉ hostOps0_W) (h1 : r ∉ ([main_v2_0, main_v2_1, main_v2_2, main_v2_3] : List (Ref sig .tc)))
    (h2 : r ∉ hostOps1_W) (h3 : r ∉ ([main_v4_0, main_v4_1] : List (Ref sig .tc))) (h4 : r ∉ hostOps2_W) :
    W5 m c r = m ((c : Thread nD τ).loc r) :=
  (W5_of m c r h4).trans <| (W4_of m c r h3).trans <| (W3_of m c r h2).trans <| (W2_of m c r h1).trans <| (W1_of m c r h0).trans rfl
/-- The same up to the second pass's entry. -/
theorem W3_kept (c : Dev nD) (r : Ref sig .tc) (h0 : r ∉ hostOps0_W) (h1 : r ∉ ([main_v2_0, main_v2_1, main_v2_2, main_v2_3] : List (Ref sig .tc)))
    (h2 : r ∉ hostOps1_W) : W3 m c r = m ((c : Thread nD τ).loc r) :=
  (W3_of m c r h2).trans <| (W2_of m c r h1).trans <| (W1_of m c r h0).trans rfl
theorem W1_kept (c : Dev nD) (r : Ref sig .tc) (h0 : r ∉ hostOps0_W) : W1 m c r = m ((c : Thread nD τ).loc r) :=
  (W1_of m c r h0).trans rfl

end Cert.KernelIdeal.Gen

end
-- ==== Proof.RunIdeal.lean ====
/-
  The run of `KernelIdeal`'s @main: two reshapes, the first aggregation pass, a concatenation, the second pass, a concatenation.
  Each pass hands the adjacency to TWO of its windows (the top and the bottom half of the rows), so the adjacency's
  buffer enters a pass split into the two halves of its share and leaves it joined again; every other array is held
  whole. From the launch memory the unscoped buffers go through the fold of the stages' contents, and the final state
  holds the last stage.
-/
import proofs.«115625_g20418274525701_cont_8to1_1804_5_alg».proof.Proof.FoldIdeal
import proofs.«115625_g20418274525701_cont_8to1_1804_5_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem sep_congr' {M : Type} [URA M] {a a' b b' : sProp M} (ha : a = a') (hb : b = b') : iprop(a ∗ b) = iprop(a' ∗ b') := by
  rw [ha, hb]

section Shares
variable (V : (c : Dev nD) → (b : Ref sig .tc) → Buf (Elt F) ((c : Thread nD τ).loc b))

/-! ## Pass 0: the arrays behind the windows, one by one -/

theorem share0_0 (c : Dev nD) : (dat0 V c).share 0 = fullShare.left := rfl
theorem share0_1 (c : Dev nD) : (dat0 V c).share 1 = fullShare.right := rfl
theorem share0_2 (c : Dev nD) : (dat0 V c).share 2 = fullShare := rfl
theorem share0_3 (c : Dev nD) : (dat0 V c).share 3 = fullShare := rfl
theorem share0_4 (c : Dev nD) : (dat0 V c).share 4 = fullShare := rfl
theorem share0_5 (c : Dev nD) : (dat0 V c).share 5 = fullShare := rfl
theorem share0_6 (c : Dev nD) : (dat0 V c).share 6 = fullShare := rfl
theorem share0_7 (c : Dev nD) : (dat0 V c).share 7 = fullShare := rfl
theorem share0_8 (c : Dev nD) : (dat0 V c).share 8 = fullShare := rfl
theorem share0_9 (c : Dev nD) : (dat0 V c).share 9 = fullShare := rfl

/-- The distinct buffers behind pass 0's windows, each whole at the full share. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg1) ↦{fullShare} W main_arg1) ∗ (((c : Thread nD τ).loc main_arg0) ↦{fullShare} W main_arg0) ∗ (((c : Thread nD τ).loc main_arg2) ↦{fullShare} W main_arg2) ∗ (((c : Thread nD τ).loc main_v0) ↦{fullShare} W main_v0) ∗ (((c : Thread nD τ).loc main_arg4) ↦{fullShare} W main_arg4) ∗ (((c : Thread nD τ).loc main_v2_0) ↦{fullShare} W main_v2_0) ∗ (((c : Thread nD τ).loc main_v2_1) ↦{fullShare} W main_v2_1) ∗ (((c : Thread nD τ).loc main_v2_2) ↦{fullShare} W main_v2_2) ∗ (((c : Thread nD τ).loc main_v2_3) ↦{fullShare} W main_v2_3)) := by
  unfold Pipeline.arrBufs
  exact bigSep_eq_bigSepL_of_eq [main_arg1, main_arg0, main_arg2, main_v0, main_arg4, main_v2_0, main_v2_1, main_v2_2, main_v2_3] (by decide) (by decide) _

theorem arr0_0 (c : Dev nD) (Fw : (w : Fin cfg0.W) → Buf (Elt F) ((cfg0.win w).arr.view.loc (c : Thread nD τ))) :
    (((cfg0.win 0).arr.view.loc (c : Thread nD τ)) ↦[(cfg0.win 0).arr.view.set]{(dat0 V c).share 0} Fw 0 : sProp 𝕄)
      = (((c : Thread nD τ).loc main_arg1) ↦{fullShare.left} Fw 0) := by
  rw [(arr_whole0 0).set_eq_univ, share0_0]

theorem arr0_1 (c : Dev nD) (Fw : (w : Fin cfg0.W) → Buf (Elt F) ((cfg0.win w).arr.view.loc (c : Thread nD τ))) :
    (((cfg0.win 1).arr.view.loc (c : Thread nD τ)) ↦[(cfg0.win 1).arr.view.set]{(dat0 V c).share 1} Fw 1 : sProp 𝕄)
      = (((c : Thread nD τ).loc main_arg1) ↦{fullShare.right} Fw 1) := by
  rw [(arr_whole0 1).set_eq_univ, share0_1]

theorem arr0_2 (c : Dev nD) (Fw : (w : Fin cfg0.W) → Buf (Elt F) ((cfg0.win w).arr.view.loc (c : Thread nD τ))) :
    (((cfg0.win 2).arr.view.loc (c : Thread nD τ)) ↦[(cfg0.win 2).arr.view.set]{(dat0 V c).share 2} Fw 2 : sProp 𝕄)
      = (((c : Thread nD τ).loc main_arg0) ↦{fullShare} Fw 2) := by
  rw [(arr_whole0 2).set_eq_univ, share0_2]

theorem arr0_3 (c : Dev nD) (Fw : (w : Fin cfg0.W) → Buf (Elt F) ((cfg0.win w).arr.view.loc (c : Thread nD τ))) :
    (((cfg0.win 3).arr.view.loc (c : Thread nD τ)) ↦[(cfg0.win 3).arr.view.set]{(dat0 V c).share 3} Fw 3 : sProp 𝕄)
      = (((c : Thread nD τ).loc main_arg2) ↦{fullShare} Fw 3) := by
  rw [(arr_whole0 3).set_eq_univ, share0_3]

theorem arr0_4 (c : Dev nD) (Fw : (w : Fin cfg0.W) → Buf (Elt F) ((cfg0.win w).arr.view.loc (c : Thread nD τ))) :
    (((cfg0.win 4).arr.view.loc (c : Thread nD τ)) ↦[(cfg0.win 4).arr.view.set]{(dat0 V c).share 4} Fw 4 : sProp 𝕄)
      = (((c : Thread nD τ).loc main_v0) ↦{fullShare} Fw 4) := by
  rw [(arr_whole0 4).set_eq_univ, share0_4]

theorem arr0_5 (c : Dev nD) (Fw : (w : Fin cfg0.W) → Buf (Elt F) ((cfg0.win w).arr.view.loc (c : Thread nD τ))) :
    (((cfg0.win 5).arr.view.loc (c : Thread nD τ)) ↦[(cfg0.win 5).arr.view.set]{(dat0 V c).share 5} Fw 5 : sProp 𝕄)
      = (((c : Thread nD τ).loc main_arg4) ↦{fullShare} Fw 5) := by
  rw [(arr_whole0 5).set_eq_univ, share0_5]

theorem arr0_6 (c : Dev nD) (Fw : (w : Fin cfg0.W) → Buf (Elt F) ((cfg0.win w).arr.view.loc (c : Thread nD τ))) :
    (((cfg0.win 6).arr.view.loc (c : Thread nD τ)) ↦[(cfg0.win 6).arr.view.set]{(dat0 V c).share 6} Fw 6 : sProp 𝕄)
      = (((c : Thread nD τ).loc main_v2_0) ↦{fullShare} Fw 6) := by
  rw [(arr_whole0 6).set_eq_univ, share0_6]

theorem arr0_7 (c : Dev nD) (Fw : (w : Fin cfg0.W) → Buf (Elt F) ((cfg0.win w).arr.view.loc (c : Thread nD τ))) :
    (((cfg0.win 7).arr.view.loc (c : Thread nD τ)) ↦[(cfg0.win 7).arr.view.set]{(dat0 V c).share 7} Fw 7 : sProp 𝕄)
      = (((c : Thread nD τ).loc main_v2_1) ↦{fullShare} Fw 7) := by
  rw [(arr_whole0 7).set_eq_univ, share0_7]

theorem arr0_8 (c : Dev nD) (Fw : (w : Fin cfg0.W) → Buf (Elt F) ((cfg0.win w).arr.view.loc (c : Thread nD τ))) :
    (((cfg0.win 8).arr.view.loc (c : Thread nD τ)) ↦[(cfg0.win 8).arr.view.set]{(dat0 V c).share 8} Fw 8 : sProp 𝕄)
      = (((c : Thread nD τ).loc main_v2_2) ↦{fullShare} Fw 8) := by
  rw [(arr_whole0 8).set_eq_univ, share0_8]

theorem arr0_9 (c : Dev nD) (Fw : (w : Fin cfg0.W) → Buf (Elt F) ((cfg0.win w).arr.view.loc (c : Thread nD τ))) :
    (((cfg0.win 9).arr.view.loc (c : Thread nD τ)) ↦[(cfg0.win 9).arr.view.set]{(dat0 V c).share 9} Fw 9 : sProp 𝕄)
      = (((c : Thread nD τ).loc main_v2_3) ↦{fullShare} Fw 9) := by
  rw [(arr_whole0 9).set_eq_univ, share0_9]

/-- Pass 0's windows' arrays: the adjacency twice, at the two halves of its share; every other array once, whole. -/
theorem arrays0_eq (c : Dev nD) (Fw : (w : Fin cfg0.W) → Buf (Elt F) ((cfg0.win w).arr.view.loc (c : Thread nD τ))) :
    ((dat0 V c).arrays Fw : sProp 𝕄)
      = iprop((((c : Thread nD τ).loc main_arg1) ↦{fullShare.left} Fw 0) ∗ (((c : Thread nD τ).loc main_arg1) ↦{fullShare.right} Fw 1) ∗ (((c : Thread nD τ).loc main_arg0) ↦{fullShare} Fw 2) ∗ (((c : Thread nD τ).loc main_arg2) ↦{fullShare} Fw 3) ∗ (((c : Thread nD τ).loc main_v0) ↦{fullShare} Fw 4) ∗ (((c : Thread nD τ).loc main_arg4) ↦{fullShare} Fw 5) ∗ (((c : Thread nD τ).loc main_v2_0) ↦{fullShare} Fw 6) ∗ (((c : Thread nD τ).loc main_v2_1) ↦{fullShare} Fw 7) ∗ (((c : Thread nD τ).loc main_v2_2) ↦{fullShare} Fw 8) ∗ (((c : Thread nD τ).loc main_v2_3) ↦{fullShare} Fw 9)) := by
  unfold Dat.arrays
  exact (bigSep_W0 _).trans (sep_congr' (arr0_0 V c Fw) (sep_congr' (arr0_1 V c Fw) (sep_congr' (arr0_2 V c Fw) (sep_congr' (arr0_3 V c Fw) (sep_congr' (arr0_4 V c Fw) (sep_congr' (arr0_5 V c Fw) (sep_congr' (arr0_6 V c Fw) (sep_congr' (arr0_7 V c Fw) (sep_congr' (arr0_8 V c Fw) (arr0_9 V c Fw))))))))))

/-- The core's unscoped buffers are the buffers behind pass 0's windows and the rest. -/
theorem ub_split0 (c : Dev nD) (W : (b : Ref sig .tc) → Buf (Elt F) ((c : Thread nD τ).loc b)) :
    (unscopedBufs (Ix := Unit) (Name := ℕ) (U := UR sig nD τ) (Lvl := ℕ) c W : sProp 𝕄)
      = iprop((Pipeline.arrBufs (Ix := Unit) (Name := ℕ) (U := UR sig nD τ) (Lvl := ℕ) spec0 c W : sProp 𝕄)
          ∗ Pipeline.unscopedRest (Ix := Unit) (Name := ℕ) (U := UR sig nD τ) (Lvl := ℕ) spec0 c W) :=
  Pipeline.unscopedBufs_split₀ (fun _ : Fin 2 => cfg0) 0 winFacts₀0.arr_unscoped c W

/-- ENTRY: the buffers behind the windows, whole, make the pass's arrays — the adjacency's buffer split into the two
    halves of its share, one for each of the two windows that read it. -/
theorem arrays0_of_bufs (c : Dev nD) (W : (b : Ref sig .tc) → Buf (Elt F) ((c : Thread nD τ).loc b))
    (Fw : (w : Fin cfg0.W) → Buf (Elt F) ((cfg0.win w).arr.view.loc (c : Thread nD τ)))
    (h0 : Fw 0 = W main_arg1) (h1 : Fw 1 = W main_arg1) (h2 : Fw 2 = W main_arg0) (h3 : Fw 3 = W main_arg2) (h4 : Fw 4 = W main_v0) (h5 : Fw 5 = W main_arg4) (h6 : Fw 6 = W main_v2_0) (h7 : Fw 7 = W main_v2_1) (h8 : Fw 8 = W main_v2_2) (h9 : Fw 9 = W main_v2_3) :
    (Pipeline.arrBufs (Ix := Unit) (Name := ℕ) (U := UR sig nD τ) (Lvl := ℕ) spec0 c W : sProp 𝕄) ⊢ (dat0 V c).arrays Fw := by
  rw [arrBufs0_eq, arrays0_eq, h0, h1, h2, h3, h4, h5, h6, h7, h8, h9]
  iintro ⟨B0, B1, B2, B3, B4, B5, B6, B7, B8⟩
  ihave Hs := (pointsTo_share (PosShare.mem_left_op_right fullShare)).1 $$ B0
  icases Hs with ⟨Hl, Hr⟩
  isplitl [Hl]; · iexact Hl
  isplitl [Hr]; · iexact Hr
  isplitl [B1]; · iexact B1
  isplitl [B2]; · iexact B2
  isplitl [B3]; · iexact B3
  isplitl [B4]; · iexact B4
  isplitl [B5]; · iexact B5
  isplitl [B6]; · iexact B6
  isplitl [B7]; · iexact B7
  iexact B8

/-- EXIT: the pass's arrays make the buffers behind the windows whole again — the two halves of the adjacency's share,
    both at the one contents, joined. -/
theorem bufs0_of_arrays (c : Dev nD) (W : (b : Ref sig .tc) → Buf (Elt F) ((c : Thread nD τ).loc b))
    (Fw : (w : Fin cfg0.W) → Buf (Elt F) ((cfg0.win w).arr.view.loc (c : Thread nD τ)))
    (h0 : Fw 0 = W main_arg1) (h1 : Fw 1 = W main_arg1) (h2 : Fw 2 = W main_arg0) (h3 : Fw 3 = W main_arg2) (h4 : Fw 4 = W main_v0) (h5 : Fw 5 = W main_arg4) (h6 : Fw 6 = W main_v2_0) (h7 : Fw 7 = W main_v2_1) (h8 : Fw 8 = W main_v2_2) (h9 : Fw 9 = W main_v2_3) :
    ((dat0 V c).arrays Fw : sProp 𝕄) ⊢ (Pipeline.arrBufs (Ix := Unit) (Name := ℕ) (U := UR sig nD τ) (Lvl := ℕ) spec0 c W : sProp 𝕄) := by
  rw [arrBufs0_eq, arrays0_eq, h0, h1, h2, h3, h4, h5, h6, h7, h8, h9]
  iintro ⟨A0, A1, A2, A3, A4, A5, A6, A7, A8, A9⟩
  ihave Hj := (pointsTo_share (PosShare.mem_left_op_right fullShare)).2 $$ [A0 A1]
  · isplitl [A0]; · iexact A0
    iexact A1
  isplitl [Hj]; · iexact Hj
  isplitl [A2]; · iexact A2
  isplitl [A3]; · iexact A3
  isplitl [A4]; · iexact A4
  isplitl [A5]; · iexact A5
  isplitl [A6]; · iexact A6
  isplitl [A7]; · iexact A7
  isplitl [A8]; · iexact A8
  iexact A9

/-! ## Pass 1: the arrays behind the windows, one by one -/

theorem share1_0 (c : Dev nD) : (dat1 V c).share 0 = fullShare.left := rfl
theorem share1_1 (c : Dev nD) : (dat1 V c).share 1 = fullShare.right := rfl
theorem share1_2 (c : Dev nD) : (dat1 V c).share 2 = fullShare := rfl
theorem share1_3 (c : Dev nD) : (dat1 V c).share 3 = fullShare := rfl
theorem share1_4 (c : Dev nD) : (dat1 V c).share 4 = fullShare := rfl
theorem share1_5 (c : Dev nD) : (dat1 V c).share 5 = fullShare := rfl
theorem share1_6 (c : Dev nD) : (dat1 V c).share 6 = fullShare := rfl
theorem share1_7 (c : Dev nD) : (dat1 V c).share 7 = fullShare := rfl

/-- The distinct buffers behind pass 1's windows, each whole at the full share. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_arg1) ↦{fullShare} W main_arg1) ∗ (((c : Thread nD τ).loc main_v3) ↦{fullShare} W main_v3) ∗ (((c : Thread nD τ).loc main_v2_2) ↦{fullShare} W main_v2_2) ∗ (((c : Thread nD τ).loc main_v2_3) ↦{fullShare} W main_v2_3) ∗ (((c : Thread nD τ).loc main_v1) ↦{fullShare} W main_v1) ∗ (((c : Thread nD τ).loc main_v4_0) ↦{fullShare} W main_v4_0) ∗ (((c : Thread nD τ).loc main_v4_1) ↦{fullShare} W main_v4_1)) := by
  unfold Pipeline.arrBufs
  exact bigSep_eq_bigSepL_of_eq [main_arg1, main_v3, main_v2_2, main_v2_3, main_v1, main_v4_0, main_v4_1] (by decide) (by decide) _

theorem arr1_0 (c : Dev nD) (Fw : (w : Fin cfg1.W) → Buf (Elt F) ((cfg1.win w).arr.view.loc (c : Thread nD τ))) :
    (((cfg1.win 0).arr.view.loc (c : Thread nD τ)) ↦[(cfg1.win 0).arr.view.set]{(dat1 V c).share 0} Fw 0 : sProp 𝕄)
      = (((c : Thread nD τ).loc main_arg1) ↦{fullShare.left} Fw 0) := by
  rw [(arr_whole1 0).set_eq_univ, share1_0]

theorem arr1_1 (c : Dev nD) (Fw : (w : Fin cfg1.W) → Buf (Elt F) ((cfg1.win w).arr.view.loc (c : Thread nD τ))) :
    (((cfg1.win 1).arr.view.loc (c : Thread nD τ)) ↦[(cfg1.win 1).arr.view.set]{(dat1 V c).share 1} Fw 1 : sProp 𝕄)
      = (((c : Thread nD τ).loc main_arg1) ↦{fullShare.right} Fw 1) := by
  rw [(arr_whole1 1).set_eq_univ, share1_1]

theorem arr1_2 (c : Dev nD) (Fw : (w : Fin cfg1.W) → Buf (Elt F) ((cfg1.win w).arr.view.loc (c : Thread nD τ))) :
    (((cfg1.win 2).arr.view.loc (c : Thread nD τ)) ↦[(cfg1.win 2).arr.view.set]{(dat1 V c).share 2} Fw 2 : sProp 𝕄)
      = (((c : Thread nD τ).loc main_v3) ↦{fullShare} Fw 2) := by
  rw [(arr_whole1 2).set_eq_univ, share1_2]

theorem arr1_3 (c : Dev nD) (Fw : (w : Fin cfg1.W) → Buf (Elt F) ((cfg1.win w).arr.view.loc (c : Thread nD τ))) :
    (((cfg1.win 3).arr.view.loc (c : Thread nD τ)) ↦[(cfg1.win 3).arr.view.set]{(dat1 V c).share 3} Fw 3 : sProp 𝕄)
      = (((c : Thread nD τ).loc main_v2_2) ↦{fullShare} Fw 3) := by
  rw [(arr_whole1 3).set_eq_univ, share1_3]

theorem arr1_4 (c : Dev nD) (Fw : (w : Fin cfg1.W) → Buf (Elt F) ((cfg1.win w).arr.view.loc (c : Thread nD τ))) :
    (((cfg1.win 4).arr.view.loc (c : Thread nD τ)) ↦[(cfg1.win 4).arr.view.set]{(dat1 V c).share 4} Fw 4 : sProp 𝕄)
      = (((c : Thread nD τ).loc main_v2_3) ↦{fullShare} Fw 4) := by
  rw [(arr_whole1 4).set_eq_univ, share1_4]

theorem arr1_5 (c : Dev nD) (Fw : (w : Fin cfg1.W) → Buf (Elt F) ((cfg1.win w).arr.view.loc (c : Thread nD τ))) :
    (((cfg1.win 5).arr.view.loc (c : Thread nD τ)) ↦[(cfg1.win 5).arr.view.set]{(dat1 V c).share 5} Fw 5 : sProp 𝕄)
      = (((c : Thread nD τ).loc main_v1) ↦{fullShare} Fw 5) := by
  rw [(arr_whole1 5).set_eq_univ, share1_5]

theorem arr1_6 (c : Dev nD) (Fw : (w : Fin cfg1.W) → Buf (Elt F) ((cfg1.win w).arr.view.loc (c : Thread nD τ))) :
    (((cfg1.win 6).arr.view.loc (c : Thread nD τ)) ↦[(cfg1.win 6).arr.view.set]{(dat1 V c).share 6} Fw 6 : sProp 𝕄)
      = (((c : Thread nD τ).loc main_v4_0) ↦{fullShare} Fw 6) := by
  rw [(arr_whole1 6).set_eq_univ, share1_6]

theorem arr1_7 (c : Dev nD) (Fw : (w : Fin cfg1.W) → Buf (Elt F) ((cfg1.win w).arr.view.loc (c : Thread nD τ))) :
    (((cfg1.win 7).arr.view.loc (c : Thread nD τ)) ↦[(cfg1.win 7).arr.view.set]{(dat1 V c).share 7} Fw 7 : sProp 𝕄)
      = (((c : Thread nD τ).loc main_v4_1) ↦{fullShare} Fw 7) := by
  rw [(arr_whole1 7).set_eq_univ, share1_7]

/-- Pass 1's windows' arrays: the adjacency twice, at the two halves of its share; every other array once, whole. -/
theorem arrays1_eq (c : Dev nD) (Fw : (w : Fin cfg1.W) → Buf (Elt F) ((cfg1.win w).arr.view.loc (c : Thread nD τ))) :
    ((dat1 V c).arrays Fw : sProp 𝕄)
      = iprop((((c : Thread nD τ).loc main_arg1) ↦{fullShare.left} Fw 0) ∗ (((c : Thread nD τ).loc main_arg1) ↦{fullShare.right} Fw 1) ∗ (((c : Thread nD τ).loc main_v3) ↦{fullShare} Fw 2) ∗ (((c : Thread nD τ).loc main_v2_2) ↦{fullShare} Fw 3) ∗ (((c : Thread nD τ).loc main_v2_3) ↦{fullShare} Fw 4) ∗ (((c : Thread nD τ).loc main_v1) ↦{fullShare} Fw 5) ∗ (((c : Thread nD τ).loc main_v4_0) ↦{fullShare} Fw 6) ∗ (((c : Thread nD τ).loc main_v4_1) ↦{fullShare} Fw 7)) := by
  unfold Dat.arrays
  exact (bigSep_W1 _).trans (sep_congr' (arr1_0 V c Fw) (sep_congr' (arr1_1 V c Fw) (sep_congr' (arr1_2 V c Fw) (sep_congr' (arr1_3 V c Fw) (sep_congr' (arr1_4 V c Fw) (sep_congr' (arr1_5 V c Fw) (sep_congr' (arr1_6 V c Fw) (arr1_7 V c Fw))))))))

/-- The core's unscoped buffers are the buffers behind pass 1's windows and the rest. -/
theorem ub_split1 (c : Dev nD) (W : (b : Ref sig .tc) → Buf (Elt F) ((c : Thread nD τ).loc b)) :
    (unscopedBufs (Ix := Unit) (Name := ℕ) (U := UR sig nD τ) (Lvl := ℕ) c W : sProp 𝕄)
      = iprop((Pipeline.arrBufs (Ix := Unit) (Name := ℕ) (U := UR sig nD τ) (Lvl := ℕ) spec1 c W : sProp 𝕄)
          ∗ Pipeline.unscopedRest (Ix := Unit) (Name := ℕ) (U := UR sig nD τ) (Lvl := ℕ) spec1 c W) :=
  Pipeline.unscopedBufs_split₀ (fun _ : Fin 2 => cfg1) 0 winFacts₀1.arr_unscoped c W

/-- ENTRY: the buffers behind the windows, whole, make the pass's arrays — the adjacency's buffer split into the two
    halves of its share, one for each of the two windows that read it. -/
theorem arrays1_of_bufs (c : Dev nD) (W : (b : Ref sig .tc) → Buf (Elt F) ((c : Thread nD τ).loc b))
    (Fw : (w : Fin cfg1.W) → Buf (Elt F) ((cfg1.win w).arr.view.loc (c : Thread nD τ)))
    (h0 : Fw 0 = W main_arg1) (h1 : Fw 1 = W main_arg1) (h2 : Fw 2 = W main_v3) (h3 : Fw 3 = W main_v2_2) (h4 : Fw 4 = W main_v2_3) (h5 : Fw 5 = W main_v1) (h6 : Fw 6 = W main_v4_0) (h7 : Fw 7 = W main_v4_1) :
    (Pipeline.arrBufs (Ix := Unit) (Name := ℕ) (U := UR sig nD τ) (Lvl := ℕ) spec1 c W : sProp 𝕄) ⊢ (dat1 V c).arrays Fw := by
  rw [arrBufs1_eq, arrays1_eq, h0, h1, h2, h3, h4, h5, h6, h7]
  iintro ⟨B0, B1, B2, B3, B4, B5, B6⟩
  ihave Hs := (pointsTo_share (PosShare.mem_left_op_right fullShare)).1 $$ B0
  icases Hs with ⟨Hl, Hr⟩
  isplitl [Hl]; · iexact Hl
  isplitl [Hr]; · iexact Hr
  isplitl [B1]; · iexact B1
  isplitl [B2]; · iexact B2
  isplitl [B3]; · iexact B3
  isplitl [B4]; · iexact B4
  isplitl [B5]; · iexact B5
  iexact B6

/-- EXIT: the pass's arrays make the buffers behind the windows whole again — the two halves of the adjacency's share,
    both at the one contents, joined. -/
theorem bufs1_of_arrays (c : Dev nD) (W : (b : Ref sig .tc) → Buf (Elt F) ((c : Thread nD τ).loc b))
    (Fw : (w : Fin cfg1.W) → Buf (Elt F) ((cfg1.win w).arr.view.loc (c : Thread nD τ)))
    (h0 : Fw 0 = W main_arg1) (h1 : Fw 1 = W main_arg1) (h2 : Fw 2 = W main_v3) (h3 : Fw 3 = W main_v2_2) (h4 : Fw 4 = W main_v2_3) (h5 : Fw 5 = W main_v1) (h6 : Fw 6 = W main_v4_0) (h7 : Fw 7 = W main_v4_1) :
    ((dat1 V c).arrays Fw : sProp 𝕄) ⊢ (Pipeline.arrBufs (Ix := Unit) (Name := ℕ) (U := UR sig nD τ) (Lvl := ℕ) spec1 c W : sProp 𝕄) := by
  rw [arrBufs1_eq, arrays1_eq, h0, h1, h2, h3, h4, h5, h6, h7]
  iintro ⟨A0, A1, A2, A3, A4, A5, A6, A7⟩
  ihave Hj := (pointsTo_share (PosShare.mem_left_op_right fullShare)).2 $$ [A0 A1]
  · isplitl [A0]; · iexact A0
    iexact A1
  isplitl [Hj]; · iexact Hj
  isplitl [A2]; · iexact A2
  isplitl [A3]; · iexact A3
  isplitl [A4]; · iexact A4
  isplitl [A5]; · iexact A5
  isplitl [A6]; · iexact A6
  iexact A7

end Shares

/-! # The run: @main's five items from the launch to the return -/

variable (m : (ℓ : Loc nD τ sig) → Buf (Elt F) ℓ) (ρ : Dev nD → PrngReg)

/-- Every pipeline's proof data, each at its pass's entry contents. -/
def pdats : (p : Fin 2) → (c : Dev nD) → Dat τ (Elt F) Unit ℕ (UR sig nD τ) ℕ (Pipeline.pin (pcfgs (F := F)) adm p) c
  | ⟨0, _⟩ => fun c => dat0 (T1 m) c
  | ⟨1, _⟩ => fun c => dat1 (T3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch as a segment over the unscoped buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## What the passes leave in the buffers they do not window -/

theorem rest0_eq (c : Dev nD) :
    (Pipeline.unscopedRest (Ix := Unit) (Name := ℕ) (U := UR sig nD τ) (Lvl := ℕ) spec0 c (T2 m c) : sProp 𝕄)
      = Pipeline.unscopedRest (Ix := Unit) (Name := ℕ) (U := UR sig nD τ) (Lvl := ℕ) spec0 c (T1 m c) := by
  have e : ∀ r : Ref sig .tc, r ∉ ([main_v2_0, main_v2_1, main_v2_2, main_v2_3] : List (Ref sig .tc)) → T2 m c r = T1 m c r :=
    fun r h => W2_of m c r h
  rw [unscopedRest0_eq, unscopedRest0_eq]
  rw [e main_arg3 (by decide), e main_arg5 (by decide), e main_v1 (by decide), e main_v3 (by decide),
    e main_v4_0 (by decide), e main_v4_1 (by decide), e main_v5 (by decide)]

theorem rest1_eq (c : Dev nD) :
    (Pipeline.unscopedRest (Ix := Unit) (Name := ℕ) (U := UR sig nD τ) (Lvl := ℕ) spec1 c (T4 m c) : sProp 𝕄)
      = Pipeline.unscopedRest (Ix := Unit) (Name := ℕ) (U := UR sig nD τ) (Lvl := ℕ) spec1 c (T3 m c) := by
  have e : ∀ r : Ref sig .tc, r ∉ ([main_v4_0, main_v4_1] : List (Ref sig .tc)) → T4 m c r = T3 m c r :=
    fun r h => W4_of m c r h
  rw [unscopedRest1_eq, unscopedRest1_eq]
  rw [e main_arg0 (by decide), e main_arg2 (by decide), e main_arg3 (by decide), e main_arg4 (by decide),
    e main_arg5 (by decide), e main_v0 (by decide), e main_v2_0 (by decide), e main_v2_1 (by decide),
    e main_v5 (by decide)]

/-- An input window's array is never written: after every point it holds what the pass found. -/
theorem in0 (c : Dev nD) (w : Fin cfg0.W) (hw : (cfg0.win w).isOut = false) (r : Ref sig .tc) (hr : Pipeline.arrRef spec0 w = r)
    (h : r ∉ ([main_v2_0, main_v2_1, main_v2_2, main_v2_3] : List (Ref sig .tc))) :
    (dat0 (T1 m) c).arrAt w cfg0.N = T2 m c (Pipeline.arrRef spec0 w) := by
  subst hr
  exact ((dat0 (T1 m) c).arrAt_in w hw _).trans ((A_eq0 (T1 m) c w).trans (W2_of m c _ h).symm)
theorem in1 (c : Dev nD) (w : Fin cfg1.W) (hw : (cfg1.win w).isOut = false) (r : Ref sig .tc) (hr : Pipeline.arrRef spec1 w = r)
    (h : r ∉ ([main_v4_0, main_v4_1] : List (Ref sig .tc))) :
    (dat1 (T3 m) c).arrAt w cfg1.N = T4 m c (Pipeline.arrRef spec1 w) := by
  subst hr
  exact ((dat1 (T3 m) c).arrAt_in w hw _).trans ((A_eq1 (T3 m) c w).trans (W4_of m c _ h).symm)

set_option backward.isDefEq.respectTransparency.types false in
/-- Pass 0 as a segment of @main: entered from every unscoped buffer at the stage before it, left at the stage after it.
    Its arrays are split out of the unscoped buffers (the adjacency's share halved between its two windows) and put
    back at the exit contents; the generator register goes into the pass's invariant and out; nothing is owed; the
    kernel has no semaphore of its own. -/
def reg0 (hb : ∀ c : Dev nD, BodyObligation (dat0 (F := F) (T1 m) c) (defs₀ (F := F)) Variants.none () Set.univ) :
    Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (hb c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit : (StableHlo.held (c : Thread nD τ) (Pipeline.ucRefs τ sig) (W1 m c) : sProp 𝕄)
        ⊢ iprop((dat0 (T1 m) c).arrays ((dat0 (T1 m) c).arrAt · 0)
            ∗ Pipeline.unscopedRest (Ix := Unit) (Name := ℕ) (U := UR sig nD τ) (Lvl := ℕ) spec0 c (T1 m c)) := by
      rw [← Pipeline.unscopedBufs_held, ub_split0]
      exact sep_mono (arrays0_of_bufs (T1 m) c (T1 m c) _ rfl rfl rfl rfl rfl rfl rfl rfl rfl rfl) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((dat0 (T1 m) c).arrays ((dat0 (T1 m) c).arrAt · cfg0.N)
            ∗ Pipeline.unscopedRest (Ix := Unit) (Name := ℕ) (U := UR sig nD τ) (Lvl := ℕ) spec0 c (T1 m c))
        ⊢ (StableHlo.held (c : Thread nD τ) (Pipeline.ucRefs τ sig) (W2 m c) : sProp 𝕄) := by
      rw [← Pipeline.unscopedBufs_held, ub_split0, rest0_eq m c]
      exact sep_mono (bufs0_of_arrays (T1 m) c _ _ (in0 m c 0 rfl main_arg1 rfl (by decide)) (in0 m c 1 rfl main_arg1 rfl (by decide)) (in0 m c 2 rfl main_arg0 rfl (by decide)) (in0 m c 3 rfl main_arg2 rfl (by decide)) (in0 m c 4 rfl main_v0 rfl (by decide)) (in0 m c 5 rfl main_arg4 rfl (by decide)) (W2_v2_0 m c).symm (W2_v2_1 m c).symm (W2_v2_2 m c).symm (W2_v2_3 m c).symm) .rfl
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Pass 1 as a segment of @main: entered from every unscoped buffer at the stage before it, left at the stage after it.
    Its arrays are split out of the unscoped buffers (the adjacency's share halved between its two windows) and put
    back at the exit contents; the generator register goes into the pass's invariant and out; nothing is owed; the
    kernel has no semaphore of its own. -/
def reg1 (hb : ∀ c : Dev nD, BodyObligation (dat1 (F := F) (T3 m) c) (defs₀ (F := F)) Variants.none () Set.univ) :
    Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (hb c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (T3 m c)
  hentry c := by
    rw [Pipeline.ownSems0_none]
    have hsplit : (StableHlo.held (c : Thread nD τ) (Pipeline.ucRefs τ sig) (W3 m c) : sProp 𝕄)
        ⊢ iprop((dat1 (T3 m) c).arrays ((dat1 (T3 m) c).arrAt · 0)
            ∗ Pipeline.unscopedRest (Ix := Unit) (Name := ℕ) (U := UR sig nD τ) (Lvl := ℕ) spec1 c (T3 m c)) := by
      rw [← Pipeline.unscopedBufs_held, ub_split1]
      exact sep_mono (arrays1_of_bufs (T3 m) c (T3 m c) _ rfl rfl rfl rfl rfl rfl rfl rfl) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((dat1 (T3 m) c).arrays ((dat1 (T3 m) c).arrAt · cfg1.N)
            ∗ Pipeline.unscopedRest (Ix := Unit) (Name := ℕ) (U := UR sig nD τ) (Lvl := ℕ) spec1 c (T3 m c))
        ⊢ (StableHlo.held (c : Thread nD τ) (Pipeline.ucRefs τ sig) (W4 m c) : sProp 𝕄) := by
      rw [← Pipeline.unscopedBufs_held, ub_split1, rest1_eq m c]
      exact sep_mono (bufs1_of_arrays (T3 m) c _ _ (in1 m c 0 rfl main_arg1 rfl (by decide)) (in1 m c 1 rfl main_arg1 rfl (by decide)) (in1 m c 2 rfl main_v3 rfl (by decide)) (in1 m c 3 rfl main_v2_2 rfl (by decide)) (in1 m c 4 rfl main_v2_3 rfl (by decide)) (in1 m c 5 rfl main_v1 rfl (by decide)) (W4_v4_0 m c).symm (W4_v4_1 m c).symm) .rfl
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

/-- @main's five segments in order. -/
abbrev mainSegs (hb0 : ∀ c : Dev nD, BodyObligation (dat0 (F := F) (T1 m) c) (defs₀ (F := F)) Variants.none () Set.univ)
    (hb1 : ∀ c : Dev nD, BodyObligation (dat1 (F := F) (T3 m) c) (defs₀ (F := F)) Variants.none () Set.univ) : List (Pipeline.Seg (pcfgs (F := F)) adm (pdats m) () defs₀ 𝒱₀ L lv) :=
  [ .host (hseg hostOps0 hostOps0_sub hostOps0_fresh (W0 m)),
    .region (reg0 m hb0),
    .host (hseg hostOps1 hostOps1_sub hostOps1_fresh (W2 m)),
    .region (reg1 m hb1),
    .host (hseg hostOps2 hostOps2_sub hostOps2_fresh (W4 m)) ]
/-- @main IS the run of the segments. -/
theorem main_run (hb0 : ∀ c : Dev nD, BodyObligation (dat0 (F := F) (T1 m) c) (defs₀ (F := F)) Variants.none () Set.univ)
    (hb1 : ∀ c : Dev nD, BodyObligation (dat1 (F := F) (T3 m) c) (defs₀ (F := F)) Variants.none () Set.univ) (c : Dev nD) : main (F := F) c = Pipeline.Seg.run (mainSegs m hb0 hb1) := (main_chain c).trans (by chain_rfl)

/-- The last thread state without the dues: every unscoped buffer at the last stage's contents, the generator register at
    some state. -/
abbrev Tₙ (c : Dev nD) : sProp 𝕄 := iprop(StableHlo.held (c : Thread nD τ) (Pipeline.ucRefs τ sig) (W5 m c) ∗ ∃ r, prngReg c r)

set_option backward.isDefEq.respectTransparency.types false in
/-- THE RUN: from any memory with zero counters every weakly fair execution of @main terminates, nothing faulting, and
    every final state holds every unscoped buffer at the last stage of the fold. -/
theorem run_fold (hb0 : ∀ c : Dev nD, BodyObligation (dat0 (F := F) (T1 m) c) (defs₀ (F := F)) Variants.none () Set.univ)
    (hb1 : ∀ c : Dev nD, BodyObligation (dat1 (F := F) (T3 m) c) (defs₀ (F := F)) Variants.none () Set.univ) : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (mainSegs m hb0 hb1)
    (fun c Q => by rw [main_run m hb0 hb1 c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- The frame claim and the result's buffer, read off the fold: the result holds the last concatenation; every argument
    holds what it was launched with. -/
theorem run_result (hb0 : ∀ c : Dev nD, BodyObligation (dat0 (F := F) (T1 m) c) (defs₀ (F := F)) Variants.none () Set.univ)
    (hb1 : ∀ c : Dev nD, BodyObligation (dat1 (F := F) (T3 m) c) (defs₀ (F := F)) Variants.none () Set.univ) : θ_run defs (onTc (τ := τ) (main (F := F))) ⟨m, fun _ => 0, ρ⟩ (fun r => ∀ c : Dev nD,
      r.2.mem ((c.tc : Thread nD τ).loc main_v5) = W5 m c main_v5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v5 (by decide)),
     (h c _ (mem_uc main_arg0 (by decide))).trans (W5_kept m c main_arg0 (by decide) (by decide) (by decide) (by decide) (by decide)),
     (h c _ (mem_uc main_arg1 (by decide))).trans (W5_kept m c main_arg1 (by decide) (by decide) (by decide) (by decide) (by decide)),
     (h c _ (mem_uc main_arg2 (by decide))).trans (W5_kept m c main_arg2 (by decide) (by decide) (by decide) (by decide) (by decide)),
     (h c _ (mem_uc main_arg3 (by decide))).trans (W5_kept m c main_arg3 (by decide) (by decide) (by decide) (by decide) (by decide)),
     (h c _ (mem_uc main_arg4 (by decide))).trans (W5_kept m c main_arg4 (by decide) (by decide) (by decide) (by decide) (by decide)),
     (h c _ (mem_uc main_arg5 (by decide))).trans (W5_kept m c main_arg5 (by decide) (by decide) (by decide) (by decide) (by decide))⟩)
    (run_fold m ρ hb0 hb1)

end Cert.KernelIdeal.Gen

end
-- ==== Proof.DataBits.lean ====
/-
  The proof data of the two aggregation passes of `Kernel`, at the buffer contents `V` the pass is entered from.

  A pass runs over 25 grid points; at point `t` it is handed rows `200·t …` of the adjacency's top half and of its
  bottom half (two windows on ONE array, read only: each holds half of the array's share), the whole of the other
  operands, and leaves in each result window the block computed from them. `after` names what every staging
  buffer holds after the body: an input's its block, a result's the body's value of the input blocks.
-/
import proofs.«115625_g20418274525701_cont_8to1_1804_5_alg».proof.Proof.Gen.Kernel.Launch
import proofs.«115625_g20418274525701_cont_8to1_1804_5_alg».proof.Proof.Gen.Kernel.Skeleton
import proofs.«115625_g20418274525701_cont_8to1_1804_5_alg».proof.Proof.Gen.Kernel.Points
import Idealize.ShloMosaic.Lib.Pipeline.FrameBody
import Idealize.ShloMosaic.Lib.Pipeline.Frame

noncomputable section

namespace Cert.Kernel.Gen

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window)

variable {F : FTy → Type} [FloatOps F]

variable (V : (c : Dev nD) → (b : Ref sig .tc) → Buf (Elt F) ((c : Thread nD τ).loc b))

/-! ## The first pass -/

/-- Window `w`'s block at point `t` of the first pass, read off its array as the pass finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first pass on core `c`: the projected hidden rows of the top and of the bottom half (windows 6, 7) and the two
    halves' floored degrees (windows 8, 9), each block the body's value of the point's input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => k0_pay4 (iblk0 V c 2 t) (iblk0 V c 3 t) (iblk0 V c 4 t) (iblk0 V c 5 t) (iblk0 V c 0 t)
    | ⟨7, _⟩ => k0_pay1 (iblk0 V c 5 t) (k0_pay6 (iblk0 V c 2 t) (iblk0 V c 3 t) (iblk0 V c 1 t)) (k0_pay7 (iblk0 V c 4 t))
    | ⟨8, _⟩ => k0_pay3 (iblk0 V c 0 t)
    | ⟨9, _⟩ => k0_pay5 (iblk0 V c 1 t)
  Φ _ := Pipeline.ΦA spec0 c
  q w := match w with
    | ⟨0, _⟩ => fullShare.left
    | ⟨1, _⟩ => fullShare.right
    | _ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = k0_pay4 (iblk0 V c 2 t) (iblk0 V c 3 t) (iblk0 V c 4 t) (iblk0 V c 5 t) (iblk0 V c 0 t) := by dsimp only [dat0]
theorem after0_7 (c : Dev nD) (t : Fin cfg0.N) : (dat0 V c).after 7 t
    = k0_pay1 (iblk0 V c 5 t) (k0_pay6 (iblk0 V c 2 t) (iblk0 V c 3 t) (iblk0 V c 1 t)) (k0_pay7 (iblk0 V c 4 t)) := by dsimp only [dat0]
theorem after0_8 (c : Dev nD) (t : Fin cfg0.N) : (dat0 V c).after 8 t = k0_pay3 (iblk0 V c 0 t) := by dsimp only [dat0]
theorem after0_9 (c : Dev nD) (t : Fin cfg0.N) : (dat0 V c).after 9 t = k0_pay5 (iblk0 V c 1 t) := by dsimp only [dat0]

/-! ## The second pass -/

/-- Window `w`'s block at point `t` of the second pass, read off its array as the pass finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The second pass on core `c`: the result rows of the top and of the bottom half (windows 6, 7). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => k1_pay3 (iblk1 V c 2 t) (iblk1 V c 5 t) (iblk1 V c 0 t) (iblk1 V c 3 t)
    | ⟨7, _⟩ => k1_pay4 (iblk1 V c 2 t) (iblk1 V c 5 t) (iblk1 V c 1 t) (iblk1 V c 4 t)
  Φ _ := Pipeline.ΦA spec1 c
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = k1_pay3 (iblk1 V c 2 t) (iblk1 V c 5 t) (iblk1 V c 0 t) (iblk1 V c 3 t) := by dsimp only [dat1]
theorem after1_7 (c : Dev nD) (t : Fin cfg1.N) : (dat1 V c).after 7 t
    = k1_pay4 (iblk1 V c 2 t) (iblk1 V c 5 t) (iblk1 V c 1 t) (iblk1 V c 4 t) := by dsimp only [dat1]

end Cert.Kernel.Gen

end
-- ==== Proof.FoldBits.lean ====
/-
  The buffer contents between the items of @main of `Kernel`, as a fold from the launch memory: after the two reshapes, after the
  first pass (its four result arrays at what the pass's write-backs leave, every other buffer untouched), after the
  concatenation of the two halves of the projected rows, after the second pass, after the last concatenation. No item
  writes an argument, so each argument's buffer is the launch's at every stage.
-/
import proofs.«115625_g20418274525701_cont_8to1_1804_5_alg».proof.Proof.DataBits
import proofs.«115625_g20418274525701_cont_8to1_1804_5_alg».proof.Proof.Gen.Kernel.Regions
import Idealize.ShloMosaic.Lib.Pipeline.FrameBody
import Idealize.ShloMosaic.Lib.Pipeline.RegionsLoop
import Idealize.ShloMosaic.Lib.Pipeline.FrameSuffix

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s unscoped buffers at launch. -/
abbrev W0 (c : Dev nD) : Valuation τ sig (Elt F) := fun b => m (c, b)
/-- After the two reshapes of the biases. -/
abbrev W1 (c : Dev nD) : Valuation τ sig (Elt F) := StableHlo.after hostOps0 (W0 m c)
/-- The same read at the TensorCore's references: what the first pass is entered from. -/
abbrev T1 : (c : Dev nD) → (b : Ref sig .tc) → Buf (Elt F) ((c : Thread nD τ).loc b) := fun c b => W1 m c b

/-- After the first pass: its four result arrays at what the write-backs of all 25 points leave. -/
def W2 (c : Dev nD) : Valuation τ sig (Elt F) :=
  Function.update (Function.update (Function.update (Function.update (W1 m c)
    main_v2_0 ((dat0 (T1 m) c).arrAt 6 cfg0.N)) main_v2_1 ((dat0 (T1 m) c).arrAt 7 cfg0.N))
    main_v2_2 ((dat0 (T1 m) c).arrAt 8 cfg0.N)) main_v2_3 ((dat0 (T1 m) c).arrAt 9 cfg0.N)

theorem W2_v2_0 (c : Dev nD) : W2 m c main_v2_0 = (dat0 (T1 m) c).arrAt 6 cfg0.N := by
  unfold W2
  rw [Function.update_of_ne (StableHlo.devRef_ne_of_ne (by decide)), Function.update_of_ne (StableHlo.devRef_ne_of_ne (by decide)),
    Function.update_of_ne (StableHlo.devRef_ne_of_ne (by decide)), Function.update_self]
theorem W2_v2_1 (c : Dev nD) : W2 m c main_v2_1 = (dat0 (T1 m) c).arrAt 7 cfg0.N := by
  unfold W2
  rw [Function.update_of_ne (StableHlo.devRef_ne_of_ne (by decide)), Function.update_of_ne (StableHlo.devRef_ne_of_ne (by decide)),
    Function.update_self]
theorem W2_v2_2 (c : Dev nD) : W2 m c main_v2_2 = (dat0 (T1 m) c).arrAt 8 cfg0.N := by
  unfold W2
  rw [Function.update_of_ne (StableHlo.devRef_ne_of_ne (by decide)), Function.update_self]
theorem W2_v2_3 (c : Dev nD) : W2 m c main_v2_3 = (dat0 (T1 m) c).arrAt 9 cfg0.N := by
  unfold W2
  rw [Function.update_self]
/-- Every other buffer is as the pass found it. -/
theorem W2_of (c : Dev nD) (r : Ref sig .tc) (h : r ∉ ([main_v2_0, main_v2_1, main_v2_2, main_v2_3] : List (Ref sig .tc))) : W2 m c r = W1 m c r := by
  unfold W2
  rw [Function.update_of_ne (StableHlo.devRef_ne_of_ne (List.ne_of_not_mem_cons (List.not_mem_of_not_mem_cons (List.not_mem_of_not_mem_cons (List.not_mem_of_not_mem_cons h)))) : (Proc.devRef .tc r : DevRef τ sig) ≠ Proc.devRef .tc main_v2_3),
    Function.update_of_ne (StableHlo.devRef_ne_of_ne (List.ne_of_not_mem_cons (List.not_mem_of_not_mem_cons (List.not_mem_of_not_mem_cons h))) : (Proc.devRef .tc r : DevRef τ sig) ≠ Proc.devRef .tc main_v2_2),
    Function.update_of_ne (StableHlo.devRef_ne_of_ne (List.ne_of_not_mem_cons (List.not_mem_of_not_mem_cons h)) : (Proc.devRef .tc r : DevRef τ sig) ≠ Proc.devRef .tc main_v2_1),
    Function.update_of_ne (StableHlo.devRef_ne_of_ne (List.ne_of_not_mem_cons h) : (Proc.devRef .tc r : DevRef τ sig) ≠ Proc.devRef .tc main_v2_0)]

/-- The same read at the TensorCore's references. -/
abbrev T2 : (c : Dev nD) → (b : Ref sig .tc) → Buf (Elt F) ((c : Thread nD τ).loc b) := fun c b => W2 m c b
/-- After the concatenation of the projected rows' two halves. -/
abbrev W3 (c : Dev nD) : Valuation τ sig (Elt F) := StableHlo.after hostOps1 (W2 m c)
/-- What the second pass is entered from. -/
abbrev T3 : (c : Dev nD) → (b : Ref sig .tc) → Buf (Elt F) ((c : Thread nD τ).loc b) := fun c b => W3 m c b

/-- After the second pass: its two result arrays at what the write-backs leave. -/
def W4 (c : Dev nD) : Valuation τ sig (Elt F) :=
  Function.update (Function.update (W3 m c) main_v4_0 ((dat1 (T3 m) c).arrAt 6 cfg1.N)) main_v4_1 ((dat1 (T3 m) c).arrAt 7 cfg1.N)

theorem W4_v4_0 (c : Dev nD) : W4 m c main_v4_0 = (dat1 (T3 m) c).arrAt 6 cfg1.N := by
  unfold W4
  rw [Function.update_of_ne (StableHlo.devRef_ne_of_ne (by decide)), Function.update_self]
theorem W4_v4_1 (c : Dev nD) : W4 m c main_v4_1 = (dat1 (T3 m) c).arrAt 7 cfg1.N := by
  unfold W4
  rw [Function.update_self]
theorem W4_of (c : Dev nD) (r : Ref sig .tc) (h : r ∉ ([main_v4_0, main_v4_1] : List (Ref sig .tc))) : W4 m c r = W3 m c r := by
  unfold W4
  rw [Function.update_of_ne (StableHlo.devRef_ne_of_ne (List.ne_of_not_mem_cons (List.not_mem_of_not_mem_cons h)) : (Proc.devRef .tc r : DevRef τ sig) ≠ Proc.devRef .tc main_v4_1),
    Function.update_of_ne (StableHlo.devRef_ne_of_ne (List.ne_of_not_mem_cons h) : (Proc.devRef .tc r : DevRef τ sig) ≠ Proc.devRef .tc main_v4_0)]

abbrev T4 : (c : Dev nD) → (b : Ref sig .tc) → Buf (Elt F) ((c : Thread nD τ).loc b) := fun c b => W4 m c b
/-- After the last concatenation: the program's end. -/
abbrev W5 (c : Dev nD) : Valuation τ sig (Elt F) := StableHlo.after hostOps2 (W4 m c)

/-! ## What each host stretch leaves unchanged -/

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W5_of (c : Dev nD) (r : Ref sig .tc) (h : r ∉ hostOps2_W) : W5 m c r = W4 m c r :=
  StableHlo.after_of_writes_sub hostOps2 _ hostOps2_writes h

/-- A buffer no item writes ends as launched. -/
theorem W5_kept (c : Dev nD) (r : Ref sig .tc) (h0 : r ∉ hostOps0_W) (h1 : r ∉ ([main_v2_0, main_v2_1, main_v2_2, main_v2_3] : List (Ref sig .tc)))
    (h2 : r ∉ hostOps1_W) (h3 : r ∉ ([main_v4_0, main_v4_1] : List (Ref sig .tc))) (h4 : r ∉ hostOps2_W) :
    W5 m c r = m ((c : Thread nD τ).loc r) :=
  (W5_of m c r h4).trans <| (W4_of m c r h3).trans <| (W3_of m c r h2).trans <| (W2_of m c r h1).trans <| (W1_of m c r h0).trans rfl
/-- The same up to the second pass's entry. -/
theorem W3_kept (c : Dev nD) (r : Ref sig .tc) (h0 : r ∉ hostOps0_W) (h1 : r ∉ ([main_v2_0, main_v2_1, main_v2_2, main_v2_3] : List (Ref sig .tc)))
    (h2 : r ∉ hostOps1_W) : W3 m c r = m ((c : Thread nD τ).loc r) :=
  (W3_of m c r h2).trans <| (W2_of m c r h1).trans <| (W1_of m c r h0).trans rfl
theorem W1_kept (c : Dev nD) (r : Ref sig .tc) (h0 : r ∉ hostOps0_W) : W1 m c r = m ((c : Thread nD τ).loc r) :=
  (W1_of m c r h0).trans rfl

end Cert.Kernel.Gen

end
-- ==== Proof.RunBits.lean ====
/-
  The run of `Kernel`'s @main: two reshapes, the first aggregation pass, a concatenation, the second pass, a concatenation.
  Each pass hands the adjacency to TWO of its windows (the top and the bottom half of the rows), so the adjacency's
  buffer enters a pass split into the two halves of its share and leaves it joined again; every other array is held
  whole. From the launch memory the unscoped buffers go through the fold of the stages' contents, and the final state
  holds the last stage.
-/
import proofs.«115625_g20418274525701_cont_8to1_1804_5_alg».proof.Proof.FoldBits
import proofs.«115625_g20418274525701_cont_8to1_1804_5_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem sep_congr' {M : Type} [URA M] {a a' b b' : sProp M} (ha : a = a') (hb : b = b') : iprop(a ∗ b) = iprop(a' ∗ b') := by
  rw [ha, hb]

section Shares
variable (V : (c : Dev nD) → (b : Ref sig .tc) → Buf (Elt F) ((c : Thread nD τ).loc b))

/-! ## Pass 0: the arrays behind the windows, one by one -/

theorem share0_0 (c : Dev nD) : (dat0 V c).share 0 = fullShare.left := rfl
theorem share0_1 (c : Dev nD) : (dat0 V c).share 1 = fullShare.right := rfl
theorem share0_2 (c : Dev nD) : (dat0 V c).share 2 = fullShare := rfl
theorem share0_3 (c : Dev nD) : (dat0 V c).share 3 = fullShare := rfl
theorem share0_4 (c : Dev nD) : (dat0 V c).share 4 = fullShare := rfl
theorem share0_5 (c : Dev nD) : (dat0 V c).share 5 = fullShare := rfl
theorem share0_6 (c : Dev nD) : (dat0 V c).share 6 = fullShare := rfl
theorem share0_7 (c : Dev nD) : (dat0 V c).share 7 = fullShare := rfl
theorem share0_8 (c : Dev nD) : (dat0 V c).share 8 = fullShare := rfl
theorem share0_9 (c : Dev nD) : (dat0 V c).share 9 = fullShare := rfl

/-- The distinct buffers behind pass 0's windows, each whole at the full share. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg1) ↦{fullShare} W main_arg1) ∗ (((c : Thread nD τ).loc main_arg0) ↦{fullShare} W main_arg0) ∗ (((c : Thread nD τ).loc main_arg2) ↦{fullShare} W main_arg2) ∗ (((c : Thread nD τ).loc main_v0) ↦{fullShare} W main_v0) ∗ (((c : Thread nD τ).loc main_arg4) ↦{fullShare} W main_arg4) ∗ (((c : Thread nD τ).loc main_v2_0) ↦{fullShare} W main_v2_0) ∗ (((c : Thread nD τ).loc main_v2_1) ↦{fullShare} W main_v2_1) ∗ (((c : Thread nD τ).loc main_v2_2) ↦{fullShare} W main_v2_2) ∗ (((c : Thread nD τ).loc main_v2_3) ↦{fullShare} W main_v2_3)) := by
  unfold Pipeline.arrBufs
  exact bigSep_eq_bigSepL_of_eq [main_arg1, main_arg0, main_arg2, main_v0, main_arg4, main_v2_0, main_v2_1, main_v2_2, main_v2_3] (by decide) (by decide) _

theorem arr0_0 (c : Dev nD) (Fw : (w : Fin cfg0.W) → Buf (Elt F) ((cfg0.win w).arr.view.loc (c : Thread nD τ))) :
    (((cfg0.win 0).arr.view.loc (c : Thread nD τ)) ↦[(cfg0.win 0).arr.view.set]{(dat0 V c).share 0} Fw 0 : sProp 𝕄)
      = (((c : Thread nD τ).loc main_arg1) ↦{fullShare.left} Fw 0) := by
  rw [(arr_whole0 0).set_eq_univ, share0_0]

theorem arr0_1 (c : Dev nD) (Fw : (w : Fin cfg0.W) → Buf (Elt F) ((cfg0.win w).arr.view.loc (c : Thread nD τ))) :
    (((cfg0.win 1).arr.view.loc (c : Thread nD τ)) ↦[(cfg0.win 1).arr.view.set]{(dat0 V c).share 1} Fw 1 : sProp 𝕄)
      = (((c : Thread nD τ).loc main_arg1) ↦{fullShare.right} Fw 1) := by
  rw [(arr_whole0 1).set_eq_univ, share0_1]

theorem arr0_2 (c : Dev nD) (Fw : (w : Fin cfg0.W) → Buf (Elt F) ((cfg0.win w).arr.view.loc (c : Thread nD τ))) :
    (((cfg0.win 2).arr.view.loc (c : Thread nD τ)) ↦[(cfg0.win 2).arr.view.set]{(dat0 V c).share 2} Fw 2 : sProp 𝕄)
      = (((c : Thread nD τ).loc main_arg0) ↦{fullShare} Fw 2) := by
  rw [(arr_whole0 2).set_eq_univ, share0_2]

theorem arr0_3 (c : Dev nD) (Fw : (w : Fin cfg0.W) → Buf (Elt F) ((cfg0.win w).arr.view.loc (c : Thread nD τ))) :
    (((cfg0.win 3).arr.view.loc (c : Thread nD τ)) ↦[(cfg0.win 3).arr.view.set]{(dat0 V c).share 3} Fw 3 : sProp 𝕄)
      = (((c : Thread nD τ).loc main_arg2) ↦{fullShare} Fw 3) := by
  rw [(arr_whole0 3).set_eq_univ, share0_3]

theorem arr0_4 (c : Dev nD) (Fw : (w : Fin cfg0.W) → Buf (Elt F) ((cfg0.win w).arr.view.loc (c : Thread nD τ))) :
    (((cfg0.win 4).arr.view.loc (c : Thread nD τ)) ↦[(cfg0.win 4).arr.view.set]{(dat0 V c).share 4} Fw 4 : sProp 𝕄)
      = (((c : Thread nD τ).loc main_v0) ↦{fullShare} Fw 4) := by
  rw [(arr_whole0 4).set_eq_univ, share0_4]

theorem arr0_5 (c : Dev nD) (Fw : (w : Fin cfg0.W) → Buf (Elt F) ((cfg0.win w).arr.view.loc (c : Thread nD τ))) :
    (((cfg0.win 5).arr.view.loc (c : Thread nD τ)) ↦[(cfg0.win 5).arr.view.set]{(dat0 V c).share 5} Fw 5 : sProp 𝕄)
      = (((c : Thread nD τ).loc main_arg4) ↦{fullShare} Fw 5) := by
  rw [(arr_whole0 5).set_eq_univ, share0_5]

theorem arr0_6 (c : Dev nD) (Fw : (w : Fin cfg0.W) → Buf (Elt F) ((cfg0.win w).arr.view.loc (c : Thread nD τ))) :
    (((cfg0.win 6).arr.view.loc (c : Thread nD τ)) ↦[(cfg0.win 6).arr.view.set]{(dat0 V c).share 6} Fw 6 : sProp 𝕄)
      = (((c : Thread nD τ).loc main_v2_0) ↦{fullShare} Fw 6) := by
  rw [(arr_whole0 6).set_eq_univ, share0_6]

theorem arr0_7 (c : Dev nD) (Fw : (w : Fin cfg0.W) → Buf (Elt F) ((cfg0.win w).arr.view.loc (c : Thread nD τ))) :
    (((cfg0.win 7).arr.view.loc (c : Thread nD τ)) ↦[(cfg0.win 7).arr.view.set]{(dat0 V c).share 7} Fw 7 : sProp 𝕄)
      = (((c : Thread nD τ).loc main_v2_1) ↦{fullShare} Fw 7) := by
  rw [(arr_whole0 7).set_eq_univ, share0_7]

theorem arr0_8 (c : Dev nD) (Fw : (w : Fin cfg0.W) → Buf (Elt F) ((cfg0.win w).arr.view.loc (c : Thread nD τ))) :
    (((cfg0.win 8).arr.view.loc (c : Thread nD τ)) ↦[(cfg0.win 8).arr.view.set]{(dat0 V c).share 8} Fw 8 : sProp 𝕄)
      = (((c : Thread nD τ).loc main_v2_2) ↦{fullShare} Fw 8) := by
  rw [(arr_whole0 8).set_eq_univ, share0_8]

theorem arr0_9 (c : Dev nD) (Fw : (w : Fin cfg0.W) → Buf (Elt F) ((cfg0.win w).arr.view.loc (c : Thread nD τ))) :
    (((cfg0.win 9).arr.view.loc (c : Thread nD τ)) ↦[(cfg0.win 9).arr.view.set]{(dat0 V c).share 9} Fw 9 : sProp 𝕄)
      = (((c : Thread nD τ).loc main_v2_3) ↦{fullShare} Fw 9) := by
  rw [(arr_whole0 9).set_eq_univ, share0_9]

/-- Pass 0's windows' arrays: the adjacency twice, at the two halves of its share; every other array once, whole. -/
theorem arrays0_eq (c : Dev nD) (Fw : (w : Fin cfg0.W) → Buf (Elt F) ((cfg0.win w).arr.view.loc (c : Thread nD τ))) :
    ((dat0 V c).arrays Fw : sProp 𝕄)
      = iprop((((c : Thread nD τ).loc main_arg1) ↦{fullShare.left} Fw 0) ∗ (((c : Thread nD τ).loc main_arg1) ↦{fullShare.right} Fw 1) ∗ (((c : Thread nD τ).loc main_arg0) ↦{fullShare} Fw 2) ∗ (((c : Thread nD τ).loc main_arg2) ↦{fullShare} Fw 3) ∗ (((c : Thread nD τ).loc main_v0) ↦{fullShare} Fw 4) ∗ (((c : Thread nD τ).loc main_arg4) ↦{fullShare} Fw 5) ∗ (((c : Thread nD τ).loc main_v2_0) ↦{fullShare} Fw 6) ∗ (((c : Thread nD τ).loc main_v2_1) ↦{fullShare} Fw 7) ∗ (((c : Thread nD τ).loc main_v2_2) ↦{fullShare} Fw 8) ∗ (((c : Thread nD τ).loc main_v2_3) ↦{fullShare} Fw 9)) := by
  unfold Dat.arrays
  exact (bigSep_W0 _).trans (sep_congr' (arr0_0 V c Fw) (sep_congr' (arr0_1 V c Fw) (sep_congr' (arr0_2 V c Fw) (sep_congr' (arr0_3 V c Fw) (sep_congr' (arr0_4 V c Fw) (sep_congr' (arr0_5 V c Fw) (sep_congr' (arr0_6 V c Fw) (sep_congr' (arr0_7 V c Fw) (sep_congr' (arr0_8 V c Fw) (arr0_9 V c Fw))))))))))

/-- The core's unscoped buffers are the buffers behind pass 0's windows and the rest. -/
theorem ub_split0 (c : Dev nD) (W : (b : Ref sig .tc) → Buf (Elt F) ((c : Thread nD τ).loc b)) :
    (unscopedBufs (Ix := Unit) (Name := ℕ) (U := UR sig nD τ) (Lvl := ℕ) c W : sProp 𝕄)
      = iprop((Pipeline.arrBufs (Ix := Unit) (Name := ℕ) (U := UR sig nD τ) (Lvl := ℕ) spec0 c W : sProp 𝕄)
          ∗ Pipeline.unscopedRest (Ix := Unit) (Name := ℕ) (U := UR sig nD τ) (Lvl := ℕ) spec0 c W) :=
  Pipeline.unscopedBufs_split₀ (fun _ : Fin 2 => cfg0) 0 winFacts₀0.arr_unscoped c W

/-- ENTRY: the buffers behind the windows, whole, make the pass's arrays — the adjacency's buffer split into the two
    halves of its share, one for each of the two windows that read it. -/
theorem arrays0_of_bufs (c : Dev nD) (W : (b : Ref sig .tc) → Buf (Elt F) ((c : Thread nD τ).loc b))
    (Fw : (w : Fin cfg0.W) → Buf (Elt F) ((cfg0.win w).arr.view.loc (c : Thread nD τ)))
    (h0 : Fw 0 = W main_arg1) (h1 : Fw 1 = W main_arg1) (h2 : Fw 2 = W main_arg0) (h3 : Fw 3 = W main_arg2) (h4 : Fw 4 = W main_v0) (h5 : Fw 5 = W main_arg4) (h6 : Fw 6 = W main_v2_0) (h7 : Fw 7 = W main_v2_1) (h8 : Fw 8 = W main_v2_2) (h9 : Fw 9 = W main_v2_3) :
    (Pipeline.arrBufs (Ix := Unit) (Name := ℕ) (U := UR sig nD τ) (Lvl := ℕ) spec0 c W : sProp 𝕄) ⊢ (dat0 V c).arrays Fw := by
  rw [arrBufs0_eq, arrays0_eq, h0, h1, h2, h3, h4, h5, h6, h7, h8, h9]
  iintro ⟨B0, B1, B2, B3, B4, B5, B6, B7, B8⟩
  ihave Hs := (pointsTo_share (PosShare.mem_left_op_right fullShare)).1 $$ B0
  icases Hs with ⟨Hl, Hr⟩
  isplitl [Hl]; · iexact Hl
  isplitl [Hr]; · iexact Hr
  isplitl [B1]; · iexact B1
  isplitl [B2]; · iexact B2
  isplitl [B3]; · iexact B3
  isplitl [B4]; · iexact B4
  isplitl [B5]; · iexact B5
  isplitl [B6]; · iexact B6
  isplitl [B7]; · iexact B7
  iexact B8

/-- EXIT: the pass's arrays make the buffers behind the windows whole again — the two halves of the adjacency's share,
    both at the one contents, joined. -/
theorem bufs0_of_arrays (c : Dev nD) (W : (b : Ref sig .tc) → Buf (Elt F) ((c : Thread nD τ).loc b))
    (Fw : (w : Fin cfg0.W) → Buf (Elt F) ((cfg0.win w).arr.view.loc (c : Thread nD τ)))
    (h0 : Fw 0 = W main_arg1) (h1 : Fw 1 = W main_arg1) (h2 : Fw 2 = W main_arg0) (h3 : Fw 3 = W main_arg2) (h4 : Fw 4 = W main_v0) (h5 : Fw 5 = W main_arg4) (h6 : Fw 6 = W main_v2_0) (h7 : Fw 7 = W main_v2_1) (h8 : Fw 8 = W main_v2_2) (h9 : Fw 9 = W main_v2_3) :
    ((dat0 V c).arrays Fw : sProp 𝕄) ⊢ (Pipeline.arrBufs (Ix := Unit) (Name := ℕ) (U := UR sig nD τ) (Lvl := ℕ) spec0 c W : sProp 𝕄) := by
  rw [arrBufs0_eq, arrays0_eq, h0, h1, h2, h3, h4, h5, h6, h7, h8, h9]
  iintro ⟨A0, A1, A2, A3, A4, A5, A6, A7, A8, A9⟩
  ihave Hj := (pointsTo_share (PosShare.mem_left_op_right fullShare)).2 $$ [A0 A1]
  · isplitl [A0]; · iexact A0
    iexact A1
  isplitl [Hj]; · iexact Hj
  isplitl [A2]; · iexact A2
  isplitl [A3]; · iexact A3
  isplitl [A4]; · iexact A4
  isplitl [A5]; · iexact A5
  isplitl [A6]; · iexact A6
  isplitl [A7]; · iexact A7
  isplitl [A8]; · iexact A8
  iexact A9

/-! ## Pass 1: the arrays behind the windows, one by one -/

theorem share1_0 (c : Dev nD) : (dat1 V c).share 0 = fullShare.left := rfl
theorem share1_1 (c : Dev nD) : (dat1 V c).share 1 = fullShare.right := rfl
theorem share1_2 (c : Dev nD) : (dat1 V c).share 2 = fullShare := rfl
theorem share1_3 (c : Dev nD) : (dat1 V c).share 3 = fullShare := rfl
theorem share1_4 (c : Dev nD) : (dat1 V c).share 4 = fullShare := rfl
theorem share1_5 (c : Dev nD) : (dat1 V c).share 5 = fullShare := rfl
theorem share1_6 (c : Dev nD) : (dat1 V c).share 6 = fullShare := rfl
theorem share1_7 (c : Dev nD) : (dat1 V c).share 7 = fullShare := rfl

/-- The distinct buffers behind pass 1's windows, each whole at the full share. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_arg1) ↦{fullShare} W main_arg1) ∗ (((c : Thread nD τ).loc main_v3) ↦{fullShare} W main_v3) ∗ (((c : Thread nD τ).loc main_v2_2) ↦{fullShare} W main_v2_2) ∗ (((c : Thread nD τ).loc main_v2_3) ↦{fullShare} W main_v2_3) ∗ (((c : Thread nD τ).loc main_v1) ↦{fullShare} W main_v1) ∗ (((c : Thread nD τ).loc main_v4_0) ↦{fullShare} W main_v4_0) ∗ (((c : Thread nD τ).loc main_v4_1) ↦{fullShare} W main_v4_1)) := by
  unfold Pipeline.arrBufs
  exact bigSep_eq_bigSepL_of_eq [main_arg1, main_v3, main_v2_2, main_v2_3, main_v1, main_v4_0, main_v4_1] (by decide) (by decide) _

theorem arr1_0 (c : Dev nD) (Fw : (w : Fin cfg1.W) → Buf (Elt F) ((cfg1.win w).arr.view.loc (c : Thread nD τ))) :
    (((cfg1.win 0).arr.view.loc (c : Thread nD τ)) ↦[(cfg1.win 0).arr.view.set]{(dat1 V c).share 0} Fw 0 : sProp 𝕄)
      = (((c : Thread nD τ).loc main_arg1) ↦{fullShare.left} Fw 0) := by
  rw [(arr_whole1 0).set_eq_univ, share1_0]

theorem arr1_1 (c : Dev nD) (Fw : (w : Fin cfg1.W) → Buf (Elt F) ((cfg1.win w).arr.view.loc (c : Thread nD τ))) :
    (((cfg1.win 1).arr.view.loc (c : Thread nD τ)) ↦[(cfg1.win 1).arr.view.set]{(dat1 V c).share 1} Fw 1 : sProp 𝕄)
      = (((c : Thread nD τ).loc main_arg1) ↦{fullShare.right} Fw 1) := by
  rw [(arr_whole1 1).set_eq_univ, share1_1]

theorem arr1_2 (c : Dev nD) (Fw : (w : Fin cfg1.W) → Buf (Elt F) ((cfg1.win w).arr.view.loc (c : Thread nD τ))) :
    (((cfg1.win 2).arr.view.loc (c : Thread nD τ)) ↦[(cfg1.win 2).arr.view.set]{(dat1 V c).share 2} Fw 2 : sProp 𝕄)
      = (((c : Thread nD τ).loc main_v3) ↦{fullShare} Fw 2) := by
  rw [(arr_whole1 2).set_eq_univ, share1_2]

theorem arr1_3 (c : Dev nD) (Fw : (w : Fin cfg1.W) → Buf (Elt F) ((cfg1.win w).arr.view.loc (c : Thread nD τ))) :
    (((cfg1.win 3).arr.view.loc (c : Thread nD τ)) ↦[(cfg1.win 3).arr.view.set]{(dat1 V c).share 3} Fw 3 : sProp 𝕄)
      = (((c : Thread nD τ).loc main_v2_2) ↦{fullShare} Fw 3) := by
  rw [(arr_whole1 3).set_eq_univ, share1_3]

theorem arr1_4 (c : Dev nD) (Fw : (w : Fin cfg1.W) → Buf (Elt F) ((cfg1.win w).arr.view.loc (c : Thread nD τ))) :
    (((cfg1.win 4).arr.view.loc (c : Thread nD τ)) ↦[(cfg1.win 4).arr.view.set]{(dat1 V c).share 4} Fw 4 : sProp 𝕄)
      = (((c : Thread nD τ).loc main_v2_3) ↦{fullShare} Fw 4) := by
  rw [(arr_whole1 4).set_eq_univ, share1_4]

theorem arr1_5 (c : Dev nD) (Fw : (w : Fin cfg1.W) → Buf (Elt F) ((cfg1.win w).arr.view.loc (c : Thread nD τ))) :
    (((cfg1.win 5).arr.view.loc (c : Thread nD τ)) ↦[(cfg1.win 5).arr.view.set]{(dat1 V c).share 5} Fw 5 : sProp 𝕄)
      = (((c : Thread nD τ).loc main_v1) ↦{fullShare} Fw 5) := by
  rw [(arr_whole1 5).set_eq_univ, share1_5]

theorem arr1_6 (c : Dev nD) (Fw : (w : Fin cfg1.W) → Buf (Elt F) ((cfg1.win w).arr.view.loc (c : Thread nD τ))) :
    (((cfg1.win 6).arr.view.loc (c : Thread nD τ)) ↦[(cfg1.win 6).arr.view.set]{(dat1 V c).share 6} Fw 6 : sProp 𝕄)
      = (((c : Thread nD τ).loc main_v4_0) ↦{fullShare} Fw 6) := by
  rw [(arr_whole1 6).set_eq_univ, share1_6]

theorem arr1_7 (c : Dev nD) (Fw : (w : Fin cfg1.W) → Buf (Elt F) ((cfg1.win w).arr.view.loc (c : Thread nD τ))) :
    (((cfg1.win 7).arr.view.loc (c : Thread nD τ)) ↦[(cfg1.win 7).arr.view.set]{(dat1 V c).share 7} Fw 7 : sProp 𝕄)
      = (((c : Thread nD τ).loc main_v4_1) ↦{fullShare} Fw 7) := by
  rw [(arr_whole1 7).set_eq_univ, share1_7]

/-- Pass 1's windows' arrays: the adjacency twice, at the two halves of its share; every other array once, whole. -/
theorem arrays1_eq (c : Dev nD) (Fw : (w : Fin cfg1.W) → Buf (Elt F) ((cfg1.win w).arr.view.loc (c : Thread nD τ))) :
    ((dat1 V c).arrays Fw : sProp 𝕄)
      = iprop((((c : Thread nD τ).loc main_arg1) ↦{fullShare.left} Fw 0) ∗ (((c : Thread nD τ).loc main_arg1) ↦{fullShare.right} Fw 1) ∗ (((c : Thread nD τ).loc main_v3) ↦{fullShare} Fw 2) ∗ (((c : Thread nD τ).loc main_v2_2) ↦{fullShare} Fw 3) ∗ (((c : Thread nD τ).loc main_v2_3) ↦{fullShare} Fw 4) ∗ (((c : Thread nD τ).loc main_v1) ↦{fullShare} Fw 5) ∗ (((c : Thread nD τ).loc main_v4_0) ↦{fullShare} Fw 6) ∗ (((c : Thread nD τ).loc main_v4_1) ↦{fullShare} Fw 7)) := by
  unfold Dat.arrays
  exact (bigSep_W1 _).trans (sep_congr' (arr1_0 V c Fw) (sep_congr' (arr1_1 V c Fw) (sep_congr' (arr1_2 V c Fw) (sep_congr' (arr1_3 V c Fw) (sep_congr' (arr1_4 V c Fw) (sep_congr' (arr1_5 V c Fw) (sep_congr' (arr1_6 V c Fw) (arr1_7 V c Fw))))))))

/-- The core's unscoped buffers are the buffers behind pass 1's windows and the rest. -/
theorem ub_split1 (c : Dev nD) (W : (b : Ref sig .tc) → Buf (Elt F) ((c : Thread nD τ).loc b)) :
    (unscopedBufs (Ix := Unit) (Name := ℕ) (U := UR sig nD τ) (Lvl := ℕ) c W : sProp 𝕄)
      = iprop((Pipeline.arrBufs (Ix := Unit) (Name := ℕ) (U := UR sig nD τ) (Lvl := ℕ) spec1 c W : sProp 𝕄)
          ∗ Pipeline.unscopedRest (Ix := Unit) (Name := ℕ) (U := UR sig nD τ) (Lvl := ℕ) spec1 c W) :=
  Pipeline.unscopedBufs_split₀ (fun _ : Fin 2 => cfg1) 0 winFacts₀1.arr_unscoped c W

/-- ENTRY: the buffers behind the windows, whole, make the pass's arrays — the adjacency's buffer split into the two
    halves of its share, one for each of the two windows that read it. -/
theorem arrays1_of_bufs (c : Dev nD) (W : (b : Ref sig .tc) → Buf (Elt F) ((c : Thread nD τ).loc b))
    (Fw : (w : Fin cfg1.W) → Buf (Elt F) ((cfg1.win w).arr.view.loc (c : Thread nD τ)))
    (h0 : Fw 0 = W main_arg1) (h1 : Fw 1 = W main_arg1) (h2 : Fw 2 = W main_v3) (h3 : Fw 3 = W main_v2_2) (h4 : Fw 4 = W main_v2_3) (h5 : Fw 5 = W main_v1) (h6 : Fw 6 = W main_v4_0) (h7 : Fw 7 = W main_v4_1) :
    (Pipeline.arrBufs (Ix := Unit) (Name := ℕ) (U := UR sig nD τ) (Lvl := ℕ) spec1 c W : sProp 𝕄) ⊢ (dat1 V c).arrays Fw := by
  rw [arrBufs1_eq, arrays1_eq, h0, h1, h2, h3, h4, h5, h6, h7]
  iintro ⟨B0, B1, B2, B3, B4, B5, B6⟩
  ihave Hs := (pointsTo_share (PosShare.mem_left_op_right fullShare)).1 $$ B0
  icases Hs with ⟨Hl, Hr⟩
  isplitl [Hl]; · iexact Hl
  isplitl [Hr]; · iexact Hr
  isplitl [B1]; · iexact B1
  isplitl [B2]; · iexact B2
  isplitl [B3]; · iexact B3
  isplitl [B4]; · iexact B4
  isplitl [B5]; · iexact B5
  iexact B6

/-- EXIT: the pass's arrays make the buffers behind the windows whole again — the two halves of the adjacency's share,
    both at the one contents, joined. -/
theorem bufs1_of_arrays (c : Dev nD) (W : (b : Ref sig .tc) → Buf (Elt F) ((c : Thread nD τ).loc b))
    (Fw : (w : Fin cfg1.W) → Buf (Elt F) ((cfg1.win w).arr.view.loc (c : Thread nD τ)))
    (h0 : Fw 0 = W main_arg1) (h1 : Fw 1 = W main_arg1) (h2 : Fw 2 = W main_v3) (h3 : Fw 3 = W main_v2_2) (h4 : Fw 4 = W main_v2_3) (h5 : Fw 5 = W main_v1) (h6 : Fw 6 = W main_v4_0) (h7 : Fw 7 = W main_v4_1) :
    ((dat1 V c).arrays Fw : sProp 𝕄) ⊢ (Pipeline.arrBufs (Ix := Unit) (Name := ℕ) (U := UR sig nD τ) (Lvl := ℕ) spec1 c W : sProp 𝕄) := by
  rw [arrBufs1_eq, arrays1_eq, h0, h1, h2, h3, h4, h5, h6, h7]
  iintro ⟨A0, A1, A2, A3, A4, A5, A6, A7⟩
  ihave Hj := (pointsTo_share (PosShare.mem_left_op_right fullShare)).2 $$ [A0 A1]
  · isplitl [A0]; · iexact A0
    iexact A1
  isplitl [Hj]; · iexact Hj
  isplitl [A2]; · iexact A2
  isplitl [A3]; · iexact A3
  isplitl [A4]; · iexact A4
  isplitl [A5]; · iexact A5
  isplitl [A6]; · iexact A6
  iexact A7

end Shares

/-! # The run: @main's five items from the launch to the return -/

variable (m : (ℓ : Loc nD τ sig) → Buf (Elt F) ℓ) (ρ : Dev nD → PrngReg)

/-- Every pipeline's proof data, each at its pass's entry contents. -/
def pdats : (p : Fin 2) → (c : Dev nD) → Dat τ (Elt F) Unit ℕ (UR sig nD τ) ℕ (Pipeline.pin (pcfgs (F := F)) adm p) c
  | ⟨0, _⟩ => fun c => dat0 (T1 m) c
  | ⟨1, _⟩ => fun c => dat1 (T3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch as a segment over the unscoped buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## What the passes leave in the buffers they do not window -/

theorem rest0_eq (c : Dev nD) :
    (Pipeline.unscopedRest (Ix := Unit) (Name := ℕ) (U := UR sig nD τ) (Lvl := ℕ) spec0 c (T2 m c) : sProp 𝕄)
      = Pipeline.unscopedRest (Ix := Unit) (Name := ℕ) (U := UR sig nD τ) (Lvl := ℕ) spec0 c (T1 m c) := by
  have e : ∀ r : Ref sig .tc, r ∉ ([main_v2_0, main_v2_1, main_v2_2, main_v2_3] : List (Ref sig .tc)) → T2 m c r = T1 m c r :=
    fun r h => W2_of m c r h
  rw [unscopedRest0_eq, unscopedRest0_eq]
  rw [e main_arg3 (by decide), e main_arg5 (by decide), e main_v1 (by decide), e main_v3 (by decide),
    e main_v4_0 (by decide), e main_v4_1 (by decide), e main_v5 (by decide)]

theorem rest1_eq (c : Dev nD) :
    (Pipeline.unscopedRest (Ix := Unit) (Name := ℕ) (U := UR sig nD τ) (Lvl := ℕ) spec1 c (T4 m c) : sProp 𝕄)
      = Pipeline.unscopedRest (Ix := Unit) (Name := ℕ) (U := UR sig nD τ) (Lvl := ℕ) spec1 c (T3 m c) := by
  have e : ∀ r : Ref sig .tc, r ∉ ([main_v4_0, main_v4_1] : List (Ref sig .tc)) → T4 m c r = T3 m c r :=
    fun r h => W4_of m c r h
  rw [unscopedRest1_eq, unscopedRest1_eq]
  rw [e main_arg0 (by decide), e main_arg2 (by decide), e main_arg3 (by decide), e main_arg4 (by decide),
    e main_arg5 (by decide), e main_v0 (by decide), e main_v2_0 (by decide), e main_v2_1 (by decide),
    e main_v5 (by decide)]

/-- An input window's array is never written: after every point it holds what the pass found. -/
theorem in0 (c : Dev nD) (w : Fin cfg0.W) (hw : (cfg0.win w).isOut = false) (r : Ref sig .tc) (hr : Pipeline.arrRef spec0 w = r)
    (h : r ∉ ([main_v2_0, main_v2_1, main_v2_2, main_v2_3] : List (Ref sig .tc))) :
    (dat0 (T1 m) c).arrAt w cfg0.N = T2 m c (Pipeline.arrRef spec0 w) := by
  subst hr
  exact ((dat0 (T1 m) c).arrAt_in w hw _).trans ((A_eq0 (T1 m) c w).trans (W2_of m c _ h).symm)
theorem in1 (c : Dev nD) (w : Fin cfg1.W) (hw : (cfg1.win w).isOut = false) (r : Ref sig .tc) (hr : Pipeline.arrRef spec1 w = r)
    (h : r ∉ ([main_v4_0, main_v4_1] : List (Ref sig .tc))) :
    (dat1 (T3 m) c).arrAt w cfg1.N = T4 m c (Pipeline.arrRef spec1 w) := by
  subst hr
  exact ((dat1 (T3 m) c).arrAt_in w hw _).trans ((A_eq1 (T3 m) c w).trans (W4_of m c _ h).symm)

set_option backward.isDefEq.respectTransparency.types false in
/-- Pass 0 as a segment of @main: entered from every unscoped buffer at the stage before it, left at the stage after it.
    Its arrays are split out of the unscoped buffers (the adjacency's share halved between its two windows) and put
    back at the exit contents; the generator register goes into the pass's invariant and out; nothing is owed; the
    kernel has no semaphore of its own. -/
def reg0 (hb : ∀ c : Dev nD, BodyObligation (dat0 (F := F) (T1 m) c) (defs₀ (F := F)) Variants.none () Set.univ) :
    Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (hb c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit : (StableHlo.held (c : Thread nD τ) (Pipeline.ucRefs τ sig) (W1 m c) : sProp 𝕄)
        ⊢ iprop((dat0 (T1 m) c).arrays ((dat0 (T1 m) c).arrAt · 0)
            ∗ Pipeline.unscopedRest (Ix := Unit) (Name := ℕ) (U := UR sig nD τ) (Lvl := ℕ) spec0 c (T1 m c)) := by
      rw [← Pipeline.unscopedBufs_held, ub_split0]
      exact sep_mono (arrays0_of_bufs (T1 m) c (T1 m c) _ rfl rfl rfl rfl rfl rfl rfl rfl rfl rfl) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((dat0 (T1 m) c).arrays ((dat0 (T1 m) c).arrAt · cfg0.N)
            ∗ Pipeline.unscopedRest (Ix := Unit) (Name := ℕ) (U := UR sig nD τ) (Lvl := ℕ) spec0 c (T1 m c))
        ⊢ (StableHlo.held (c : Thread nD τ) (Pipeline.ucRefs τ sig) (W2 m c) : sProp 𝕄) := by
      rw [← Pipeline.unscopedBufs_held, ub_split0, rest0_eq m c]
      exact sep_mono (bufs0_of_arrays (T1 m) c _ _ (in0 m c 0 rfl main_arg1 rfl (by decide)) (in0 m c 1 rfl main_arg1 rfl (by decide)) (in0 m c 2 rfl main_arg0 rfl (by decide)) (in0 m c 3 rfl main_arg2 rfl (by decide)) (in0 m c 4 rfl main_v0 rfl (by decide)) (in0 m c 5 rfl main_arg4 rfl (by decide)) (W2_v2_0 m c).symm (W2_v2_1 m c).symm (W2_v2_2 m c).symm (W2_v2_3 m c).symm) .rfl
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Pass 1 as a segment of @main: entered from every unscoped buffer at the stage before it, left at the stage after it.
    Its arrays are split out of the unscoped buffers (the adjacency's share halved between its two windows) and put
    back at the exit contents; the generator register goes into the pass's invariant and out; nothing is owed; the
    kernel has no semaphore of its own. -/
def reg1 (hb : ∀ c : Dev nD, BodyObligation (dat1 (F := F) (T3 m) c) (defs₀ (F := F)) Variants.none () Set.univ) :
    Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (hb c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (T3 m c)
  hentry c := by
    rw [Pipeline.ownSems0_none]
    have hsplit : (StableHlo.held (c : Thread nD τ) (Pipeline.ucRefs τ sig) (W3 m c) : sProp 𝕄)
        ⊢ iprop((dat1 (T3 m) c).arrays ((dat1 (T3 m) c).arrAt · 0)
            ∗ Pipeline.unscopedRest (Ix := Unit) (Name := ℕ) (U := UR sig nD τ) (Lvl := ℕ) spec1 c (T3 m c)) := by
      rw [← Pipeline.unscopedBufs_held, ub_split1]
      exact sep_mono (arrays1_of_bufs (T3 m) c (T3 m c) _ rfl rfl rfl rfl rfl rfl rfl rfl) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((dat1 (T3 m) c).arrays ((dat1 (T3 m) c).arrAt · cfg1.N)
            ∗ Pipeline.unscopedRest (Ix := Unit) (Name := ℕ) (U := UR sig nD τ) (Lvl := ℕ) spec1 c (T3 m c))
        ⊢ (StableHlo.held (c : Thread nD τ) (Pipeline.ucRefs τ sig) (W4 m c) : sProp 𝕄) := by
      rw [← Pipeline.unscopedBufs_held, ub_split1, rest1_eq m c]
      exact sep_mono (bufs1_of_arrays (T3 m) c _ _ (in1 m c 0 rfl main_arg1 rfl (by decide)) (in1 m c 1 rfl main_arg1 rfl (by decide)) (in1 m c 2 rfl main_v3 rfl (by decide)) (in1 m c 3 rfl main_v2_2 rfl (by decide)) (in1 m c 4 rfl main_v2_3 rfl (by decide)) (in1 m c 5 rfl main_v1 rfl (by decide)) (W4_v4_0 m c).symm (W4_v4_1 m c).symm) .rfl
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

/-- @main's five segments in order. -/
abbrev mainSegs (hb0 : ∀ c : Dev nD, BodyObligation (dat0 (F := F) (T1 m) c) (defs₀ (F := F)) Variants.none () Set.univ)
    (hb1 : ∀ c : Dev nD, BodyObligation (dat1 (F := F) (T3 m) c) (defs₀ (F := F)) Variants.none () Set.univ) : List (Pipeline.Seg (pcfgs (F := F)) adm (pdats m) () defs₀ 𝒱₀ L lv) :=
  [ .host (hseg hostOps0 hostOps0_sub hostOps0_fresh (W0 m)),
    .region (reg0 m hb0),
    .host (hseg hostOps1 hostOps1_sub hostOps1_fresh (W2 m)),
    .region (reg1 m hb1),
    .host (hseg hostOps2 hostOps2_sub hostOps2_fresh (W4 m)) ]
/-- @main IS the run of the segments. -/
theorem main_run (hb0 : ∀ c : Dev nD, BodyObligation (dat0 (F := F) (T1 m) c) (defs₀ (F := F)) Variants.none () Set.univ)
    (hb1 : ∀ c : Dev nD, BodyObligation (dat1 (F := F) (T3 m) c) (defs₀ (F := F)) Variants.none () Set.univ) (c : Dev nD) : main (F := F) c = Pipeline.Seg.run (mainSegs m hb0 hb1) := (main_chain c).trans (by chain_rfl)

/-- The last thread state without the dues: every unscoped buffer at the last stage's contents, the generator register at
    some state. -/
abbrev Tₙ (c : Dev nD) : sProp 𝕄 := iprop(StableHlo.held (c : Thread nD τ) (Pipeline.ucRefs τ sig) (W5 m c) ∗ ∃ r, prngReg c r)

set_option backward.isDefEq.respectTransparency.types false in
/-- THE RUN: from any memory with zero counters every weakly fair execution of @main terminates, nothing faulting, and
    every final state holds every unscoped buffer at the last stage of the fold. -/
theorem run_fold (hb0 : ∀ c : Dev nD, BodyObligation (dat0 (F := F) (T1 m) c) (defs₀ (F := F)) Variants.none () Set.univ)
    (hb1 : ∀ c : Dev nD, BodyObligation (dat1 (F := F) (T3 m) c) (defs₀ (F := F)) Variants.none () Set.univ) : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (mainSegs m hb0 hb1)
    (fun c Q => by rw [main_run m hb0 hb1 c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- The frame claim and the result's buffer, read off the fold: the result holds the last concatenation; every argument
    holds what it was launched with. -/
theorem run_result (hb0 : ∀ c : Dev nD, BodyObligation (dat0 (F := F) (T1 m) c) (defs₀ (F := F)) Variants.none () Set.univ)
    (hb1 : ∀ c : Dev nD, BodyObligation (dat1 (F := F) (T3 m) c) (defs₀ (F := F)) Variants.none () Set.univ) : θ_run defs (onTc (τ := τ) (main (F := F))) ⟨m, fun _ => 0, ρ⟩ (fun r => ∀ c : Dev nD,
      r.2.mem ((c.tc : Thread nD τ).loc main_v5) = W5 m c main_v5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v5 (by decide)),
     (h c _ (mem_uc main_arg0 (by decide))).trans (W5_kept m c main_arg0 (by decide) (by decide) (by decide) (by decide) (by decide)),
     (h c _ (mem_uc main_arg1 (by decide))).trans (W5_kept m c main_arg1 (by decide) (by decide) (by decide) (by decide) (by decide)),
     (h c _ (mem_uc main_arg2 (by decide))).trans (W5_kept m c main_arg2 (by decide) (by decide) (by decide) (by decide) (by decide)),
     (h c _ (mem_uc main_arg3 (by decide))).trans (W5_kept m c main_arg3 (by decide) (by decide) (by decide) (by decide) (by decide)),
     (h c _ (mem_uc main_arg4 (by decide))).trans (W5_kept m c main_arg4 (by decide) (by decide) (by decide) (by decide) (by decide)),
     (h c _ (mem_uc main_arg5 (by decide))).trans (W5_kept m c main_arg5 (by decide) (by decide) (by decide) (by decide) (by decide))⟩)
    (run_fold m ρ hb0 hb1)

end Cert.Kernel.Gen

end
-- ==== Proof.BodyIdeal.lean ====
/-
  The body of each of the two aggregation passes at a grid point.

  Each body reads the whole of every input window's staging buffer and writes the whole of every result window's
  staging buffer, once; what it leaves in a result's buffer is the body's value of the input buffers' contents. At a
  grid point every input's buffer holds the window's block there (fetched at that point, or at an earlier point
  since which the block index has not moved), so the body leaves in each result's buffer the value of the point's
  input blocks, and every input's buffer as it was.
-/
import proofs.«115625_g20418274525701_cont_8to1_1804_5_alg».proof.Proof.DataIdeal
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offsets of a whole-buffer access, as the constant function. -/
theorem zeros2' : (![0, 0] : Fin 2 → ℕ) = fun _ => 0 := by
  funext a; fin_cases a <;> rfl

/-- A load through the whole-buffer rectangle at zero offsets reads what the view reads. -/
theorem readAt_unit_zero {κ : Kind} {sp : Space} {S : Shape} {e : EltTy} (v : View sig κ sp S e) {off : Fin S.rank → ℕ}
    (h : off = fun _ => 0) (inb : ∀ a, off a + S.size a ≤ S.size a) (f : v.ty.Contents (Elt F)) :
    v.readAt (Elt F) (Rect.unit off S.size inb).toLoadRect f = v.read (Elt F) f :=
  View.ld_unit_zero (S := S) h inb (v.read (Elt F) f)

/-- One store through it, over any contents, leaves its payload. -/
theorem read_writes_unit_zero {κ : Kind} {sp : Space} {S : Shape} {e : EltTy} (v : View sig κ sp S e) {off : Fin S.rank → ℕ}
    (h : off = fun _ => 0) (inb : ∀ a, off a + S.size a ≤ S.size a) (f : v.ty.Contents (Elt F)) (w : S.Idx → Elt F e) :
    v.read (Elt F) (v.writes (Elt F) f [(⟨Rect.unit off S.size inb, w⟩ : View.Piece (Elt F) S e)]) = w :=
  (View.read_writes_eq_canon v f _ (fun y => ⟨_, List.mem_singleton_self _, View.mem_set_unit_zero (S := S) h inb y⟩)).trans
    (View.canon_unit_zero (S := S) h inb w)

/-! # The first pass -/

/-- Input window 0's current staging buffer holds its block at every point, fetched there or not: unfetched, the
    block index has not moved since the fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

/-- Input window 1's current staging buffer holds its block at every point, fetched there or not: unfetched, the
    block index has not moved since the fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_1 (c : Dev nD) (t : Fin cfg0.N) (d) : (dat0 V c).before 1 t d = iblk0 V c 1 t :=
  before0_1_of V (dat0 V c) (A_eq0 V c 1) (after0_1 V c) t d

/-- Input window 2's current staging buffer holds its block at every point, fetched there or not: unfetched, the
    block index has not moved since the fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_2 (c : Dev nD) (t : Fin cfg0.N) (d) : (dat0 V c).before 2 t d = iblk0 V c 2 t :=
  before0_2_of V (dat0 V c) (A_eq0 V c 2) (after0_2 V c) t d

/-- Input window 3's current staging buffer holds its block at every point, fetched there or not: unfetched, the
    block index has not moved since the fetch. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_3 (c : Dev nD) (t : Fin cfg0.N) (d) : (dat0 V c).before 3 t d = iblk0 V c 3 t :=
  before0_3_of V (dat0 V c) (A_eq0 V c 3) (after0_3 V c) t d

/-- Input window 4's current staging buffer holds its block at every point, fetched there or not: unfetched, the
    block index has not moved since the fetch. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_4 (c : Dev nD) (t : Fin cfg0.N) (d) : (dat0 V c).before 4 t d = iblk0 V c 4 t :=
  before0_4_of V (dat0 V c) (A_eq0 V c 4) (after0_4 V c) t d

/-- Input window 5's current staging buffer holds its block at every point, fetched there or not: unfetched, the
    block index has not moved since the fetch. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_5 (c : Dev nD) (t : Fin cfg0.N) (d) : (dat0 V c).before 5 t d = iblk0 V c 5 t :=
  before0_5_of V (dat0 V c) (A_eq0 V c 5) (after0_5 V c) t d

set_option maxHeartbeats 4000000 in
/-- The body on whole staging buffers, the inputs' at contents `xW` and the results' at anything, runs to the
    continuation holding the inputs' as they were and each result's at the body's value of the inputs' contents. -/
theorem sound_kernel0 (c : Dev nD) (E : Set ℕ) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S256x40 .f32) (harg6 : arg6.IsWhole) (arg7 : Memref sig .tc .vmem S200x40 .f32) (harg7 : arg7.IsWhole) (arg8 : Memref sig .tc .vmem S200x40 .f32) (harg8 : arg8.IsWhole) (arg9 : Memref sig .tc .vmem S200x1 .f32) (harg9 : arg9.IsWhole) (arg10 : Memref sig .tc .vmem S200x1 .f32) (harg10 : arg10.IsWhole)
    (x0 : Vec F S200x10000 .f32) (x1 : Vec F S200x10000 .f32) (x2 : Vec F S10000x128 .f32) (x3 : Vec F S128x256 .f32) (x4 : Vec F S1x256 .f32) (x5 : Vec F S256x40 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ (∃ d, owns (c : Thread nD τ) arg7 fullShare d)
        ∗ (∃ d, owns (c : Thread nD τ) arg8 fullShare d)
        ∗ (∃ d, owns (c : Thread nD τ) arg9 fullShare d)
        ∗ (∃ d, owns (c : Thread nD τ) arg10 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare (k0_pay4 x2 x3 x4 x5 x0)
            ∗ owns (c : Thread nD τ) arg8 fullShare (k0_pay1 x5 (k0_pay6 x2 x3 x1) (k0_pay7 x4))
            ∗ owns (c : Thread nD τ) arg9 fullShare (k0_pay3 x0)
            ∗ owns (c : Thread nD τ) arg10 fullShare (k0_pay5 x1)) -∗ K ⟨⟩))
      ⊢ wp frame (wpE (defs₀ (F := F)) Variants.none c none) E (cc0__pass1_body i arg1 harg1 arg2 harg2 arg3 harg3 arg4 harg4 arg5 harg5 arg6 harg6 arg7 harg7 arg8 harg8 arg9 harg9 arg10 harg10) K := by
  simp only [cc0__pass1_body_eq_skeleton, k0_part1_eq_skeleton]; unfold cc0__pass1_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (read_writes_unit_zero _ zeros2' _ _ _).trans ?_
    simp only [readAt_unit_zero (S := S200x10000) _ zeros2', readAt_unit_zero (S := S10000x128) _ zeros2',
      readAt_unit_zero (S := S128x256) _ zeros2', readAt_unit_zero (S := S1x256) _ zeros2',
      readAt_unit_zero (S := S256x40) _ zeros2']
  isplitl [H7]
  · iexists _; isplitr
    swap; · iexact H7
    ipureintro
    refine (read_writes_unit_zero _ zeros2' _ _ _).trans ?_
    unfold sound_kernel0.sl.r sound_kernel0.sl.r_2 sound_kernel0.sl.r_3
    simp only [readAt_unit_zero (S := S200x10000) _ zeros2', readAt_unit_zero (S := S10000x128) _ zeros2',
      readAt_unit_zero (S := S128x256) _ zeros2', readAt_unit_zero (S := S1x256) _ zeros2',
      readAt_unit_zero (S := S256x40) _ zeros2']
  isplitl [H8]
  · iexists _; isplitr
    swap; · iexact H8
    ipureintro
    refine (read_writes_unit_zero _ zeros2' _ _ _).trans ?_
    simp only [readAt_unit_zero (S := S200x10000) _ zeros2', readAt_unit_zero (S := S10000x128) _ zeros2',
      readAt_unit_zero (S := S128x256) _ zeros2', readAt_unit_zero (S := S1x256) _ zeros2',
      readAt_unit_zero (S := S256x40) _ zeros2']
  iexists _; isplitr
  swap; · iexact H9
  ipureintro
  refine (read_writes_unit_zero _ zeros2' _ _ _).trans ?_
  unfold sound_kernel0.sl.r_1
  simp only [readAt_unit_zero (S := S200x10000) _ zeros2', readAt_unit_zero (S := S10000x128) _ zeros2',
      readAt_unit_zero (S := S128x256) _ zeros2', readAt_unit_zero (S := S1x256) _ zeros2',
      readAt_unit_zero (S := S256x40) _ zeros2']

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 4000000 in
/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation of the pass, at every point. -/
theorem body_obligation0 (c : Dev nD) : BodyObligation (dat0 (F := F) V c) (defs₀ (F := F)) Variants.none () Set.univ := fun t => by
  rw [bigSep_W0, bigSep_W0]
  exact sound_body0 V c t

/-! # The second pass -/

/-- Input window 0's current staging buffer holds its block at every point, fetched there or not: unfetched, the
    block index has not moved since the fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d

/-- Input window 1's current staging buffer holds its block at every point, fetched there or not: unfetched, the
    block index has not moved since the fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_1 (c : Dev nD) (t : Fin cfg1.N) (d) : (dat1 V c).before 1 t d = iblk1 V c 1 t :=
  before1_1_of V (dat1 V c) (A_eq1 V c 1) (after1_1 V c) t d

/-- Input window 2's current staging buffer holds its block at every point, fetched there or not: unfetched, the
    block index has not moved since the fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_2 (c : Dev nD) (t : Fin cfg1.N) (d) : (dat1 V c).before 2 t d = iblk1 V c 2 t :=
  before1_2_of V (dat1 V c) (A_eq1 V c 2) (after1_2 V c) t d

/-- Input window 3's current staging buffer holds its block at every point, fetched there or not: unfetched, the
    block index has not moved since the fetch. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_3 (c : Dev nD) (t : Fin cfg1.N) (d) : (dat1 V c).before 3 t d = iblk1 V c 3 t :=
  before1_3_of V (dat1 V c) (A_eq1 V c 3) (after1_3 V c) t d

/-- Input window 4's current staging buffer holds its block at every point, fetched there or not: unfetched, the
    block index has not moved since the fetch. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_4 (c : Dev nD) (t : Fin cfg1.N) (d) : (dat1 V c).before 4 t d = iblk1 V c 4 t :=
  before1_4_of V (dat1 V c) (A_eq1 V c 4) (after1_4 V c) t d

/-- Input window 5's current staging buffer holds its block at every point, fetched there or not: unfetched, the
    block index has not moved since the fetch. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_5 (c : Dev nD) (t : Fin cfg1.N) (d) : (dat1 V c).before 5 t d = iblk1 V c 5 t :=
  before1_5_of V (dat1 V c) (A_eq1 V c 5) (after1_5 V c) t d

set_option maxHeartbeats 4000000 in
/-- The body on whole staging buffers, the inputs' at contents `xW` and the results' at anything, runs to the
    continuation holding the inputs' as they were and each result's at the body's value of the inputs' contents. -/
theorem sound_kernel1 (c : Dev nD) (E : Set ℕ) (i : grid1.Coords) (arg1 : Memref sig .tc .vmem S200x10000 .f32) (harg1 : arg1.IsWhole) (arg2 : Memref sig .tc .vmem S200x10000 .f32) (harg2 : arg2.IsWhole) (arg3 : Memref sig .tc .vmem S10000x40 .f32) (harg3 : arg3.IsWhole) (arg4 : Memref sig .tc .vmem S200x1 .f32) (harg4 : arg4.IsWhole) (arg5 : Memref sig .tc .vmem S200x1 .f32) (harg5 : arg5.IsWhole) (arg6 : Memref sig .tc .vmem S1x40 .f32) (harg6 : arg6.IsWhole) (arg7 : Memref sig .tc .vmem S200x40 .f32) (harg7 : arg7.IsWhole) (arg8 : Memref sig .tc .vmem S200x40 .f32) (harg8 : arg8.IsWhole)
    (x0 : Vec F S200x10000 .f32) (x1 : Vec F S200x10000 .f32) (x2 : Vec F S10000x40 .f32) (x3 : Vec F S200x1 .f32) (x4 : Vec F S200x1 .f32) (x5 : Vec F S1x40 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ (∃ d, owns (c : Thread nD τ) arg7 fullShare d)
        ∗ (∃ d, owns (c : Thread nD τ) arg8 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare (k1_pay3 x2 x5 x0 x3)
            ∗ owns (c : Thread nD τ) arg8 fullShare (k1_pay4 x2 x5 x1 x4)) -∗ K ⟨⟩))
      ⊢ wp frame (wpE (defs₀ (F := F)) Variants.none c none) E (cc1__pass2_body i arg1 harg1 arg2 harg2 arg3 harg3 arg4 harg4 arg5 harg5 arg6 harg6 arg7 harg7 arg8 harg8) K := by
  simp only [cc1__pass2_body_eq_skeleton]; unfold cc1__pass2_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (read_writes_unit_zero _ zeros2' _ _ _).trans ?_
    congr 1 <;> exact readAt_unit_zero _ zeros2' _ _
  iexists _; isplitr
  swap; · iexact H7
  ipureintro
  refine (read_writes_unit_zero _ zeros2' _ _ _).trans ?_
  congr 1 <;> exact readAt_unit_zero _ zeros2' _ _

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 4000000 in
/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the pass, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Gen

end
-- ==== Proof.BodyBits.lean ====
/-
  The body of each of the two aggregation passes at a grid point.

  Each body reads the whole of every input window's staging buffer and writes the whole of every result window's
  staging buffer, once; what it leaves in a result's buffer is the body's value of the input buffers' contents. At a
  grid point every input's buffer holds the window's block there (fetched at that point, or at an earlier point
  since which the block index has not moved), so the body leaves in each result's buffer the value of the point's
  input blocks, and every input's buffer as it was.
-/
import proofs.«115625_g20418274525701_cont_8to1_1804_5_alg».proof.Proof.DataBits
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offsets of a whole-buffer access, as the constant function. -/
theorem zeros2' : (![0, 0] : Fin 2 → ℕ) = fun _ => 0 := by
  funext a; fin_cases a <;> rfl

/-- A load through the whole-buffer rectangle at zero offsets reads what the view reads. -/
theorem readAt_unit_zero {κ : Kind} {sp : Space} {S : Shape} {e : EltTy} (v : View sig κ sp S e) {off : Fin S.rank → ℕ}
    (h : off = fun _ => 0) (inb : ∀ a, off a + S.size a ≤ S.size a) (f : v.ty.Contents (Elt F)) :
    v.readAt (Elt F) (Rect.unit off S.size inb).toLoadRect f = v.read (Elt F) f :=
  View.ld_unit_zero (S := S) h inb (v.read (Elt F) f)

/-- One store through it, over any contents, leaves its payload. -/
theorem read_writes_unit_zero {κ : Kind} {sp : Space} {S : Shape} {e : EltTy} (v : View sig κ sp S e) {off : Fin S.rank → ℕ}
    (h : off = fun _ => 0) (inb : ∀ a, off a + S.size a ≤ S.size a) (f : v.ty.Contents (Elt F)) (w : S.Idx → Elt F e) :
    v.read (Elt F) (v.writes (Elt F) f [(⟨Rect.unit off S.size inb, w⟩ : View.Piece (Elt F) S e)]) = w :=
  (View.read_writes_eq_canon v f _ (fun y => ⟨_, List.mem_singleton_self _, View.mem_set_unit_zero (S := S) h inb y⟩)).trans
    (View.canon_unit_zero (S := S) h inb w)

/-! # The first pass -/

/-- Input window 0's current staging buffer holds its block at every point, fetched there or not: unfetched, the
    block index has not moved since the fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

/-- Input window 1's current staging buffer holds its block at every point, fetched there or not: unfetched, the
    block index has not moved since the fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_1 (c : Dev nD) (t : Fin cfg0.N) (d) : (dat0 V c).before 1 t d = iblk0 V c 1 t :=
  before0_1_of V (dat0 V c) (A_eq0 V c 1) (after0_1 V c) t d

/-- Input window 2's current staging buffer holds its block at every point, fetched there or not: unfetched, the
    block index has not moved since the fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_2 (c : Dev nD) (t : Fin cfg0.N) (d) : (dat0 V c).before 2 t d = iblk0 V c 2 t :=
  before0_2_of V (dat0 V c) (A_eq0 V c 2) (after0_2 V c) t d

/-- Input window 3's current staging buffer holds its block at every point, fetched there or not: unfetched, the
    block index has not moved since the fetch. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_3 (c : Dev nD) (t : Fin cfg0.N) (d) : (dat0 V c).before 3 t d = iblk0 V c 3 t :=
  before0_3_of V (dat0 V c) (A_eq0 V c 3) (after0_3 V c) t d

/-- Input window 4's current staging buffer holds its block at every point, fetched there or not: unfetched, the
    block index has not moved since the fetch. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_4 (c : Dev nD) (t : Fin cfg0.N) (d) : (dat0 V c).before 4 t d = iblk0 V c 4 t :=
  before0_4_of V (dat0 V c) (A_eq0 V c 4) (after0_4 V c) t d

/-- Input window 5's current staging buffer holds its block at every point, fetched there or not: unfetched, the
    block index has not moved since the fetch. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_5 (c : Dev nD) (t : Fin cfg0.N) (d) : (dat0 V c).before 5 t d = iblk0 V c 5 t :=
  before0_5_of V (dat0 V c) (A_eq0 V c 5) (after0_5 V c) t d

set_option maxHeartbeats 4000000 in
/-- The body on whole staging buffers, the inputs' at contents `xW` and the results' at anything, runs to the
    continuation holding the inputs' as they were and each result's at the body's value of the inputs' contents. -/
theorem sound_kernel0 (c : Dev nD) (E : Set ℕ) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S256x40 .f32) (harg6 : arg6.IsWhole) (arg7 : Memref sig .tc .vmem S200x40 .f32) (harg7 : arg7.IsWhole) (arg8 : Memref sig .tc .vmem S200x40 .f32) (harg8 : arg8.IsWhole) (arg9 : Memref sig .tc .vmem S200x1 .f32) (harg9 : arg9.IsWhole) (arg10 : Memref sig .tc .vmem S200x1 .f32) (harg10 : arg10.IsWhole)
    (x0 : Vec F S200x10000 .f32) (x1 : Vec F S200x10000 .f32) (x2 : Vec F S10000x128 .f32) (x3 : Vec F S128x256 .f32) (x4 : Vec F S1x256 .f32) (x5 : Vec F S256x40 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ (∃ d, owns (c : Thread nD τ) arg7 fullShare d)
        ∗ (∃ d, owns (c : Thread nD τ) arg8 fullShare d)
        ∗ (∃ d, owns (c : Thread nD τ) arg9 fullShare d)
        ∗ (∃ d, owns (c : Thread nD τ) arg10 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare (k0_pay4 x2 x3 x4 x5 x0)
            ∗ owns (c : Thread nD τ) arg8 fullShare (k0_pay1 x5 (k0_pay6 x2 x3 x1) (k0_pay7 x4))
            ∗ owns (c : Thread nD τ) arg9 fullShare (k0_pay3 x0)
            ∗ owns (c : Thread nD τ) arg10 fullShare (k0_pay5 x1)) -∗ K ⟨⟩))
      ⊢ wp frame (wpE (defs₀ (F := F)) Variants.none c none) E (cc0__pass1_body i arg1 harg1 arg2 harg2 arg3 harg3 arg4 harg4 arg5 harg5 arg6 harg6 arg7 harg7 arg8 harg8 arg9 harg9 arg10 harg10) K := by
  simp only [cc0__pass1_body_eq_skeleton, k0_part1_eq_skeleton]; unfold cc0__pass1_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (read_writes_unit_zero _ zeros2' _ _ _).trans ?_
    simp only [readAt_unit_zero (S := S200x10000) _ zeros2', readAt_unit_zero (S := S10000x128) _ zeros2',
      readAt_unit_zero (S := S128x256) _ zeros2', readAt_unit_zero (S := S1x256) _ zeros2',
      readAt_unit_zero (S := S256x40) _ zeros2']
  isplitl [H7]
  · iexists _; isplitr
    swap; · iexact H7
    ipureintro
    refine (read_writes_unit_zero _ zeros2' _ _ _).trans ?_
    unfold sound_kernel0.sl.r sound_kernel0.sl.r_2 sound_kernel0.sl.r_3
    simp only [readAt_unit_zero (S := S200x10000) _ zeros2', readAt_unit_zero (S := S10000x128) _ zeros2',
      readAt_unit_zero (S := S128x256) _ zeros2', readAt_unit_zero (S := S1x256) _ zeros2',
      readAt_unit_zero (S := S256x40) _ zeros2']
  isplitl [H8]
  · iexists _; isplitr
    swap; · iexact H8
    ipureintro
    refine (read_writes_unit_zero _ zeros2' _ _ _).trans ?_
    simp only [readAt_unit_zero (S := S200x10000) _ zeros2', readAt_unit_zero (S := S10000x128) _ zeros2',
      readAt_unit_zero (S := S128x256) _ zeros2', readAt_unit_zero (S := S1x256) _ zeros2',
      readAt_unit_zero (S := S256x40) _ zeros2']
  iexists _; isplitr
  swap; · iexact H9
  ipureintro
  refine (read_writes_unit_zero _ zeros2' _ _ _).trans ?_
  unfold sound_kernel0.sl.r_1
  simp only [readAt_unit_zero (S := S200x10000) _ zeros2', readAt_unit_zero (S := S10000x128) _ zeros2',
      readAt_unit_zero (S := S128x256) _ zeros2', readAt_unit_zero (S := S1x256) _ zeros2',
      readAt_unit_zero (S := S256x40) _ zeros2']

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 4000000 in
/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation of the pass, at every point. -/
theorem body_obligation0 (c : Dev nD) : BodyObligation (dat0 (F := F) V c) (defs₀ (F := F)) Variants.none () Set.univ := fun t => by
  rw [bigSep_W0, bigSep_W0]
  exact sound_body0 V c t

/-! # The second pass -/

/-- Input window 0's current staging buffer holds its block at every point, fetched there or not: unfetched, the
    block index has not moved since the fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d

/-- Input window 1's current staging buffer holds its block at every point, fetched there or not: unfetched, the
    block index has not moved since the fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_1 (c : Dev nD) (t : Fin cfg1.N) (d) : (dat1 V c).before 1 t d = iblk1 V c 1 t :=
  before1_1_of V (dat1 V c) (A_eq1 V c 1) (after1_1 V c) t d

/-- Input window 2's current staging buffer holds its block at every point, fetched there or not: unfetched, the
    block index has not moved since the fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_2 (c : Dev nD) (t : Fin cfg1.N) (d) : (dat1 V c).before 2 t d = iblk1 V c 2 t :=
  before1_2_of V (dat1 V c) (A_eq1 V c 2) (after1_2 V c) t d

/-- Input window 3's current staging buffer holds its block at every point, fetched there or not: unfetched, the
    block index has not moved since the fetch. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_3 (c : Dev nD) (t : Fin cfg1.N) (d) : (dat1 V c).before 3 t d = iblk1 V c 3 t :=
  before1_3_of V (dat1 V c) (A_eq1 V c 3) (after1_3 V c) t d

/-- Input window 4's current staging buffer holds its block at every point, fetched there or not: unfetched, the
    block index has not moved since the fetch. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_4 (c : Dev nD) (t : Fin cfg1.N) (d) : (dat1 V c).before 4 t d = iblk1 V c 4 t :=
  before1_4_of V (dat1 V c) (A_eq1 V c 4) (after1_4 V c) t d

/-- Input window 5's current staging buffer holds its block at every point, fetched there or not: unfetched, the
    block index has not moved since the fetch. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_5 (c : Dev nD) (t : Fin cfg1.N) (d) : (dat1 V c).before 5 t d = iblk1 V c 5 t :=
  before1_5_of V (dat1 V c) (A_eq1 V c 5) (after1_5 V c) t d

set_option maxHeartbeats 4000000 in
/-- The body on whole staging buffers, the inputs' at contents `xW` and the results' at anything, runs to the
    continuation holding the inputs' as they were and each result's at the body's value of the inputs' contents. -/
theorem sound_kernel1 (c : Dev nD) (E : Set ℕ) (i : grid1.Coords) (arg1 : Memref sig .tc .vmem S200x10000 .f32) (harg1 : arg1.IsWhole) (arg2 : Memref sig .tc .vmem S200x10000 .f32) (harg2 : arg2.IsWhole) (arg3 : Memref sig .tc .vmem S10000x40 .f32) (harg3 : arg3.IsWhole) (arg4 : Memref sig .tc .vmem S200x1 .f32) (harg4 : arg4.IsWhole) (arg5 : Memref sig .tc .vmem S200x1 .f32) (harg5 : arg5.IsWhole) (arg6 : Memref sig .tc .vmem S1x40 .f32) (harg6 : arg6.IsWhole) (arg7 : Memref sig .tc .vmem S200x40 .f32) (harg7 : arg7.IsWhole) (arg8 : Memref sig .tc .vmem S200x40 .f32) (harg8 : arg8.IsWhole)
    (x0 : Vec F S200x10000 .f32) (x1 : Vec F S200x10000 .f32) (x2 : Vec F S10000x40 .f32) (x3 : Vec F S200x1 .f32) (x4 : Vec F S200x1 .f32) (x5 : Vec F S1x40 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ (∃ d, owns (c : Thread nD τ) arg7 fullShare d)
        ∗ (∃ d, owns (c : Thread nD τ) arg8 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare (k1_pay3 x2 x5 x0 x3)
            ∗ owns (c : Thread nD τ) arg8 fullShare (k1_pay4 x2 x5 x1 x4)) -∗ K ⟨⟩))
      ⊢ wp frame (wpE (defs₀ (F := F)) Variants.none c none) E (cc1__pass2_body i arg1 harg1 arg2 harg2 arg3 harg3 arg4 harg4 arg5 harg5 arg6 harg6 arg7 harg7 arg8 harg8) K := by
  simp only [cc1__pass2_body_eq_skeleton]; unfold cc1__pass2_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0
  subst hf1
  subst hf2
  subst hf3
  subst hf4
  subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (read_writes_unit_zero _ zeros2' _ _ _).trans ?_
    congr 1 <;> exact readAt_unit_zero _ zeros2' _ _
  iexists _; isplitr
  swap; · iexact H7
  ipureintro
  refine (read_writes_unit_zero _ zeros2' _ _ _).trans ?_
  congr 1 <;> exact readAt_unit_zero _ zeros2' _ _

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 4000000 in
/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the pass, at every point. -/
theorem body_obligation1 (c : Dev nD) : BodyObligation (dat1 (F := F) V c) (defs₀ (F := F)) Variants.none () Set.univ := fun t => by
  rw [bigSep_W1, bigSep_W1]
  exact sound_body1 V c t

end Cert.Kernel.Gen

end
-- ==== Proof.Frames.lean ====
/-
  The three frame claims. Each kernel program's run (the fold of @main's five items, Run modules) ends with every
  argument's buffer at its launch contents; the reference is a straight line of host operations, none of which writes an
  argument.
-/
import proofs.«115625_g20418274525701_cont_8to1_1804_5_alg».proof.Defs
import proofs.«115625_g20418274525701_cont_8to1_1804_5_alg».proof.Proof.Gen.Kernel
import proofs.«115625_g20418274525701_cont_8to1_1804_5_alg».proof.Proof.Gen.KernelIdeal
import proofs.«115625_g20418274525701_cont_8to1_1804_5_alg».proof.Proof.Gen.ReferenceIdeal
import proofs.«115625_g20418274525701_cont_8to1_1804_5_alg».proof.Proof.Gen.Pre_finite_inputs
import proofs.«115625_g20418274525701_cont_8to1_1804_5_alg».proof.Proof.Gen.ReferenceIdeal.Run
import proofs.«115625_g20418274525701_cont_8to1_1804_5_alg».proof.Proof.RunIdeal
import proofs.«115625_g20418274525701_cont_8to1_1804_5_alg».proof.Proof.RunBits
import proofs.«115625_g20418274525701_cont_8to1_1804_5_alg».proof.Proof.BodyIdeal
import proofs.«115625_g20418274525701_cont_8to1_1804_5_alg».proof.Proof.BodyBits

noncomputable section

namespace Cert.Proof.Frames

open Idealize.ShloMosaic Idealize.SL.Sem

/-- The word-level kernel runs to the end and leaves its six arguments as launched. -/
theorem frame_k : Cert.frame_Kernel := fun m ρ _ =>
  (θ_run (Cert.Kernel.defs (F := Bits)) _ _).mono (fun _ h c => (h c).2)
    (Cert.Kernel.Gen.run_result (F := Bits) m ρ (fun c => Cert.Kernel.Gen.body_obligation0 _ c) (fun c => Cert.Kernel.Gen.body_obligation1 _ c))

/-- So does its reading over the extended reals. -/
theorem frame_ki : Cert.frame_KernelIdeal := fun m ρ _ =>
  (θ_run (Cert.KernelIdeal.defs (F := Ideal)) _ _).mono (fun _ h c => (h c).2)
    (Cert.KernelIdeal.Gen.run_result (F := Ideal) m ρ (fun c => Cert.KernelIdeal.Gen.body_obligation0 _ c) (fun c => Cert.KernelIdeal.Gen.body_obligation1 _ c))

/-- The reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.Frames

end
-- ==== Proof.Spec.lean ====
/-
  The two-layer mean-aggregation network as functions on the extended reals, entry by entry.

  With `A` the dense adjacency (10000 × 10000), `X` the features (10000 × 128), `W1`, `b1`, `W2`, `b2` the two
  linear layers and `ε` the floor of the row degree:
    deg r      = max (Σ_n A r n) ε
    agg r d    = (Σ_n A r n · X n d) / deg r
    hid r k    = max (Σ_d agg r d · W1 d k + b1 k) 0
  The kernel multiplies the hidden layer by `W2` BEFORE the second aggregation (`proj`, then `outProjFirst`); the
  reference aggregates first and multiplies after (`agg2`, then `outAggFirst`). Over the reals the two agree by
  distributivity and the exchange of two finite sums; on the extended reals that needs every entry finite.
-/
import Idealize.ShloMosaic.PureOps.Ideal

noncomputable section

namespace Cert.Sage

open Idealize.ShloMosaic

variable (ε : EReal)

/-- The floored degree of row `r`. -/
def deg (A : Fin 10000 → Fin 10000 → EReal) (r : Fin 10000) : EReal := max (∑ n : Fin 10000, A r n) ε

/-- The mean of the neighbours' features. -/
def agg (A : Fin 10000 → Fin 10000 → EReal) (X : Fin 10000 → Fin 128 → EReal) (r : Fin 10000) (d : Fin 128) : EReal :=
  Ideal.div (∑ n : Fin 10000, A r n * X n d) (deg ε A r)

/-- The hidden layer: a linear map of the mean, a bias, the positive part. -/
def hid (A : Fin 10000 → Fin 10000 → EReal) (X : Fin 10000 → Fin 128 → EReal) (W1 : Fin 128 → Fin 256 → EReal)
    (b1 : Fin 256 → EReal) (r : Fin 10000) (k : Fin 256) : EReal :=
  max ((∑ d : Fin 128, agg ε A X r d * W1 d k) + b1 k) 0

/-- The hidden layer projected by the second linear map (what the first pass of the kernel writes). -/
def proj (A : Fin 10000 → Fin 10000 → EReal) (X : Fin 10000 → Fin 128 → EReal) (W1 : Fin 128 → Fin 256 → EReal)
    (b1 : Fin 256 → EReal) (W2 : Fin 256 → Fin 40 → EReal) (r : Fin 10000) (j : Fin 40) : EReal :=
  ∑ k : Fin 256, hid ε A X W1 b1 r k * W2 k j

/-- The kernel's result: aggregate the projected rows, divide by the degree, add the bias. -/
def outProjFirst (A : Fin 10000 → Fin 10000 → EReal) (X : Fin 10000 → Fin 128 → EReal) (W1 : Fin 128 → Fin 256 → EReal)
    (b1 : Fin 256 → EReal) (W2 : Fin 256 → Fin 40 → EReal) (b2 : Fin 40 → EReal) (r : Fin 10000) (j : Fin 40) : EReal :=
  Ideal.div (∑ n : Fin 10000, A r n * proj ε A X W1 b1 W2 n j) (deg ε A r) + b2 j

/-- The mean of the neighbours' hidden rows. -/
def agg2 (A : Fin 10000 → Fin 10000 → EReal) (X : Fin 10000 → Fin 128 → EReal) (W1 : Fin 128 → Fin 256 → EReal)
    (b1 : Fin 256 → EReal) (r : Fin 10000) (k : Fin 256) : EReal :=
  Ideal.div (∑ n : Fin 10000, A r n * hid ε A X W1 b1 n k) (deg ε A r)

/-- The reference's result: aggregate the hidden rows, then the second linear map and the bias. -/
def outAggFirst (A : Fin 10000 → Fin 10000 → EReal) (X : Fin 10000 → Fin 128 → EReal) (W1 : Fin 128 → Fin 256 → EReal)
    (b1 : Fin 256 → EReal) (W2 : Fin 256 → Fin 40 → EReal) (b2 : Fin 40 → EReal) (r : Fin 10000) (j : Fin 40) : EReal :=
  (∑ k : Fin 256, agg2 ε A X W1 b1 r k * W2 k j) + b2 j

end Cert.Sage

end
-- ==== Proof.RefValue.lean ====
/-
  The reference program's result, read at the index (r, j), is the aggregate-first form of the two-layer
  mean-aggregation network (Spec.lean `Cert.Sage.outAggFirst`) of the argument arrays read by coordinates, with the
  degree floor ε the extended real of the pattern 0x2B8CBCCC.

  Each stage of the program is read at an index through its `_apply` lemma; the composed index functions of the
  layout operations are identified with the coordinate constructors `ix2` / `ix1`; what is left is the definition of
  the specification, sum by sum.
-/
import proofs.«115625_g20418274525701_cont_8to1_1804_5_alg».proof.Defs
import proofs.«115625_g20418274525701_cont_8to1_1804_5_alg».proof.Proof.Gen.ReferenceIdeal.Read
import proofs.«115625_g20418274525701_cont_8to1_1804_5_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The floor of the degree: the extended real the f32 pattern 0x2B8CBCCC denotes. -/
abbrev eps : EReal := Ideal.ofBits .f32 0x2B8CBCCC#32

variable (x0 : (⟨S10000x128, .f32⟩ : BufTy).Contents (Elt Ideal)) (x1 : (⟨S10000x10000, .f32⟩ : BufTy).Contents (Elt Ideal))
  (x2 : (⟨S128x256, .f32⟩ : BufTy).Contents (Elt Ideal)) (x3 : (⟨S256, .f32⟩ : BufTy).Contents (Elt Ideal))
  (x4 : (⟨S256x40, .f32⟩ : BufTy).Contents (Elt Ideal)) (x5 : (⟨S40, .f32⟩ : BufTy).Contents (Elt Ideal))

/-- The floored row degree: the row sum of the adjacency onto the zero initial value, against the floor. -/
theorem deg_read (r : Fin 10000) :
    val_main_v3 (F := Ideal) x1 (ix2 r (0 : Fin 1)) = Cert.Sage.deg eps (fun r n => x1 (ix2 r n)) r := by
  rw [val_main_v3_apply, val_main_v1_apply, val_main_v2_apply, val_main_cst_0_apply, val_main_v0_apply, val_main_cst_apply]
  simp only [Ideal.maximumf_def, Ideal.ofBits_def, Ideal.ofBits_zero_f32, zero_add]
  unfold Cert.Sage.deg
  refine congrArg (max · _) (Finset.sum_congr rfl fun k _ => congrArg x1 ?_)
  exact funext fun a => Fin.ext (by match a with | ⟨0, _⟩ => rfl | ⟨1, _⟩ => rfl)

/-- The mean of the neighbours' features: the adjacency row against a feature column, over the floored degree. -/
theorem agg_read (r : Fin 10000) (d : Fin 128) :
    val_main_v6 (F := Ideal) x0 x1 (ix2 r d)
      = Cert.Sage.agg eps (fun r n => x1 (ix2 r n)) (fun n d => x0 (ix2 n d)) r d := by
  rw [val_main_v6_apply, val_main_v4_apply, val_main_v5_apply]
  have hi : idx_main_v5 (ix2 r d) = ix2 r (0 : Fin 1) :=
    funext fun a => Fin.ext (by match a with | ⟨0, _⟩ => rfl | ⟨1, _⟩ => rfl)
  rw [hi, deg_read]
  simp only [Ideal.hostDivf_def]
  unfold Cert.Sage.agg
  refine congrArg (Ideal.div · _) (Finset.sum_congr rfl fun k _ => ?_)
  refine congr (congrArg (· * ·) (congrArg x1 ?_)) (congrArg x0 ?_)
  · exact funext fun a => Fin.ext (by match a with | ⟨0, _⟩ => rfl | ⟨1, _⟩ => rfl)
  · exact funext fun a => Fin.ext (by match a with | ⟨0, _⟩ => rfl | ⟨1, _⟩ => rfl)

/-- The hidden layer: the first linear map of the mean, the bias, and the maximum with the zero splat. -/
theorem hid_read (r : Fin 10000) (k : Fin 256) :
    val_main_v11 (F := Ideal) x0 x1 x2 x3 (ix2 r k)
      = Cert.Sage.hid eps (fun r n => x1 (ix2 r n)) (fun n d => x0 (ix2 n d)) (fun d k => x2 (ix2 d k))
          (fun k => x3 (ix1 k)) r k := by
  rw [val_main_v11_apply, val_main_v10_apply, val_main_v7_apply, val_main_v9_apply, val_main_v8_apply,
    val_main_call0_v0_apply, val_main_call0_cst_apply]
  simp only [Ideal.maximumf_def, Ideal.addf_def, Ideal.ofBits_def, Ideal.ofBits_zero_f32]
  unfold Cert.Sage.hid
  have hb : idx_main_v8 (idx_main_v9 (ix2 r k)) = ix1 k :=
    funext fun a => Fin.ext (by match a with | ⟨0, _⟩ => rfl)
  rw [hb]
  refine congrArg (max · 0) (congrArg (· + x3 (ix1 k)) (Finset.sum_congr rfl fun d _ => ?_))
  have hl : lidx_main_v7 (ix2 r k) d = ix2 r d :=
    funext fun a => Fin.ext (by match a with | ⟨0, _⟩ => rfl | ⟨1, _⟩ => rfl)
  have hr : ridx_main_v7 (ix2 r k) d = ix2 d k :=
    funext fun a => Fin.ext (by match a with | ⟨0, _⟩ => rfl | ⟨1, _⟩ => rfl)
  rw [hl, hr, agg_read]

/-- The mean of the neighbours' hidden rows. -/
theorem agg2_read (r : Fin 10000) (k : Fin 256) :
    val_main_v14 (F := Ideal) x0 x1 x2 x3 (ix2 r k)
      = Cert.Sage.agg2 eps (fun r n => x1 (ix2 r n)) (fun n d => x0 (ix2 n d)) (fun d k => x2 (ix2 d k))
          (fun k => x3 (ix1 k)) r k := by
  rw [val_main_v14_apply, val_main_v12_apply, val_main_v13_apply]
  have hi : idx_main_v13 (ix2 r k) = ix2 r (0 : Fin 1) :=
    funext fun a => Fin.ext (by match a with | ⟨0, _⟩ => rfl | ⟨1, _⟩ => rfl)
  rw [hi, deg_read]
  simp only [Ideal.hostDivf_def]
  unfold Cert.Sage.agg2
  refine congrArg (Ideal.div · _) (Finset.sum_congr rfl fun n _ => ?_)
  have hl : lidx_main_v12 (ix2 r k) n = ix2 r n :=
    funext fun a => Fin.ext (by match a with | ⟨0, _⟩ => rfl | ⟨1, _⟩ => rfl)
  have hr : ridx_main_v12 (ix2 r k) n = ix2 n k :=
    funext fun a => Fin.ext (by match a with | ⟨0, _⟩ => rfl | ⟨1, _⟩ => rfl)
  rw [hl, hr, hid_read]

/-- THE REFERENCE'S VALUE: its result at (r, j) is the aggregate-first form of the network. -/
theorem val_main_v18_eq_outAggFirst (r : Fin 10000) (j : Fin 40) :
    val_main_v18 (F := Ideal) x0 x1 x2 x3 x4 x5 (ix2 r j)
      = Cert.Sage.outAggFirst (Ideal.ofBits .f32 0x2B8CBCCC#32) (fun r n => x1 (ix2 r n)) (fun n d => x0 (ix2 n d))
          (fun d k => x2 (ix2 d k)) (fun k => x3 (ix1 k)) (fun k j => x4 (ix2 k j)) (fun j => x5 (ix1 j)) r j := by
  rw [val_main_v18_apply, val_main_v15_apply, val_main_v17_apply, val_main_v16_apply]
  simp only [Ideal.addf_def]
  unfold Cert.Sage.outAggFirst
  have hb : idx_main_v16 (idx_main_v17 (ix2 r j)) = ix1 j :=
    funext fun a => Fin.ext (by match a with | ⟨0, _⟩ => rfl)
  rw [hb]
  refine congrArg (· + x5 (ix1 j)) (Finset.sum_congr rfl fun k _ => ?_)
  have hl : lidx_main_v15 (ix2 r j) k = ix2 r k :=
    funext fun a => Fin.ext (by match a with | ⟨0, _⟩ => rfl | ⟨1, _⟩ => rfl)
  have hr : ridx_main_v15 (ix2 r j) k = ix2 k j :=
    funext fun a => Fin.ext (by match a with | ⟨0, _⟩ => rfl | ⟨1, _⟩ => rfl)
  rw [hl, hr, agg2_read]

end Cert.ReferenceIdeal.RefValue

end
-- ==== Proof.Law.lean ====
/-
  The two orders of the second layer agree on finite inputs.

  With every entry of the six arrays a real number and the degree floor a positive real, every intermediate of
  the network is a real number: the floored degree is a positive real, so the division by it is the product with
  its reciprocal, and sums, products and maxima of reals are reals. Over the reals the two results are

      (Σ_n a r n · Σ_k h n k · w k j) · c + b j     and     Σ_k ((Σ_n a r n · h n k) · c) · w k j + b j,

  equal by distributivity and the exchange of the two finite sums.
-/
import proofs.«115625_g20418274525701_cont_8to1_1804_5_alg».proof.Proof.Spec
import Mathlib.Data.EReal.Basic
import Mathlib.Data.EReal.Operations
import Mathlib.Algebra.BigOperators.Ring.Finset
import Mathlib.Tactic.Ring

noncomputable section

namespace Cert.Sage

open Idealize.ShloMosaic

/-- The coercion of the reals into the extended reals commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion commutes with the maximum. -/
theorem coe_max (x y : ℝ) : ((max x y : ℝ) : EReal) = max (x : EReal) (y : EReal) :=
  EReal.coe_strictMono.monotone.map_max

/-! ### The network over the reals -/

section Reals

variable (e : ℝ) (a : Fin 10000 → Fin 10000 → ℝ) (x : Fin 10000 → Fin 128 → ℝ) (w1 : Fin 128 → Fin 256 → ℝ)
  (c1 : Fin 256 → ℝ) (w2 : Fin 256 → Fin 40 → ℝ) (c2 : Fin 40 → ℝ)

/-- The floored degree, a real. -/
def degR (r : Fin 10000) : ℝ := max (∑ n : Fin 10000, a r n) e

/-- The mean of the neighbours' features, a real. -/
def aggR (r : Fin 10000) (d : Fin 128) : ℝ := (∑ n : Fin 10000, a r n * x n d) * (1 / degR e a r)

/-- The hidden layer, a real. -/
def hidR (r : Fin 10000) (k : Fin 256) : ℝ := max ((∑ d : Fin 128, aggR e a x r d * w1 d k) + c1 k) 0

theorem degR_pos (he : 0 < e) (r : Fin 10000) : 0 < degR e a r := lt_max_of_lt_right he

theorem deg_coe (r : Fin 10000) :
    deg (e : EReal) (fun r n => (a r n : EReal)) r = (degR e a r : EReal) := by
  unfold deg degR
  rw [coe_max, coe_sum]

theorem agg_coe (he : 0 < e) (r : Fin 10000) (d : Fin 128) :
    agg (e : EReal) (fun r n => (a r n : EReal)) (fun n d => (x n d : EReal)) r d = (aggR e a x r d : EReal) := by
  unfold agg aggR
  rw [deg_coe, Ideal.div_coe (ne_of_gt (degR_pos e a he r)), EReal.coe_mul, coe_sum]
  simp only [EReal.coe_mul]

theorem hid_coe (he : 0 < e) (r : Fin 10000) (k : Fin 256) :
    hid (e : EReal) (fun r n => (a r n : EReal)) (fun n d => (x n d : EReal)) (fun d k => (w1 d k : EReal))
      (fun k => (c1 k : EReal)) r k = (hidR e a x w1 c1 r k : EReal) := by
  unfold hid hidR
  rw [coe_max, EReal.coe_add, coe_sum, EReal.coe_zero]
  simp only [EReal.coe_mul, agg_coe e a x he]

/-- The identity over the reals: distributivity and the exchange of the two sums. -/
theorem real_law (h : Fin 10000 → Fin 256 → ℝ) (c : ℝ) (r : Fin 10000) (j : Fin 40) :
    (∑ n : Fin 10000, a r n * ∑ k : Fin 256, h n k * w2 k j) * c
      = ∑ k : Fin 256, ((∑ n : Fin 10000, a r n * h n k) * c) * w2 k j := by
  simp only [Finset.mul_sum, Finset.sum_mul]
  rw [Finset.sum_comm]
  exact Finset.sum_congr rfl fun k _ => Finset.sum_congr rfl fun n _ => by ring

theorem outProjFirst_eq_outAggFirst_coe (he : 0 < e) (r : Fin 10000) (j : Fin 40) :
    outProjFirst (e : EReal) (fun r n => (a r n : EReal)) (fun n d => (x n d : EReal)) (fun d k => (w1 d k : EReal))
        (fun k => (c1 k : EReal)) (fun k j => (w2 k j : EReal)) (fun j => (c2 j : EReal)) r j
      = outAggFirst (e : EReal) (fun r n => (a r n : EReal)) (fun n d => (x n d : EReal)) (fun d k => (w1 d k : EReal))
        (fun k => (c1 k : EReal)) (fun k j => (w2 k j : EReal)) (fun j => (c2 j : EReal)) r j := by
  unfold outProjFirst outAggFirst proj agg2
  simp only [hid_coe e a x w1 c1 he, deg_coe, Ideal.div_coe (ne_of_gt (degR_pos e a he r)), ← EReal.coe_mul,
    ← coe_sum]
  rw [real_law]

end Reals

/-- THE LAW: on finite inputs with a positive finite floor, projecting before the second aggregation and
    aggregating before the projection give the same extended real. -/
theorem outProjFirst_eq_outAggFirst (ε : EReal) (hε : ∃ e : ℝ, 0 < e ∧ ε = (e : EReal))
    (A : Fin 10000 → Fin 10000 → EReal) (X : Fin 10000 → Fin 128 → EReal) (W1 : Fin 128 → Fin 256 → EReal)
    (b1 : Fin 256 → EReal) (W2 : Fin 256 → Fin 40 → EReal) (b2 : Fin 40 → EReal)
    (hA : ∀ r n, ∃ a : ℝ, A r n = (a : EReal)) (hX : ∀ n d, ∃ a : ℝ, X n d = (a : EReal))
    (hW1 : ∀ d k, ∃ a : ℝ, W1 d k = (a : EReal)) (hb1 : ∀ k, ∃ a : ℝ, b1 k = (a : EReal))
    (hW2 : ∀ k j, ∃ a : ℝ, W2 k j = (a : EReal)) (hb2 : ∀ j, ∃ a : ℝ, b2 j = (a : EReal))
    (r : Fin 10000) (j : Fin 40) :
    outProjFirst ε A X W1 b1 W2 b2 r j = outAggFirst ε A X W1 b1 W2 b2 r j := by
  obtain ⟨e, he, rfl⟩ := hε
  choose a ha using hA
  choose x hx using hX
  choose w1 hw1 using hW1
  choose c1 hc1 using hb1
  choose w2 hw2 using hW2
  choose c2 hc2 using hb2
  obtain rfl : A = fun r n => (a r n : EReal) := funext fun r => funext fun n => ha r n
  obtain rfl : X = fun n d => (x n d : EReal) := funext fun n => funext fun d => hx n d
  obtain rfl : W1 = fun d k => (w1 d k : EReal) := funext fun d => funext fun k => hw1 d k
  obtain rfl : b1 = fun k => (c1 k : EReal) := funext fun k => hc1 k
  obtain rfl : W2 = fun k j => (w2 k j : EReal) := funext fun k => funext fun j => hw2 k j
  obtain rfl : b2 = fun j => (c2 j : EReal) := funext fun j => hc2 j
  exact outProjFirst_eq_outAggFirst_coe e a x w1 c1 w2 c2 he r j

end Cert.Sage

end
-- ==== Proof.LawEps.lean ====
/-
  The degree floor is a positive real: the f32 pattern 0x2B8CBCCC has sign 0, exponent field 87 and fraction field
  834764, a normal number, (2^23 + 834764) · 2^(87 - 127 - 23) = 9223372 · 2^(-63).
-/
import Idealize.ShloMosaic.PureOps.Ideal
import Mathlib.Tactic.Positivity
import Mathlib.Tactic.NormNum

noncomputable section

namespace Cert.Sage

open Idealize.ShloMosaic

/-- The pattern's value. -/
theorem eps_val : Ideal.ofBits .f32 0x2B8CBCCC#32 = ((9223372 * (2 : ℝ) ^ (-63 : ℤ) : ℝ) : EReal) := by
  simp [Ideal.ofBits, Ideal.ieee]

/-- The floor is a positive real. -/
theorem eps_pos : ∃ e : ℝ, 0 < e ∧ Ideal.ofBits .f32 0x2B8CBCCC#32 = (e : EReal) :=
  ⟨9223372 * (2 : ℝ) ^ (-63 : ℤ), by positivity, eps_val⟩

end Cert.Sage

end
-- ==== Proof.Finite.lean ====
/-
  The printed precondition says every entry of the six arrays is finite.

  The predicate is the conjunction, over the six arrays, of "every entry has |x| < +∞": an `and`-reduction over all
  axes of the elementwise comparison of |x| against the splat of the pattern 0x7F800000 (which denotes ⊤). If the
  predicate is 1, each conjunct is 1, so every element of each comparison is 1; and an extended real with
  max x (-x) < ⊤ is neither ⊤ nor ⊥, that is, a real.
-/
import proofs.«115625_g20418274525701_cont_8to1_1804_5_alg».proof.Pre_finite_inputs
import Idealize.ShloMosaic.Lib.ReduceAll
import Idealize.ShloMosaic.Lib.Pipeline.Value
import Idealize.ShloMosaic.Lib.ValueIdx
import Idealize.ShloMosaic.PureOps.Ideal.Laws

noncomputable section

namespace Cert.Pre_finite_inputs.Finite

open Idealize.ShloMosaic Idealize.ShloMosaic.ValueIdx Cert.Pre_finite_inputs

/-- The scalar shape has one index. -/
instance : Subsingleton S_.Idx := ⟨fun a b => funext fun d => d.elim0⟩

/-- The pattern 0x7F800000 denotes +∞. -/
theorem ofBits_inf_f32 : Ideal.ofBits .f32 0x7F800000#32 = ⊤ := by simp [Ideal.ofBits, Ideal.ieee]

/-- An extended real whose absolute value is below +∞ is a real. -/
theorem real_of_abs_lt_inf (x : Ideal .f32)
    (h : FloatOps.cmpf (F := Ideal) .olt (FloatOps.hostAbsf x) (Ideal.ofBits .f32 0x7F800000#32) = 1#1) :
    ∃ r : ℝ, x = (r : EReal) := by
  rw [ofBits_inf_f32] at h
  induction x using EReal.rec with
  | bot => exact absurd h (by simp [Ideal.cmpf_def, Ideal.cmp, Ideal.absf_def])
  | coe r => exact ⟨r, rfl⟩
  | top => exact absurd h (by simp [Ideal.cmpf_def, Ideal.cmp, Ideal.absf_def])

/-- One conjunct of the predicate: if the `and` over all entries of "|a i| < +∞" is 1, every entry is a real. -/
theorem all_real {s : Shape} {axes : List (Fin s.rank)} (a : FVec Ideal s .f32)
    (bc : S_.BroadcastsInDim s (![] : Fin 0 → Fin s.rank)) (h : s.ReducesTo axes S_) (hu : 0 < S_.numel)
    (e : Host.reduce IntOp.andi (cmpf .olt (Host.absf a) (broadcastInDim s ![] bc (constant S_ .f32 0x7F800000#32)))
      (constantI S_ 1 1#1) h hu ix0 = 1#1) (i : s.Idx) : ∃ r : ℝ, a i = (r : EReal) := by
  have hi := Host.reduce_andi_all _ _ h hu ix0 e i
  rw [cmpf_apply, broadcastInDim_apply _ bc _ i ix0 (fun a => a.elim0)] at hi
  exact real_of_abs_lt_inf (a i) hi

variable [Facts]

/-- THE PRECONDITION READ BACK: where the printed predicate is 1, every entry of each of the six arrays is a real. -/
theorem real_of_fn (a0 : FVec Ideal S10000x128 .f32) (a1 : FVec Ideal S10000x10000 .f32) (a2 : FVec Ideal S128x256 .f32)
    (a3 : FVec Ideal S256 .f32) (a4 : FVec Ideal S256x40 .f32) (a5 : FVec Ideal S40 .f32)
    (h : fn (F := Ideal) a0 a1 a2 a3 a4 a5 = (fun _ => 1#1)) :
    (∀ i, ∃ x : ℝ, a0 i = (x : EReal)) ∧ (∀ i, ∃ x : ℝ, a1 i = (x : EReal)) ∧ (∀ i, ∃ x : ℝ, a2 i = (x : EReal)) ∧
      (∀ i, ∃ x : ℝ, a3 i = (x : EReal)) ∧ (∀ i, ∃ x : ℝ, a4 i = (x : EReal)) ∧ (∀ i, ∃ x : ℝ, a5 i = (x : EReal)) := by
  have h0 := congrFun h ix0
  dsimp only [fn, fn_part1, andi] at h0
  simp only [IntOp.andi_eq_one] at h0
  obtain ⟨⟨⟨⟨⟨e0, e1⟩, e2⟩, e3⟩, e4⟩, e5⟩ := h0
  exact ⟨all_real a0 _ _ _ e0, all_real a1 _ _ _ e1, all_real a2 _ _ _ e2, all_real a3 _ _ _ e3, all_real a4 _ _ _ e4,
    all_real a5 _ _ _ e5⟩

end Cert.Pre_finite_inputs.Finite

end
-- ==== Proof.RefLaw.lean ====
/-
  Under the precondition the reference's result is also the project-first form of the network: its value is the
  aggregate-first form, every entry of the six arrays is a real and the floor is a positive real, so the two forms
  agree.
-/
import proofs.«115625_g20418274525701_cont_8to1_1804_5_alg».proof.Proof.RefValue
import proofs.«115625_g20418274525701_cont_8to1_1804_5_alg».proof.Proof.Law
import proofs.«115625_g20418274525701_cont_8to1_1804_5_alg».proof.Proof.LawEps
import proofs.«115625_g20418274525701_cont_8to1_1804_5_alg».proof.Proof.Finite

noncomputable section

namespace Cert.ReferenceIdeal.RefValue

open Cert.ReferenceIdeal Cert.ReferenceIdeal.Gen Cert.ReferenceIdeal.Read Idealize.ShloMosaic Idealize.ShloMosaic.ValueIdx

variable [Cert.Pre_finite_inputs.Facts]

/-- THE REFERENCE'S VALUE, PROJECT-FIRST: where the printed precondition holds of the six arrays, the reference's result
    at (r, j) is the project-first form of the network. -/
theorem val_main_v18_eq_outProjFirst (x0 : (⟨S10000x128, .f32⟩ : BufTy).Contents (Elt Ideal))
    (x1 : (⟨S10000x10000, .f32⟩ : BufTy).Contents (Elt Ideal)) (x2 : (⟨S128x256, .f32⟩ : BufTy).Contents (Elt Ideal))
    (x3 : (⟨S256, .f32⟩ : BufTy).Contents (Elt Ideal)) (x4 : (⟨S256x40, .f32⟩ : BufTy).Contents (Elt Ideal))
    (x5 : (⟨S40, .f32⟩ : BufTy).Contents (Elt Ideal))
    (h : Cert.Pre_finite_inputs.fn (F := Ideal) x0 x1 x2 x3 x4 x5 = (fun _ => 1#1)) (r : Fin 10000) (j : Fin 40) :
    val_main_v18 (F := Ideal) x0 x1 x2 x3 x4 x5 (ix2 r j)
      = Cert.Sage.outProjFirst (Ideal.ofBits .f32 0x2B8CBCCC#32) (fun r n => x1 (ix2 r n)) (fun n d => x0 (ix2 n d))
          (fun d k => x2 (ix2 d k)) (fun k => x3 (ix1 k)) (fun k j => x4 (ix2 k j)) (fun j => x5 (ix1 j)) r j := by
  obtain ⟨h0, h1, h2, h3, h4, h5⟩ := Cert.Pre_finite_inputs.Finite.real_of_fn x0 x1 x2 x3 x4 x5 h
  rw [val_main_v18_eq_outAggFirst]
  exact (Cert.Sage.outProjFirst_eq_outAggFirst _ Cert.Sage.eps_pos _ _ _ _ _ _ (fun r n => h1 (ix2 r n))
    (fun n d => h0 (ix2 n d)) (fun d k => h2 (ix2 d k)) (fun k => h3 (ix1 k)) (fun k j => h4 (ix2 k j))
    (fun j => h5 (ix1 j)) r j).symm

end Cert.ReferenceIdeal.RefValue

end
-- ==== Proof.HostGlue.lean ====
/-
  The kernel's host operations, read at an index.

  Around its two passes the program reshapes the two bias vectors into rows (256 → 1×256, 40 → 1×40) and, after each
  pass, lays the two halves the pass wrote (5000×40 each) end to end along the rows (10000×40). Read at an index:
  the row (0, k) of a reshaped vector is the vector at k; row R of the concatenation is row R of the first half
  below 5000 and row R − 5000 of the second half from 5000 on. The last section reads what each stretch of host
  operations leaves in the buffer it writes, from an arbitrary valuation of the buffers before it.
-/
import proofs.«115625_g20418274525701_cont_8to1_1804_5_alg».proof.KernelIdeal
import proofs.«115625_g20418274525701_cont_8to1_1804_5_alg».proof.Proof.Gen.KernelIdeal.Launch
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.HostValue

open Cert.KernelIdeal Cert.KernelIdeal.Gen Idealize.ShloMosaic Idealize.ShloMosaic.TcCoe Idealize.ShloMosaic.ValueIdx
open Idealize.SL.Sem

/-! ## The concatenation of the two halves along the rows -/

section Concat
variable {α : Type}

/-- A row below 5000 of the concatenation is that row of the first half. -/
theorem concat_apply_lo (h : Shape.Concatenates [S5000x40, S5000x40] S10000x40 0) (a b : S5000x40.Idx → α)
    (r : Fin 5000) (j : Fin 40) (hr : r.val < 10000 := by omega) :
    concatenate S10000x40 0 [⟨S5000x40, a⟩, ⟨S5000x40, b⟩] h (ix2 (⟨r.val, hr⟩ : Fin 10000) j) = a (ix2 r j) :=
  concatenate_pair_apply_left 0 a b h _ rfl _ (fun c => by
    match c with
    | ⟨0, _⟩ => rfl
    | ⟨1, _⟩ => rfl)

/-- A row from 5000 on of the concatenation is that row, 5000 less, of the second half. -/
theorem concat_apply_hi (h : Shape.Concatenates [S5000x40, S5000x40] S10000x40 0) (a b : S5000x40.Idx → α)
    (r : Fin 5000) (j : Fin 40) (hr : r.val + 5000 < 10000 := by omega) :
    concatenate S10000x40 0 [⟨S5000x40, a⟩, ⟨S5000x40, b⟩] h (ix2 (⟨r.val + 5000, hr⟩ : Fin 10000) j) = b (ix2 r j) :=
  concatenate_pair_apply_right 0 a b h _ rfl rfl _
    (fun c hc => by
      match c with
      | ⟨0, _⟩ => exact absurd rfl hc
      | ⟨1, _⟩ => rfl)
    rfl

/-- The concatenation at row R: the first half below 5000, the second half, 5000 rows up, from there on. -/
theorem concat_apply (h : Shape.Concatenates [S5000x40, S5000x40] S10000x40 0) (a b : S5000x40.Idx → α)
    (R : Fin 10000) (j : Fin 40) :
    concatenate S10000x40 0 [⟨S5000x40, a⟩, ⟨S5000x40, b⟩] h (ix2 R j)
      = if hR : R.val < 5000 then a (ix2 ⟨R.val, hR⟩ j)
        else b (ix2 ⟨R.val - 5000, by have := R.isLt; omega⟩ j) := by
  by_cases hR : R.val < 5000
  · rw [dif_pos hR]
    exact concat_apply_lo h a b ⟨R.val, hR⟩ j R.isLt
  · rw [dif_neg hR]
    have hlt : R.val - 5000 < 5000 := by have := R.isLt; omega
    have e : R = (⟨(⟨R.val - 5000, hlt⟩ : Fin 5000).val + 5000, by show R.val - 5000 + 5000 < 10000; omega⟩ : Fin 10000) :=
      Fin.ext (by show R.val = R.val - 5000 + 5000; omega)
    exact (congrArg (fun R' => concatenate S10000x40 0 [⟨S5000x40, a⟩, ⟨S5000x40, b⟩] h (ix2 R' j)) e).trans
      (concat_apply_hi h a b ⟨R.val - 5000, hlt⟩ j _)

end Concat

/-! ## The two bias vectors reshaped into rows -/

section Reshape
variable {α : Type}

/-- The 256-vector as a 1×256 row reads the vector at the column. -/
theorem reshape_256_apply (h : S256.ShapeCasts S1x256) (x : S256.Idx → α) (k : Fin 256) :
    shapeCast S1x256 x h (ix2 (0 : Fin 1) k) = x (ix1 k) :=
  shapeCast_a_1a_apply x h 0 k

/-- The 40-vector as a 1×40 row reads the vector at the column. -/
theorem reshape_40_apply (h : S40.ShapeCasts S1x40) (x : S40.Idx → α) (k : Fin 40) :
    shapeCast S1x40 x h (ix2 (0 : Fin 1) k) = x (ix1 k) :=
  shapeCast_a_1a_apply x h 0 k

end Reshape

/-! ## What each stretch of host operations writes -/

section After
variable {F : FTy → Type} [FloatOps F] (W : Valuation τ sig (Elt F))

/-- After the first stretch the buffer of the first reshape holds the first bias as a row. -/
theorem after0_main_v0 :
    (StableHlo.after hostOps0 W (Proc.devRef .tc main_v0) : (⟨S1x256, .f32⟩ : BufTy).Contents (Elt F))
      = shapeCast S1x256 (W (Proc.devRef .tc main_arg3) : (⟨S256, .f32⟩ : BufTy).Contents (Elt F)) shapeCasts_S256_S1x256 := by
  after_results
  rfl

/-- After the first stretch the buffer of the second reshape holds the second bias as a row. -/
theorem after0_main_v1 :
    (StableHlo.after hostOps0 W (Proc.devRef .tc main_v1) : (⟨S1x40, .f32⟩ : BufTy).Contents (Elt F))
      = shapeCast S1x40 (W (Proc.devRef .tc main_arg5) : (⟨S40, .f32⟩ : BufTy).Contents (Elt F)) shapeCasts_S40_S1x40 := by
  after_results
  rfl

/-- After the second stretch its result buffer holds the two halves of the first pass laid end to end. -/
theorem after1_main_v3 :
    (StableHlo.after hostOps1 W (Proc.devRef .tc main_v3) : (⟨S10000x40, .f32⟩ : BufTy).Contents (Elt F))
      = concatenate S10000x40 0 [⟨S5000x40, (W (Proc.devRef .tc main_v2_0) : (⟨S5000x40, .f32⟩ : BufTy).Contents (Elt F))⟩,
          ⟨S5000x40, (W (Proc.devRef .tc main_v2_1) : (⟨S5000x40, .f32⟩ : BufTy).Contents (Elt F))⟩]
          concatenates_S5000x40_S5000x40_S10000x40_d0 := by
  after_results

/-- After the third stretch its result buffer holds the two halves of the second pass laid end to end. -/
theorem after2_main_v5 :
    (StableHlo.after hostOps2 W (Proc.devRef .tc main_v5) : (⟨S10000x40, .f32⟩ : BufTy).Contents (Elt F))
      = concatenate S10000x40 0 [⟨S5000x40, (W (Proc.devRef .tc main_v4_0) : (⟨S5000x40, .f32⟩ : BufTy).Contents (Elt F))⟩,
          ⟨S5000x40, (W (Proc.devRef .tc main_v4_1) : (⟨S5000x40, .f32⟩ : BufTy).Contents (Elt F))⟩]
          concatenates_S5000x40_S5000x40_S10000x40_d0 := by
  after_results

end After

end Cert.KernelIdeal.HostValue

end
-- ==== Proof.Rows.lean ====
/-
  The rows of the 10000-row adjacency that the two halves of a 5000-row result read: row `r` of the top half is row
  `r`, row `r` of the bottom half is row `r + 5000`.
-/
import Mathlib.Data.Fin.Basic
import Mathlib.Tactic

namespace Cert.Sage

/-- Row `r` of the top half. -/
def rowT (r : Fin 5000) : Fin 10000 := ⟨r.val, by have := r.isLt; omega⟩
/-- Row `r` of the bottom half. -/
def rowB (r : Fin 5000) : Fin 10000 := ⟨r.val + 5000, by have := r.isLt; omega⟩

@[simp] theorem rowT_val (r : Fin 5000) : (rowT r).val = r.val := rfl
@[simp] theorem rowB_val (r : Fin 5000) : (rowB r).val = r.val + 5000 := rfl

end Cert.Sage
-- ==== Proof.BlocksIdealDefs.lean ====
/-
  The arrays a pass is entered with, as functions of an index into the extended reals.
-/
import proofs.«115625_g20418274525701_cont_8to1_1804_5_alg».proof.Proof.DataIdeal
import proofs.«115625_g20418274525701_cont_8to1_1804_5_alg».proof.Proof.Rows
import Idealize.ShloMosaic.PureOps.Ideal

noncomputable section

namespace Cert.KernelIdeal.BlockValue

open Cert.KernelIdeal Cert.KernelIdeal.Gen
open Idealize.ShloMosaic Idealize.ShloMosaic.TcCoe Idealize.SL.Sem

variable (V : (c : Dev nD) → (b : Ref sig .tc) → Buf (Elt Ideal) ((c : Thread nD τ).loc b))

/-- The adjacency. -/
abbrev a_arg1 (c : Dev nD) : S10000x10000.Idx → EReal := V c main_arg1
/-- The features. -/
abbrev a_arg0 (c : Dev nD) : S10000x128.Idx → EReal := V c main_arg0
/-- The first linear map. -/
abbrev a_arg2 (c : Dev nD) : S128x256.Idx → EReal := V c main_arg2
/-- The first bias, as a row. -/
abbrev a_v0 (c : Dev nD) : S1x256.Idx → EReal := V c main_v0
/-- The second linear map. -/
abbrev a_arg4 (c : Dev nD) : S256x40.Idx → EReal := V c main_arg4
/-- The second bias, as a row. -/
abbrev a_v1 (c : Dev nD) : S1x40.Idx → EReal := V c main_v1
/-- The projected hidden rows of the top half. -/
abbrev a_v2_0 (c : Dev nD) : S5000x40.Idx → EReal := V c main_v2_0
/-- The projected hidden rows of the bottom half. -/
abbrev a_v2_1 (c : Dev nD) : S5000x40.Idx → EReal := V c main_v2_1
/-- The floored degrees of the top half. -/
abbrev a_v2_2 (c : Dev nD) : S5000x1.Idx → EReal := V c main_v2_2
/-- The floored degrees of the bottom half. -/
abbrev a_v2_3 (c : Dev nD) : S5000x1.Idx → EReal := V c main_v2_3
/-- The projected hidden rows, all 10000. -/
abbrev a_v3 (c : Dev nD) : S10000x40.Idx → EReal := V c main_v3

end Cert.KernelIdeal.BlockValue

end
-- ==== Proof.Payload.lean ====
/-
  The arithmetic of the kernel's two passes read at one entry.

  Each payload of the first pass and of the second is a short chain of matrix products, a sum along the lanes,
  broadcasts of a column or of a row, a division, an addition and a maximum. Read at the entry `(r, j)` over the
  extended reals each operation is the plain formula: a product into the zero accumulator is the sum over the
  contracted coordinate, a lane sum is the sum over the lanes, a broadcast column reads its row's one entry, a
  broadcast row reads its column's one entry, and the pointwise operations act on the entries.
-/
import proofs.«115625_g20418274525701_cont_8to1_1804_5_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayloadValue

open Cert.KernelIdeal Cert.KernelIdeal.Gen Idealize.ShloMosaic Idealize.ShloMosaic.ValueIdx Idealize.SL.Sem

/-! ## Layout operations on a column -/

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The second pass -/

/-! ### The product [200, 10000] · [10000, 40] read at an entry -/

theorem lhs0_agg40 (i : S200x40.Idx) (q : dot_S200x10000_S10000x40_S200x40_1_0_0_1_n_n.contr.Idx) :
    (dot_S200x10000_S10000x40_S200x40_1_0_0_1_n_n.lhsIdx i q 0).val = (i 0).val := by
  unfold DotDims.lhsIdx
  rw [dif_neg (show ¬(0 : Fin S200x10000.rank) ∈ dot_S200x10000_S10000x40_S200x40_1_0_0_1_n_n.lhsBatch by decide), dif_pos (show (0 : Fin S200x10000.rank) ∈ dot_S200x10000_S10000x40_S200x40_1_0_0_1_n_n.lhsNonContracting by decide)]
  rfl
theorem lhs1_agg40 (i : S200x40.Idx) (q : dot_S200x10000_S10000x40_S200x40_1_0_0_1_n_n.contr.Idx) :
    (dot_S200x10000_S10000x40_S200x40_1_0_0_1_n_n.lhsIdx i q 1).val = (q ⟨0, by decide⟩).val :=
  dot_S200x10000_S10000x40_S200x40_1_0_0_1_n_n.lhsIdx_val_of_single rfl i q
theorem rhs0_agg40 (i : S200x40.Idx) (q : dot_S200x10000_S10000x40_S200x40_1_0_0_1_n_n.contr.Idx) :
    (dot_S200x10000_S10000x40_S200x40_1_0_0_1_n_n.rhsIdx i q 0).val = (q ⟨0, by decide⟩).val :=
  dot_S200x10000_S10000x40_S200x40_1_0_0_1_n_n.rhsIdx_val_of_single rfl i q
theorem rhs1_agg40 (i : S200x40.Idx) (q : dot_S200x10000_S10000x40_S200x40_1_0_0_1_n_n.contr.Idx) :
    (dot_S200x10000_S10000x40_S200x40_1_0_0_1_n_n.rhsIdx i q 1).val = (i 1).val := by
  unfold DotDims.rhsIdx
  rw [dif_neg (show ¬(1 : Fin S10000x40.rank) ∈ dot_S200x10000_S10000x40_S200x40_1_0_0_1_n_n.rhsBatch by decide), dif_pos (show (1 : Fin S10000x40.rank) ∈ dot_S200x10000_S10000x40_S200x40_1_0_0_1_n_n.rhsNonContracting by decide)]
  rfl

/-- Into the zero accumulator, the matrix product at `(r, j)` is the sum over the contracted coordinate of the
    products of the row's and the column's entries. -/
theorem matmul_agg40_apply (x : FVec Ideal S200x10000 .f32) (y : FVec Ideal S10000x40 .f32) (r : Fin 200) (j : Fin 40) :
    matmul (F := Ideal) dot_S200x10000_S10000x40_S200x40_1_0_0_1_n_n none x y (constant (F := Ideal) S200x40 .f32 0x00000000#32) (ix2 r j)
      = ∑ n : Fin 10000, x (ix2 r n) * y (ix2 n j) := by
  refine (Ideal.matmul_constant_zero_apply dot_S200x10000_S10000x40_S200x40_1_0_0_1_n_n none x y (ix2 r j)).trans ?_
  rw [← Equiv.sum_comp (contrEquiv1 dot_S200x10000_S10000x40_S200x40_1_0_0_1_n_n 10000 rfl rfl).symm]
  refine Finset.sum_congr rfl fun k _ => ?_
  have hk := contrEquiv1_symm_val dot_S200x10000_S10000x40_S200x40_1_0_0_1_n_n 10000 rfl rfl k
  have el : dot_S200x10000_S10000x40_S200x40_1_0_0_1_n_n.lhsIdx (ix2 r j) ((contrEquiv1 dot_S200x10000_S10000x40_S200x40_1_0_0_1_n_n 10000 rfl rfl).symm k) = ix2 r k := funext fun a => Fin.ext (by
    match a with
    | ⟨0, _⟩ => exact lhs0_agg40 _ _
    | ⟨1, _⟩ => exact (lhs1_agg40 _ _).trans hk)
  have er : dot_S200x10000_S10000x40_S200x40_1_0_0_1_n_n.rhsIdx (ix2 r j) ((contrEquiv1 dot_S200x10000_S10000x40_S200x40_1_0_0_1_n_n 10000 rfl rfl).symm k) = ix2 k j := funext fun a => Fin.ext (by
    match a with
    | ⟨0, _⟩ => exact (rhs0_agg40 _ _).trans hk
    | ⟨1, _⟩ => exact rhs1_agg40 _ _)
  rw [el, er]

/-- The second pass's payload at `(r, j)`: the aggregated row divided by the stored degree, plus the bias. -/
theorem k1_pay3_apply (v0 : Vec Ideal S10000x40 .f32) (v2 : Vec Ideal S1x40 .f32) (v4 : Vec Ideal S200x10000 .f32)
    (v6 : Vec Ideal S200x1 .f32) (r : Fin 200) (j : Fin 40) :
    Gen.k1_pay3 (F := Ideal) v0 v2 v4 v6 (ix2 r j)
      = Ideal.div (∑ n : Fin 10000, v4 (ix2 r n) * v0 (ix2 n j)) (v6 (ix2 r 0)) + v2 (ix2 0 j) := by
  show Ideal.div
        (matmul (F := Ideal) dot_S200x10000_S10000x40_S200x40_1_0_0_1_n_n none v4
          (shapeCast S10000x40 v0 shapeCasts_S10000x40_S10000x40) (constant (F := Ideal) S200x40 .f32 0x00000000#32) (ix2 r j))
        (broadcastTo S200x40 (shapeCast S200x1 v6 shapeCasts_S200x1_S200x1) broadcasts_S200x1_S200x40 (ix2 r j))
      + broadcastTo S200x40 (shapeCast S1x40 v2 shapeCasts_S1x40_S1x40) broadcasts_S1x40_S200x40 (ix2 r j) = _
  rw [shapeCast_self, shapeCast_self, shapeCast_self, matmul_agg40_apply, broadcastTo_a1_ab_apply,
    broadcastTo_1b_ab_apply]

/-- The second payload of the second pass has the same text. -/
theorem k1_pay4_apply (v0 : Vec Ideal S10000x40 .f32) (v2 : Vec Ideal S1x40 .f32) (v13 : Vec Ideal S200x10000 .f32)
    (v15 : Vec Ideal S200x1 .f32) (r : Fin 200) (j : Fin 40) :
    Gen.k1_pay4 (F := Ideal) v0 v2 v13 v15 (ix2 r j)
      = Ideal.div (∑ n : Fin 10000, v13 (ix2 r n) * v0 (ix2 n j)) (v15 (ix2 r 0)) + v2 (ix2 0 j) :=
  k1_pay3_apply v0 v2 v13 v15 r j

/-! ## The first pass: the floored degree -/

/-- The sum along the lanes of a `[200, 10000]` block, at row `r`, is the sum of the row's entries. -/
theorem laneSum_apply (v : FVec Ideal S200x10000 .f32) (h : S200x10000.Reduces [1] S200) (hφ : FKind.Formats .f32)
    (hacc : (0x00000000#32 : BitVec 32) = 0x00000000#32) (r : Fin 200) :
    multiReduction (F := Ideal) .add [1] S200 v 0x00000000#32 h hφ hacc (ix1 r) = ∑ n : Fin 10000, v (ix2 r n) := by
  refine (Ideal.multiReduction_add_single v 0x00000000#32 h hφ hacc (ix1 r)).trans ?_
  show ∑ n : Fin 10000, v (h.lift (ix1 r) n) = _
  refine Finset.sum_congr rfl fun n _ => congrArg v (funext fun a => Fin.ext ?_)
  match a with
  | ⟨0, _⟩ => rfl
  | ⟨1, _⟩ => rfl

/-- The degree column at row `r`: the row sum of the adjacency block, floored at the literal `ε`. -/
theorem k0_pay3_apply (v5 : Vec Ideal S200x10000 .f32) (r : Fin 200) :
    Gen.k0_pay3 (F := Ideal) v5 (ix2 r 0) = max (∑ n : Fin 10000, v5 (ix2 r n)) (Ideal.ofBits .f32 0x2B8CBCCC#32) := by
  show max (shapeCast S200x1 (multiReduction (F := Ideal) .add [1] S200 v5 0x00000000#32 reduces_S200x10000_S200 (.inl rfl) rfl)
        shapeCasts_S200_S200x1 (ix2 r 0)) (Ideal.ofBits .f32 0x2B8CBCCC#32) = _
  refine congrArg (max · _) ?_
  refine (shapeCast_a_a1_apply _ _ r 0).trans ?_
  exact laneSum_apply v5 _ _ _ r

/-- The second degree payload of the first pass has the same text. -/
theorem k0_pay5_apply (v21 : Vec Ideal S200x10000 .f32) (r : Fin 200) :
    Gen.k0_pay5 (F := Ideal) v21 (ix2 r 0) = max (∑ n : Fin 10000, v21 (ix2 r n)) (Ideal.ofBits .f32 0x2B8CBCCC#32) :=
  k0_pay3_apply v21 r

/-! ## The first pass: the projected hidden layer -/

/-! ### The product [200, 10000] · [10000, 128] read at an entry -/

theorem lhs0_agg128 (i : S200x128.Idx) (q : dot_S200x10000_S10000x128_S200x128_1_0_0_1_n_n.contr.Idx) :
    (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
theorem lhs1_agg128 (i : S200x128.Idx) (q : dot_S200x10000_S10000x128_S200x128_1_0_0_1_n_n.contr.Idx) :
    (dot_S200x10000_S10000x128_S200x128_1_0_0_1_n_n.lhsIdx i q 1).val = (q ⟨0, by decide⟩).val :=
  dot_S200x10000_S10000x128_S200x128_1_0_0_1_n_n.lhsIdx_val_of_single rfl i q
theorem rhs0_agg128 (i : S200x128.Idx) (q : dot_S200x10000_S10000x128_S200x128_1_0_0_1_n_n.contr.Idx) :
    (dot_S200x10000_S10000x128_S200x128_1_0_0_1_n_n.rhsIdx i q 0).val = (q ⟨0, by decide⟩).val :=
  dot_S200x10000_S10000x128_S200x128_1_0_0_1_n_n.rhsIdx_val_of_single rfl i q
theorem rhs1_agg128 (i : S200x128.Idx) (q : dot_S200x10000_S10000x128_S200x128_1_0_0_1_n_n.contr.Idx) :
    (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

/-- Into the zero accumulator, the matrix product at `(r, j)` is the sum over the contracted coordinate of the
    products of the row's and the column's entries. -/
theorem matmul_agg128_apply (x : FVec Ideal S200x10000 .f32) (y : FVec Ideal S10000x128 .f32) (r : Fin 200) (j : Fin 128) :
    matmul (F := Ideal) dot_S200x10000_S10000x128_S200x128_1_0_0_1_n_n none x y (constant (F := Ideal) S200x128 .f32 0x00000000#32) (ix2 r j)
      = ∑ n : Fin 10000, x (ix2 r n) * y (ix2 n j) := by
  refine (Ideal.matmul_constant_zero_apply dot_S200x10000_S10000x128_S200x128_1_0_0_1_n_n none x y (ix2 r j)).trans ?_
  rw [← Equiv.sum_comp (contrEquiv1 dot_S200x10000_S10000x128_S200x128_1_0_0_1_n_n 10000 rfl rfl).symm]
  refine Finset.sum_congr rfl fun k _ => ?_
  have hk := contrEquiv1_symm_val dot_S200x10000_S10000x128_S200x128_1_0_0_1_n_n 10000 rfl rfl k
  have el : dot_S200x10000_S10000x128_S200x128_1_0_0_1_n_n.lhsIdx (ix2 r j) ((contrEquiv1 dot_S200x10000_S10000x128_S200x128_1_0_0_1_n_n 10000 rfl rfl).symm k) = ix2 r k := funext fun a => Fin.ext (by
    match a with
    | ⟨0, _⟩ => exact lhs0_agg128 _ _
    | ⟨1, _⟩ => exact (lhs1_agg128 _ _).trans hk)
  have er : dot_S200x10000_S10000x128_S200x128_1_0_0_1_n_n.rhsIdx (ix2 r j) ((contrEquiv1 dot_S200x10000_S10000x128_S200x128_1_0_0_1_n_n 10000 rfl rfl).symm k) = ix2 k j := funext fun a => Fin.ext (by
    match a with
    | ⟨0, _⟩ => exact (rhs0_agg128 _ _).trans hk
    | ⟨1, _⟩ => exact rhs1_agg128 _ _)
  rw [el, er]

/-! ### The product [200, 128] · [128, 256] read at an entry -/

theorem lhs0_hid (i : S200x256.Idx) (q : dot_S200x128_S128x256_S200x256_1_0_0_1_n_n.contr.Idx) :
    (dot_S200x128_S128x256_S200x256_1_0_0_1_n_n.lhsIdx i q 0).val = (i 0).val := by
  unfold DotDims.lhsIdx
  rw [dif_neg (show ¬(0 : Fin S200x128.rank) ∈ dot_S200x128_S128x256_S200x256_1_0_0_1_n_n.lhsBatch by decide), dif_pos (show (0 : Fin S200x128.rank) ∈ dot_S200x128_S128x256_S200x256_1_0_0_1_n_n.lhsNonContracting by decide)]
  rfl
theorem lhs1_hid (i : S200x256.Idx) (q : dot_S200x128_S128x256_S200x256_1_0_0_1_n_n.contr.Idx) :
    (dot_S200x128_S128x256_S200x256_1_0_0_1_n_n.lhsIdx i q 1).val = (q ⟨0, by decide⟩).val :=
  dot_S200x128_S128x256_S200x256_1_0_0_1_n_n.lhsIdx_val_of_single rfl i q
theorem rhs0_hid (i : S200x256.Idx) (q : dot_S200x128_S128x256_S200x256_1_0_0_1_n_n.contr.Idx) :
    (dot_S200x128_S128x256_S200x256_1_0_0_1_n_n.rhsIdx i q 0).val = (q ⟨0, by decide⟩).val :=
  dot_S200x128_S128x256_S200x256_1_0_0_1_n_n.rhsIdx_val_of_single rfl i q
theorem rhs1_hid (i : S200x256.Idx) (q : dot_S200x128_S128x256_S200x256_1_0_0_1_n_n.contr.Idx) :
    (dot_S200x128_S128x256_S200x256_1_0_0_1_n_n.rhsIdx i q 1).val = (i 1).val := by
  unfold DotDims.rhsIdx
  rw [dif_neg (show ¬(1 : Fin S128x256.rank) ∈ dot_S200x128_S128x256_S200x256_1_0_0_1_n_n.rhsBatch by decide), dif_pos (show (1 : Fin S128x256.rank) ∈ dot_S200x128_S128x256_S200x256_1_0_0_1_n_n.rhsNonContracting by decide)]
  rfl

/-- Into the zero accumulator, the matrix product at `(r, j)` is the sum over the contracted coordinate of the
    products of the row's and the column's entries. -/
theorem matmul_hid_apply (x : FVec Ideal S200x128 .f32) (y : FVec Ideal S128x256 .f32) (r : Fin 200) (j : Fin 256) :
    matmul (F := Ideal) dot_S200x128_S128x256_S200x256_1_0_0_1_n_n none x y (constant (F := Ideal) S200x256 .f32 0x00000000#32) (ix2 r j)
      = ∑ n : Fin 128, x (ix2 r n) * y (ix2 n j) := by
  refine (Ideal.matmul_constant_zero_apply dot_S200x128_S128x256_S200x256_1_0_0_1_n_n none x y (ix2 r j)).trans ?_
  rw [← Equiv.sum_comp (contrEquiv1 dot_S200x128_S128x256_S200x256_1_0_0_1_n_n 128 rfl rfl).symm]
  refine Finset.sum_congr rfl fun k _ => ?_
  have hk := contrEquiv1_symm_val dot_S200x128_S128x256_S200x256_1_0_0_1_n_n 128 rfl rfl k
  have el : dot_S200x128_S128x256_S200x256_1_0_0_1_n_n.lhsIdx (ix2 r j) ((contrEquiv1 dot_S200x128_S128x256_S200x256_1_0_0_1_n_n 128 rfl rfl).symm k) = ix2 r k := funext fun a => Fin.ext (by
    match a with
    | ⟨0, _⟩ => exact lhs0_hid _ _
    | ⟨1, _⟩ => exact (lhs1_hid _ _).trans hk)
  have er : dot_S200x128_S128x256_S200x256_1_0_0_1_n_n.rhsIdx (ix2 r j) ((contrEquiv1 dot_S200x128_S128x256_S200x256_1_0_0_1_n_n 128 rfl rfl).symm k) = ix2 k j := funext fun a => Fin.ext (by
    match a with
    | ⟨0, _⟩ => exact (rhs0_hid _ _).trans hk
    | ⟨1, _⟩ => exact rhs1_hid _ _)
  rw [el, er]

/-! ### The product [200, 256] · [256, 40] read at an entry -/

theorem lhs0_proj (i : S200x40.Idx) (q : dot_S200x256_S256x40_S200x40_1_0_0_1_n_n.contr.Idx) :
    (dot_S200x256_S256x40_S200x40_1_0_0_1_n_n.lhsIdx i q 0).val = (i 0).val := by
  unfold DotDims.lhsIdx
  rw [dif_neg (show ¬(0 : Fin S200x256.rank) ∈ dot_S200x256_S256x40_S200x40_1_0_0_1_n_n.lhsBatch by decide), dif_pos (show (0 : Fin S200x256.rank) ∈ dot_S200x256_S256x40_S200x40_1_0_0_1_n_n.lhsNonContracting by decide)]
  rfl
theorem lhs1_proj (i : S200x40.Idx) (q : dot_S200x256_S256x40_S200x40_1_0_0_1_n_n.contr.Idx) :
    (dot_S200x256_S256x40_S200x40_1_0_0_1_n_n.lhsIdx i q 1).val = (q ⟨0, by decide⟩).val :=
  dot_S200x256_S256x40_S200x40_1_0_0_1_n_n.lhsIdx_val_of_single rfl i q
theorem rhs0_proj (i : S200x40.Idx) (q : dot_S200x256_S256x40_S200x40_1_0_0_1_n_n.contr.Idx) :
    (dot_S200x256_S256x40_S200x40_1_0_0_1_n_n.rhsIdx i q 0).val = (q ⟨0, by decide⟩).val :=
  dot_S200x256_S256x40_S200x40_1_0_0_1_n_n.rhsIdx_val_of_single rfl i q
theorem rhs1_proj (i : S200x40.Idx) (q : dot_S200x256_S256x40_S200x40_1_0_0_1_n_n.contr.Idx) :
    (dot_S200x256_S256x40_S200x40_1_0_0_1_n_n.rhsIdx i q 1).val = (i 1).val := by
  unfold DotDims.rhsIdx
  rw [dif_neg (show ¬(1 : Fin S256x40.rank) ∈ dot_S200x256_S256x40_S200x40_1_0_0_1_n_n.rhsBatch by decide), dif_pos (show (1 : Fin S256x40.rank) ∈ dot_S200x256_S256x40_S200x40_1_0_0_1_n_n.rhsNonContracting by decide)]
  rfl

/-- Into the zero accumulator, the matrix product at `(r, j)` is the sum over the contracted coordinate of the
    products of the row's and the column's entries. -/
theorem matmul_proj_apply (x : FVec Ideal S200x256 .f32) (y : FVec Ideal S256x40 .f32) (r : Fin 200) (j : Fin 40) :
    matmul (F := Ideal) dot_S200x256_S256x40_S200x40_1_0_0_1_n_n none x y (constant (F := Ideal) S200x40 .f32 0x00000000#32) (ix2 r j)
      = ∑ n : Fin 256, x (ix2 r n) * y (ix2 n j) := by
  refine (Ideal.matmul_constant_zero_apply dot_S200x256_S256x40_S200x40_1_0_0_1_n_n none x y (ix2 r j)).trans ?_
  rw [← Equiv.sum_comp (contrEquiv1 dot_S200x256_S256x40_S200x40_1_0_0_1_n_n 256 rfl rfl).symm]
  refine Finset.sum_congr rfl fun k _ => ?_
  have hk := contrEquiv1_symm_val dot_S200x256_S256x40_S200x40_1_0_0_1_n_n 256 rfl rfl k
  have el : dot_S200x256_S256x40_S200x40_1_0_0_1_n_n.lhsIdx (ix2 r j) ((contrEquiv1 dot_S200x256_S256x40_S200x40_1_0_0_1_n_n 256 rfl rfl).symm k) = ix2 r k := funext fun a => Fin.ext (by
    match a with
    | ⟨0, _⟩ => exact lhs0_proj _ _
    | ⟨1, _⟩ => exact (lhs1_proj _ _).trans hk)
  have er : dot_S200x256_S256x40_S200x40_1_0_0_1_n_n.rhsIdx (ix2 r j) ((contrEquiv1 dot_S200x256_S256x40_S200x40_1_0_0_1_n_n 256 rfl rfl).symm k) = ix2 k j := funext fun a => Fin.ext (by
    match a with
    | ⟨0, _⟩ => exact (rhs0_proj _ _).trans hk
    | ⟨1, _⟩ => exact rhs1_proj _ _)
  rw [el, er]

/-- The mean of the neighbours' features times the first linear map, at `(r, k)`. -/
theorem k0_pay6_apply (v0 : Vec Ideal S10000x128 .f32) (v1 : Vec Ideal S128x256 .f32) (v21 : Vec Ideal S200x10000 .f32)
    (r : Fin 200) (k : Fin 256) :
    Gen.k0_pay6 (F := Ideal) v0 v1 v21 (ix2 r k)
      = ∑ d : Fin 128, Ideal.div (∑ n : Fin 10000, v21 (ix2 r n) * v0 (ix2 n d))
          (max (∑ n : Fin 10000, v21 (ix2 r n)) (Ideal.ofBits .f32 0x2B8CBCCC#32)) * v1 (ix2 d k) := by
  show matmul (F := Ideal) dot_S200x128_S128x256_S200x256_1_0_0_1_n_n none
        (divf (matmul (F := Ideal) dot_S200x10000_S10000x128_S200x128_1_0_0_1_n_n none v21 v0 (constant (F := Ideal) S200x128 .f32 0x00000000#32))
          (broadcastTo S200x128 (Gen.k0_pay5 (F := Ideal) v21) broadcasts_S200x1_S200x128))
        v1 (constant (F := Ideal) S200x256 .f32 0x00000000#32) (ix2 r k) = _
  refine (matmul_hid_apply _ v1 r k).trans ?_
  refine Finset.sum_congr rfl fun d _ => congrArg (· * _) ?_
  show Ideal.div (matmul (F := Ideal) dot_S200x10000_S10000x128_S200x128_1_0_0_1_n_n none v21 v0 (constant (F := Ideal) S200x128 .f32 0x00000000#32) (ix2 r d))
        (broadcastTo S200x128 (Gen.k0_pay5 (F := Ideal) v21) broadcasts_S200x1_S200x128 (ix2 r d)) = _
  rw [matmul_agg128_apply, broadcastTo_a1_ab_apply, k0_pay5_apply]

/-- The bias row broadcast over the rows, at `(r, k)`. -/
theorem k0_pay7_apply (v2 : Vec Ideal S1x256 .f32) (r : Fin 200) (k : Fin 256) :
    Gen.k0_pay7 (F := Ideal) v2 (ix2 r k) = v2 (ix2 0 k) := by
  show broadcastTo S200x256 (shapeCast S1x256 v2 shapeCasts_S1x256_S1x256) broadcasts_S1x256_S200x256 (ix2 r k) = _
  rw [shapeCast_self, broadcastTo_1b_ab_apply]

/-- The positive part of a sum of two `[200, 256]` blocks times the second linear map, at `(r, j)`. -/
theorem k0_pay1_apply (v4 : Vec Ideal S256x40 .f32) (a b : FVec Ideal S200x256 .f32) (r : Fin 200) (j : Fin 40) :
    Gen.k0_pay1 (F := Ideal) v4 a b (ix2 r j) = ∑ k : Fin 256, max (a (ix2 r k) + b (ix2 r k)) 0 * v4 (ix2 k j) := by
  show matmul (F := Ideal) dot_S200x256_S256x40_S200x40_1_0_0_1_n_n none
        (maximumf (addf a b) (broadcast S200x256 (Scalar.ofBits (F := Ideal) .f32 0x00000000#32)))
        v4 (constant (F := Ideal) S200x40 .f32 0x00000000#32) (ix2 r j) = _
  refine (matmul_proj_apply _ v4 r j).trans ?_
  refine Finset.sum_congr rfl fun k _ => congrArg (· * _) ?_
  show max (a (ix2 r k) + b (ix2 r k)) (Ideal.ofBits .f32 0x00000000#32) = _
  rw [Ideal.ofBits_zero_f32]

/-- The projected hidden layer at `(r, j)`, from the three payloads the loop carries. -/
theorem k0_pay1_pay6_pay7_apply (v0 : Vec Ideal S10000x128 .f32) (v1 : Vec Ideal S128x256 .f32) (v2 : Vec Ideal S1x256 .f32)
    (v4 : Vec Ideal S256x40 .f32) (v21 : Vec Ideal S200x10000 .f32) (r : Fin 200) (j : Fin 40) :
    Gen.k0_pay1 (F := Ideal) v4 (Gen.k0_pay6 v0 v1 v21) (Gen.k0_pay7 v2) (ix2 r j)
      = ∑ k : Fin 256, max ((∑ d : Fin 128, Ideal.div (∑ n : Fin 10000, v21 (ix2 r n) * v0 (ix2 n d))
            (max (∑ n : Fin 10000, v21 (ix2 r n)) (Ideal.ofBits .f32 0x2B8CBCCC#32)) * v1 (ix2 d k)) + v2 (ix2 0 k)) 0
          * v4 (ix2 k j) := by
  refine (k0_pay1_apply v4 _ _ r j).trans (Finset.sum_congr rfl fun k _ => ?_)
  rw [k0_pay6_apply, k0_pay7_apply]

/-- The first payload of the first pass is the same chain written in one piece. -/
theorem k0_pay4_eq (v0 : Vec Ideal S10000x128 .f32) (v1 : Vec Ideal S128x256 .f32) (v2 : Vec Ideal S1x256 .f32)
    (v4 : Vec Ideal S256x40 .f32) (v5 : Vec Ideal S200x10000 .f32) :
    Gen.k0_pay4 (F := Ideal) v0 v1 v2 v4 v5 = Gen.k0_pay1 (F := Ideal) v4 (Gen.k0_pay6 v0 v1 v5) (Gen.k0_pay7 v2) := rfl

/-- The projected hidden layer at `(r, j)`, as the first payload writes it. -/
theorem k0_pay4_apply (v0 : Vec Ideal S10000x128 .f32) (v1 : Vec Ideal S128x256 .f32) (v2 : Vec Ideal S1x256 .f32)
    (v4 : Vec Ideal S256x40 .f32) (v5 : Vec Ideal S200x10000 .f32) (r : Fin 200) (j : Fin 40) :
    Gen.k0_pay4 (F := Ideal) v0 v1 v2 v4 v5 (ix2 r j)
      = ∑ k : Fin 256, max ((∑ d : Fin 128, Ideal.div (∑ n : Fin 10000, v5 (ix2 r n) * v0 (ix2 n d))
            (max (∑ n : Fin 10000, v5 (ix2 r n)) (Ideal.ofBits .f32 0x2B8CBCCC#32)) * v1 (ix2 d k)) + v2 (ix2 0 k)) 0
          * v4 (ix2 k j) :=
  (congrFun (k0_pay4_eq v0 v1 v2 v4 v5) (ix2 r j)).trans (k0_pay1_pay6_pay7_apply v0 v1 v2 v4 v5 r j)

end Cert.KernelIdeal.PayloadValue

end
-- ==== Proof.BlocksIdeal0.lean ====
/-
  From blocks to the array, first pass.

  The pass runs over 25 points. At point `t` it reads rows `200·t …` of the adjacency's top half and of its bottom
  half (block rows `t` and `t + 25` of the one array) and the whole of the features, of the two linear maps and of the
  first bias, and writes block row `t` of each half's projected hidden rows and of each half's floored degrees. Every
  block a point writes is the restriction to its rows of ONE function of the arrays the pass is entered with; the 25
  blocks tile the 5000 rows, so each array after the pass is that function.
-/
import proofs.«115625_g20418274525701_cont_8to1_1804_5_alg».proof.Proof.BlocksIdealDefs
import proofs.«115625_g20418274525701_cont_8to1_1804_5_alg».proof.Proof.Payload
import Idealize.ShloMosaic.Lib.Pipeline.Value

noncomputable section

namespace Cert.KernelIdeal.BlockValue

open Cert.KernelIdeal Cert.KernelIdeal.Gen Cert.KernelIdeal.PayloadValue Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed index maps over the 25 points: block row `t` (top half, results), block row `t + 25` (bottom half),
    block `(0, 0)` (whole arrays). -/
theorem idx0 : ∀ t : Fin cfg0.N,
    win0_0.index t (0 : Fin 2) = t.val ∧ win0_0.index t (1 : Fin 2) = 0
    ∧ win0_1.index t (0 : Fin 2) = t.val + 25 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-! ## Each input block read at an entry is the array at the block's place -/

theorem iblk0_0_apply (c : Dev nD) (t : Fin cfg0.N) (p : Fin 200) (q : Fin 10000) (k : S10000x10000.Idx)
    (hk0 : (k 0).val = 200 * t.val + p.val) (hk1 : (k 1).val = q.val) :
    (iblk0 V c 0 t : S200x10000.Idx → EReal) (ix2 p q) = a_arg1 V c k := by
  have hi := idx0 t
  unfold iblk0
  rw [View.read_apply]
  show a_arg1 V c _ = a_arg1 V c _
  congr 1
  funext a
  apply Fin.ext
  match a with
  | ⟨0, _⟩ => show win0_0.index t (0 : Fin 2) * 200 + 1 * p.val = (k 0).val; rw [hk0]; omega
  | ⟨1, _⟩ => show win0_0.index t (1 : Fin 2) * 10000 + 1 * q.val = (k 1).val; rw [hk1]; omega

theorem iblk0_1_apply (c : Dev nD) (t : Fin cfg0.N) (p : Fin 200) (q : Fin 10000) (k : S10000x10000.Idx)
    (hk0 : (k 0).val = 5000 + 200 * t.val + p.val) (hk1 : (k 1).val = q.val) :
    (iblk0 V c 1 t : S200x10000.Idx → EReal) (ix2 p q) = a_arg1 V c k := by
  have hi := idx0 t
  unfold iblk0
  rw [View.read_apply]
  show a_arg1 V c _ = a_arg1 V c _
  congr 1
  funext a
  apply Fin.ext
  match a with
  | ⟨0, _⟩ => show win0_1.index t (0 : Fin 2) * 200 + 1 * p.val = (k 0).val; rw [hk0]; omega
  | ⟨1, _⟩ => show win0_1.index t (1 : Fin 2) * 10000 + 1 * q.val = (k 1).val; rw [hk1]; omega

theorem iblk0_2_apply (c : Dev nD) (t : Fin cfg0.N) (p : Fin 10000) (q : Fin 128) (k : S10000x128.Idx)
    (hk0 : (k 0).val = 0 + p.val) (hk1 : (k 1).val = q.val) :
    (iblk0 V c 2 t : S10000x128.Idx → EReal) (ix2 p q) = a_arg0 V c k := by
  have hi := idx0 t
  unfold iblk0
  rw [View.read_apply]
  show a_arg0 V c _ = a_arg0 V c _
  congr 1
  funext a
  apply Fin.ext
  match a with
  | ⟨0, _⟩ => show win0_2.index t (0 : Fin 2) * 10000 + 1 * p.val = (k 0).val; rw [hk0]; omega
  | ⟨1, _⟩ => show win0_2.index t (1 : Fin 2) * 128 + 1 * q.val = (k 1).val; rw [hk1]; omega

theorem iblk0_3_apply (c : Dev nD) (t : Fin cfg0.N) (p : Fin 128) (q : Fin 256) (k : S128x256.Idx)
    (hk0 : (k 0).val = 0 + p.val) (hk1 : (k 1).val = q.val) :
    (iblk0 V c 3 t : S128x256.Idx → EReal) (ix2 p q) = a_arg2 V c k := by
  have hi := idx0 t
  unfold iblk0
  rw [View.read_apply]
  show a_arg2 V c _ = a_arg2 V c _
  congr 1
  funext a
  apply Fin.ext
  match a with
  | ⟨0, _⟩ => show win0_3.index t (0 : Fin 2) * 128 + 1 * p.val = (k 0).val; rw [hk0]; omega
  | ⟨1, _⟩ => show win0_3.index t (1 : Fin 2) * 256 + 1 * q.val = (k 1).val; rw [hk1]; omega

theorem iblk0_4_apply (c : Dev nD) (t : Fin cfg0.N) (p : Fin 1) (q : Fin 256) (k : S1x256.Idx)
    (hk0 : (k 0).val = 0 + p.val) (hk1 : (k 1).val = q.val) :
    (iblk0 V c 4 t : S1x256.Idx → EReal) (ix2 p q) = a_v0 V c k := by
  have hi := idx0 t
  unfold iblk0
  rw [View.read_apply]
  show a_v0 V c _ = a_v0 V c _
  congr 1
  funext a
  apply Fin.ext
  match a with
  | ⟨0, _⟩ => show win0_4.index t (0 : Fin 2) * 1 + 1 * p.val = (k 0).val; rw [hk0]; omega
  | ⟨1, _⟩ => show win0_4.index t (1 : Fin 2) * 256 + 1 * q.val = (k 1).val; rw [hk1]; omega

theorem iblk0_5_apply (c : Dev nD) (t : Fin cfg0.N) (p : Fin 256) (q : Fin 40) (k : S256x40.Idx)
    (hk0 : (k 0).val = 0 + p.val) (hk1 : (k 1).val = q.val) :
    (iblk0 V c 5 t : S256x40.Idx → EReal) (ix2 p q) = a_arg4 V c k := by
  have hi := idx0 t
  unfold iblk0
  rw [View.read_apply]
  show a_arg4 V c _ = a_arg4 V c _
  congr 1
  funext a
  apply Fin.ext
  match a with
  | ⟨0, _⟩ => show win0_5.index t (0 : Fin 2) * 256 + 1 * p.val = (k 0).val; rw [hk0]; omega
  | ⟨1, _⟩ => show win0_5.index t (1 : Fin 2) * 40 + 1 * q.val = (k 1).val; rw [hk1]; omega

/-! ## Result window 6: the projected hidden rows of the top half -/

/-- The top half's projected hidden layer at `(r, j)`. -/
def out0_6 (c : Dev nD) (r : Fin 5000) (j : Fin 40) : EReal :=
  ∑ k : Fin 256, max ((∑ d : Fin 128, Ideal.div (∑ n : Fin 10000, a_arg1 V c (ix2 (rowT r) n) * a_arg0 V c (ix2 n d))
          (max (∑ n : Fin 10000, a_arg1 V c (ix2 (rowT r) n)) (Ideal.ofBits .f32 0x2B8CBCCC#32)) * a_arg2 V c (ix2 d k)) + a_v0 V c (ix2 0 k)) 0
        * a_arg4 V c (ix2 k j)

/-- The same as one function of the array's index. -/
def arr0_6 (c : Dev nD) : S5000x40.Idx → EReal := fun i => out0_6 V c ⟨(i 0).val, (i 0).isLt⟩ ⟨(i 1).val, (i 1).isLt⟩

/-- What point `t` writes back is block row `t` of that function. -/
theorem flushed0_6_eq (c : Dev nD) (t : Fin cfg0.N) :
    (dat0 (F := Ideal) V c).flushed 6 t = ((cfg0.win 6).blk t).view.read (Elt Ideal) (arr0_6 V c) := by
  show (cfg0.win 6).cut (grid0.coords t) ((dat0 V c).after 6 t) = _
  rw [after0_6]
  have hi := idx0 t
  funext y
  have hy0 : (y 0).val < 200 := (y 0).isLt
  have hy1 : (y 1).val < 40 := (y 1).isLt
  have hy : ((cfg0.win 6).xinj (grid0.coords t) y : S200x40.Idx) = ix2 (⟨(y 0).val, hy0⟩ : Fin 200) (⟨(y 1).val, hy1⟩ : Fin 40) :=
    funext fun a => Fin.ext (by match a with | ⟨0, _⟩ => rfl | ⟨1, _⟩ => rfl)
  show Gen.k0_pay4 (F := Ideal) (iblk0 V c 2 t) (iblk0 V c 3 t) (iblk0 V c 4 t) (iblk0 V c 5 t) (iblk0 V c 0 t)
      ((cfg0.win 6).xinj (grid0.coords t) y) = arr0_6 V c (((cfg0.win 6).blk t).view.emb y)
  rw [hy]
  refine (k0_pay4_apply _ _ _ _ _ _ _).trans ?_
  have he0 : ((((cfg0.win 6).blk t).view.emb y) 0).val = 200 * t.val + (y 0).val := by
    show win0_6.index t (0 : Fin 2) * 200 + 1 * (y 0).val = _; omega
  have he1 : ((((cfg0.win 6).blk t).view.emb y) 1).val = (y 1).val := by
    show win0_6.index t (1 : Fin 2) * 40 + 1 * (y 1).val = _; omega
  show _ = out0_6 V c ⟨((((cfg0.win 6).blk t).view.emb y) 0).val, _⟩ ⟨((((cfg0.win 6).blk t).view.emb y) 1).val, _⟩
  unfold out0_6
  have hA : ∀ n : Fin 10000, (iblk0 V c 0 t : S200x10000.Idx → EReal) (ix2 (⟨(y 0).val, hy0⟩ : Fin 200) n)
      = a_arg1 V c (ix2 (rowT ⟨((((cfg0.win 6).blk t).view.emb y) 0).val, (((cfg0.win 6).blk t).view.emb y 0).isLt⟩) n) :=
    fun n => iblk0_0_apply V c t _ n _ (by show ((((cfg0.win 6).blk t).view.emb y) 0).val = 200 * t.val + (y 0).val; exact he0) rfl
  refine Finset.sum_congr rfl fun k _ => congrArg₂ (· * ·) (congrArg (max · 0) (congrArg₂ (· + ·)
    (Finset.sum_congr rfl fun d _ => congrArg₂ (· * ·) (congrArg₂ Ideal.div
      (Finset.sum_congr rfl fun n _ => congrArg₂ (· * ·) (hA n) ?_)
      (congrArg (max · (Ideal.ofBits .f32 0x2B8CBCCC#32)) (Finset.sum_congr rfl fun n _ => hA n))) ?_) ?_)) ?_
  · exact iblk0_2_apply V c t n d _ (by show n.val = 0 + n.val; omega) rfl
  · exact iblk0_3_apply V c t d k _ (by show d.val = 0 + d.val; omega) rfl
  · exact iblk0_4_apply V c t 0 k _ (by show (0 : Nat) = 0 + 0; rfl) rfl
  · exact iblk0_5_apply V c t k _ _ (by show k.val = 0 + k.val; omega) he1

/-- An index of the array is in point `t`'s block iff each coordinate is in the block's range on its axis. -/
theorem mem_blk0_6 (t : Fin cfg0.N) (i : S5000x40.Idx) :
    i ∈ ((cfg0.win 6).blk t).view.set ↔ ∀ a : Fin 2, win0_6.index t a * S200x40.size a ≤ (i a).val
      ∧ (i a).val < win0_6.index t a * S200x40.size a + S200x40.size a := by
  show i ∈ ((View.whole main_v2_0).slice (win0_6.rect t)).set ↔ _
  rw [View.set_slice_whole, Rect.mem_set_unit]
  exact Iff.rfl

/-- Row `r` is in the block of point `r / 200`: the 25 blocks cover the array. -/
theorem cover0_6 (i : S5000x40.Idx) :
    ∃ t : Fin cfg0.N, (cfg0.win 6).flush t = true ∧ i ∈ ((cfg0.win 6).blk t).view.set := by
  have hi0 : (i 0).val < 5000 := (i 0).isLt
  have hi1 : (i 1).val < 40 := (i 1).isLt
  have hN : cfg0.N = 25 := N_0
  obtain ⟨t, ht⟩ : ∃ t : Fin cfg0.N, t.val = (i 0).val / 200 := ⟨⟨(i 0).val / 200, by rw [hN]; omega⟩, rfl⟩
  have hidx := idx0 t
  refine ⟨t, flush0_6 t, ?_⟩
  rw [mem_blk0_6]
  intro a
  match a with
  | ⟨0, _⟩ =>
    show win0_6.index t (0 : Fin 2) * 200 ≤ (i 0).val ∧ (i 0).val < win0_6.index t (0 : Fin 2) * 200 + 200
    omega
  | ⟨1, _⟩ =>
    show win0_6.index t (1 : Fin 2) * 40 ≤ (i 1).val ∧ (i 1).val < win0_6.index t (1 : Fin 2) * 40 + 40
    omega

/-- The top half's projected hidden rows after the pass, as one function of the arrays the pass is entered with. -/
theorem final0_6 (c : Dev nD) : (dat0 (F := Ideal) V c).arrAt 6 cfg0.N = arr0_6 V c :=
  (dat0 (F := Ideal) V c).arrAt_eq_of_cover 6 (arr0_6 V c) (fun t _ => flushed0_6_eq V c t) (cover0_6)

/-- … read at `(r, j)`. -/
theorem arrAt0_6_apply (c : Dev nD) (r : Fin 5000) (j : Fin 40) :
    ((dat0 (F := Ideal) V c).arrAt 6 cfg0.N : S5000x40.Idx → EReal) (ix2 r j)
      = ∑ k : Fin 256, max ((∑ d : Fin 128, Ideal.div (∑ n : Fin 10000, a_arg1 V c (ix2 (rowT r) n) * a_arg0 V c (ix2 n d))
          (max (∑ n : Fin 10000, a_arg1 V c (ix2 (rowT r) n)) (Ideal.ofBits .f32 0x2B8CBCCC#32)) * a_arg2 V c (ix2 d k)) + a_v0 V c (ix2 0 k)) 0
        * a_arg4 V c (ix2 k j) :=
  congrFun (final0_6 V c) (ix2 r j)

/-! ## Result window 7: the projected hidden rows of the bottom half -/

/-- The bottom half's projected hidden layer at `(r, j)`. -/
def out0_7 (c : Dev nD) (r : Fin 5000) (j : Fin 40) : EReal :=
  ∑ k : Fin 256, max ((∑ d : Fin 128, Ideal.div (∑ n : Fin 10000, a_arg1 V c (ix2 (rowB r) n) * a_arg0 V c (ix2 n d))
          (max (∑ n : Fin 10000, a_arg1 V c (ix2 (rowB r) n)) (Ideal.ofBits .f32 0x2B8CBCCC#32)) * a_arg2 V c (ix2 d k)) + a_v0 V c (ix2 0 k)) 0
        * a_arg4 V c (ix2 k j)

/-- The same as one function of the array's index. -/
def arr0_7 (c : Dev nD) : S5000x40.Idx → EReal := fun i => out0_7 V c ⟨(i 0).val, (i 0).isLt⟩ ⟨(i 1).val, (i 1).isLt⟩

/-- What point `t` writes back is block row `t` of that function. -/
theorem flushed0_7_eq (c : Dev nD) (t : Fin cfg0.N) :
    (dat0 (F := Ideal) V c).flushed 7 t = ((cfg0.win 7).blk t).view.read (Elt Ideal) (arr0_7 V c) := by
  show (cfg0.win 7).cut (grid0.coords t) ((dat0 V c).after 7 t) = _
  rw [after0_7]
  have hi := idx0 t
  funext y
  have hy0 : (y 0).val < 200 := (y 0).isLt
  have hy1 : (y 1).val < 40 := (y 1).isLt
  have hy : ((cfg0.win 7).xinj (grid0.coords t) y : S200x40.Idx) = ix2 (⟨(y 0).val, hy0⟩ : Fin 200) (⟨(y 1).val, hy1⟩ : Fin 40) :=
    funext fun a => Fin.ext (by match a with | ⟨0, _⟩ => rfl | ⟨1, _⟩ => rfl)
  show Gen.k0_pay1 (F := Ideal) (iblk0 V c 5 t) (Gen.k0_pay6 (iblk0 V c 2 t) (iblk0 V c 3 t) (iblk0 V c 1 t)) (Gen.k0_pay7 (iblk0 V c 4 t))
      ((cfg0.win 7).xinj (grid0.coords t) y) = arr0_7 V c (((cfg0.win 7).blk t).view.emb y)
  rw [hy]
  refine (k0_pay1_pay6_pay7_apply _ _ _ _ _ _ _).trans ?_
  have he0 : ((((cfg0.win 7).blk t).view.emb y) 0).val = 200 * t.val + (y 0).val := by
    show win0_7.index t (0 : Fin 2) * 200 + 1 * (y 0).val = _; omega
  have he1 : ((((cfg0.win 7).blk t).view.emb y) 1).val = (y 1).val := by
    show win0_7.index t (1 : Fin 2) * 40 + 1 * (y 1).val = _; omega
  show _ = out0_7 V c ⟨((((cfg0.win 7).blk t).view.emb y) 0).val, _⟩ ⟨((((cfg0.win 7).blk t).view.emb y) 1).val, _⟩
  unfold out0_7
  have hA : ∀ n : Fin 10000, (iblk0 V c 1 t : S200x10000.Idx → EReal) (ix2 (⟨(y 0).val, hy0⟩ : Fin 200) n)
      = a_arg1 V c (ix2 (rowB ⟨((((cfg0.win 7).blk t).view.emb y) 0).val, (((cfg0.win 7).blk t).view.emb y 0).isLt⟩) n) :=
    fun n => iblk0_1_apply V c t _ n _ (by show ((((cfg0.win 7).blk t).view.emb y) 0).val + 5000 = 5000 + 200 * t.val + (y 0).val; omega) rfl
  refine Finset.sum_congr rfl fun k _ => congrArg₂ (· * ·) (congrArg (max · 0) (congrArg₂ (· + ·)
    (Finset.sum_congr rfl fun d _ => congrArg₂ (· * ·) (congrArg₂ Ideal.div
      (Finset.sum_congr rfl fun n _ => congrArg₂ (· * ·) (hA n) ?_)
      (congrArg (max · (Ideal.ofBits .f32 0x2B8CBCCC#32)) (Finset.sum_congr rfl fun n _ => hA n))) ?_) ?_)) ?_
  · exact iblk0_2_apply V c t n d _ (by show n.val = 0 + n.val; omega) rfl
  · exact iblk0_3_apply V c t d k _ (by show d.val = 0 + d.val; omega) rfl
  · exact iblk0_4_apply V c t 0 k _ (by show (0 : Nat) = 0 + 0; rfl) rfl
  · exact iblk0_5_apply V c t k _ _ (by show k.val = 0 + k.val; omega) he1

/-- An index of the array is in point `t`'s block iff each coordinate is in the block's range on its axis. -/
theorem mem_blk0_7 (t : Fin cfg0.N) (i : S5000x40.Idx) :
    i ∈ ((cfg0.win 7).blk t).view.set ↔ ∀ a : Fin 2, win0_7.index t a * S200x40.size a ≤ (i a).val
      ∧ (i a).val < win0_7.index t a * S200x40.size a + S200x40.size a := by
  show i ∈ ((View.whole main_v2_1).slice (win0_7.rect t)).set ↔ _
  rw [View.set_slice_whole, Rect.mem_set_unit]
  exact Iff.rfl

/-- Row `r` is in the block of point `r / 200`: the 25 blocks cover the array. -/
theorem cover0_7 (i : S5000x40.Idx) :
    ∃ t : Fin cfg0.N, (cfg0.win 7).flush t = true ∧ i ∈ ((cfg0.win 7).blk t).view.set := by
  have hi0 : (i 0).val < 5000 := (i 0).isLt
  have hi1 : (i 1).val < 40 := (i 1).isLt
  have hN : cfg0.N = 25 := N_0
  obtain ⟨t, ht⟩ : ∃ t : Fin cfg0.N, t.val = (i 0).val / 200 := ⟨⟨(i 0).val / 200, by rw [hN]; omega⟩, rfl⟩
  have hidx := idx0 t
  refine ⟨t, flush0_7 t, ?_⟩
  rw [mem_blk0_7]
  intro a
  match a with
  | ⟨0, _⟩ =>
    show win0_7.index t (0 : Fin 2) * 200 ≤ (i 0).val ∧ (i 0).val < win0_7.index t (0 : Fin 2) * 200 + 200
    omega
  | ⟨1, _⟩ =>
    show win0_7.index t (1 : Fin 2) * 40 ≤ (i 1).val ∧ (i 1).val < win0_7.index t (1 : Fin 2) * 40 + 40
    omega

/-- The bottom half's projected hidden rows after the pass, as one function of the arrays the pass is entered with. -/
theorem final0_7 (c : Dev nD) : (dat0 (F := Ideal) V c).arrAt 7 cfg0.N = arr0_7 V c :=
  (dat0 (F := Ideal) V c).arrAt_eq_of_cover 7 (arr0_7 V c) (fun t _ => flushed0_7_eq V c t) (cover0_7)

/-- … read at `(r, j)`. -/
theorem arrAt0_7_apply (c : Dev nD) (r : Fin 5000) (j : Fin 40) :
    ((dat0 (F := Ideal) V c).arrAt 7 cfg0.N : S5000x40.Idx → EReal) (ix2 r j)
      = ∑ k : Fin 256, max ((∑ d : Fin 128, Ideal.div (∑ n : Fin 10000, a_arg1 V c (ix2 (rowB r) n) * a_arg0 V c (ix2 n d))
          (max (∑ n : Fin 10000, a_arg1 V c (ix2 (rowB r) n)) (Ideal.ofBits .f32 0x2B8CBCCC#32)) * a_arg2 V c (ix2 d k)) + a_v0 V c (ix2 0 k)) 0
        * a_arg4 V c (ix2 k j) :=
  congrFun (final0_7 V c) (ix2 r j)

/-! ## Result window 8: the floored degrees of the top half -/

/-- The top half's floored degree of row `r`. -/
def out0_8 (c : Dev nD) (r : Fin 5000) : EReal :=
  max (∑ n : Fin 10000, a_arg1 V c (ix2 (rowT r) n)) (Ideal.ofBits .f32 0x2B8CBCCC#32)

/-- The same as one function of the column's index. -/
def arr0_8 (c : Dev nD) : S5000x1.Idx → EReal := fun i => out0_8 V c ⟨(i 0).val, (i 0).isLt⟩

/-- What point `t` writes back is block row `t` of that function. -/
theorem flushed0_8_eq (c : Dev nD) (t : Fin cfg0.N) :
    (dat0 (F := Ideal) V c).flushed 8 t = ((cfg0.win 8).blk t).view.read (Elt Ideal) (arr0_8 V c) := by
  show (cfg0.win 8).cut (grid0.coords t) ((dat0 V c).after 8 t) = _
  rw [after0_8]
  have hi := idx0 t
  funext y
  have hy0 : (y 0).val < 200 := (y 0).isLt
  have hy1 : (y 1).val < 1 := (y 1).isLt
  have hy : ((cfg0.win 8).xinj (grid0.coords t) y : S200x1.Idx) = ix2 (⟨(y 0).val, hy0⟩ : Fin 200) (0 : Fin 1) :=
    funext fun a => Fin.ext (by
      match a with
      | ⟨0, _⟩ => rfl
      | ⟨1, _⟩ => show (y 1).val = 0; omega)
  show Gen.k0_pay3 (F := Ideal) (iblk0 V c 0 t)
      ((cfg0.win 8).xinj (grid0.coords t) y) = arr0_8 V c (((cfg0.win 8).blk t).view.emb y)
  rw [hy]
  refine (k0_pay3_apply _ _).trans ?_
  have he0 : ((((cfg0.win 8).blk t).view.emb y) 0).val = 200 * t.val + (y 0).val := by
    show win0_8.index t (0 : Fin 2) * 200 + 1 * (y 0).val = _; omega
  show _ = out0_8 V c ⟨((((cfg0.win 8).blk t).view.emb y) 0).val, _⟩
  unfold out0_8
  refine congrArg (max · (Ideal.ofBits .f32 0x2B8CBCCC#32)) (Finset.sum_congr rfl fun n _ => ?_)
  exact iblk0_0_apply V c t _ n _ (by show ((((cfg0.win 8).blk t).view.emb y) 0).val = 200 * t.val + (y 0).val; exact he0) rfl

/-- An index of the column is in point `t`'s block iff each coordinate is in the block's range on its axis. -/
theorem mem_blk0_8 (t : Fin cfg0.N) (i : S5000x1.Idx) :
    i ∈ ((cfg0.win 8).blk t).view.set ↔ ∀ a : Fin 2, win0_8.index t a * S200x1.size a ≤ (i a).val
      ∧ (i a).val < win0_8.index t a * S200x1.size a + S200x1.size a := by
  show i ∈ ((View.whole main_v2_2).slice (win0_8.rect t)).set ↔ _
  rw [View.set_slice_whole, Rect.mem_set_unit]
  exact Iff.rfl

/-- Row `r` is in the block of point `r / 200`: the 25 blocks cover the column. -/
theorem cover0_8 (i : S5000x1.Idx) :
    ∃ t : Fin cfg0.N, (cfg0.win 8).flush t = true ∧ i ∈ ((cfg0.win 8).blk t).view.set := by
  have hi0 : (i 0).val < 5000 := (i 0).isLt
  have hi1 : (i 1).val < 1 := (i 1).isLt
  have hN : cfg0.N = 25 := N_0
  obtain ⟨t, ht⟩ : ∃ t : Fin cfg0.N, t.val = (i 0).val / 200 := ⟨⟨(i 0).val / 200, by rw [hN]; omega⟩, rfl⟩
  have hidx := idx0 t
  refine ⟨t, flush0_8 t, ?_⟩
  rw [mem_blk0_8]
  intro a
  match a with
  | ⟨0, _⟩ =>
    show win0_8.index t (0 : Fin 2) * 200 ≤ (i 0).val ∧ (i 0).val < win0_8.index t (0 : Fin 2) * 200 + 200
    omega
  | ⟨1, _⟩ =>
    show win0_8.index t (1 : Fin 2) * 1 ≤ (i 1).val ∧ (i 1).val < win0_8.index t (1 : Fin 2) * 1 + 1
    omega

/-- The top half's degree column after the pass, as one function of the adjacency the pass is entered with. -/
theorem final0_8 (c : Dev nD) : (dat0 (F := Ideal) V c).arrAt 8 cfg0.N = arr0_8 V c :=
  (dat0 (F := Ideal) V c).arrAt_eq_of_cover 8 (arr0_8 V c) (fun t _ => flushed0_8_eq V c t) (cover0_8)

/-- … read at row `r`. -/
theorem arrAt0_8_apply (c : Dev nD) (r : Fin 5000) :
    ((dat0 (F := Ideal) V c).arrAt 8 cfg0.N : S5000x1.Idx → EReal) (ix2 r 0)
      = max (∑ n : Fin 10000, a_arg1 V c (ix2 (rowT r) n)) (Ideal.ofBits .f32 0x2B8CBCCC#32) :=
  congrFun (final0_8 V c) (ix2 r 0)

/-! ## Result window 9: the floored degrees of the bottom half -/

/-- The bottom half's floored degree of row `r`. -/
def out0_9 (c : Dev nD) (r : Fin 5000) : EReal :=
  max (∑ n : Fin 10000, a_arg1 V c (ix2 (rowB r) n)) (Ideal.ofBits .f32 0x2B8CBCCC#32)

/-- The same as one function of the column's index. -/
def arr0_9 (c : Dev nD) : S5000x1.Idx → EReal := fun i => out0_9 V c ⟨(i 0).val, (i 0).isLt⟩

/-- What point `t` writes back is block row `t` of that function. -/
theorem flushed0_9_eq (c : Dev nD) (t : Fin cfg0.N) :
    (dat0 (F := Ideal) V c).flushed 9 t = ((cfg0.win 9).blk t).view.read (Elt Ideal) (arr0_9 V c) := by
  show (cfg0.win 9).cut (grid0.coords t) ((dat0 V c).after 9 t) = _
  rw [after0_9]
  have hi := idx0 t
  funext y
  have hy0 : (y 0).val < 200 := (y 0).isLt
  have hy1 : (y 1).val < 1 := (y 1).isLt
  have hy : ((cfg0.win 9).xinj (grid0.coords t) y : S200x1.Idx) = ix2 (⟨(y 0).val, hy0⟩ : Fin 200) (0 : Fin 1) :=
    funext fun a => Fin.ext (by
      match a with
      | ⟨0, _⟩ => rfl
      | ⟨1, _⟩ => show (y 1).val = 0; omega)
  show Gen.k0_pay5 (F := Ideal) (iblk0 V c 1 t)
      ((cfg0.win 9).xinj (grid0.coords t) y) = arr0_9 V c (((cfg0.win 9).blk t).view.emb y)
  rw [hy]
  refine (k0_pay5_apply _ _).trans ?_
  have he0 : ((((cfg0.win 9).blk t).view.emb y) 0).val = 200 * t.val + (y 0).val := by
    show win0_9.index t (0 : Fin 2) * 200 + 1 * (y 0).val = _; omega
  show _ = out0_9 V c ⟨((((cfg0.win 9).blk t).view.emb y) 0).val, _⟩
  unfold out0_9
  refine congrArg (max · (Ideal.ofBits .f32 0x2B8CBCCC#32)) (Finset.sum_congr rfl fun n _ => ?_)
  exact iblk0_1_apply V c t _ n _ (by show ((((cfg0.win 9).blk t).view.emb y) 0).val + 5000 = 5000 + 200 * t.val + (y 0).val; omega) rfl

/-- An index of the column is in point `t`'s block iff each coordinate is in the block's range on its axis. -/
theorem mem_blk0_9 (t : Fin cfg0.N) (i : S5000x1.Idx) :
    i ∈ ((cfg0.win 9).blk t).view.set ↔ ∀ a : Fin 2, win0_9.index t a * S200x1.size a ≤ (i a).val
      ∧ (i a).val < win0_9.index t a * S200x1.size a + S200x1.size a := by
  show i ∈ ((View.whole main_v2_3).slice (win0_9.rect t)).set ↔ _
  rw [View.set_slice_whole, Rect.mem_set_unit]
  exact Iff.rfl

/-- Row `r` is in the block of point `r / 200`: the 25 blocks cover the column. -/
theorem cover0_9 (i : S5000x1.Idx) :
    ∃ t : Fin cfg0.N, (cfg0.win 9).flush t = true ∧ i ∈ ((cfg0.win 9).blk t).view.set := by
  have hi0 : (i 0).val < 5000 := (i 0).isLt
  have hi1 : (i 1).val < 1 := (i 1).isLt
  have hN : cfg0.N = 25 := N_0
  obtain ⟨t, ht⟩ : ∃ t : Fin cfg0.N, t.val = (i 0).val / 200 := ⟨⟨(i 0).val / 200, by rw [hN]; omega⟩, rfl⟩
  have hidx := idx0 t
  refine ⟨t, flush0_9 t, ?_⟩
  rw [mem_blk0_9]
  intro a
  match a with
  | ⟨0, _⟩ =>
    show win0_9.index t (0 : Fin 2) * 200 ≤ (i 0).val ∧ (i 0).val < win0_9.index t (0 : Fin 2) * 200 + 200
    omega
  | ⟨1, _⟩ =>
    show win0_9.index t (1 : Fin 2) * 1 ≤ (i 1).val ∧ (i 1).val < win0_9.index t (1 : Fin 2) * 1 + 1
    omega

/-- The bottom half's degree column after the pass, as one function of the adjacency the pass is entered with. -/
theorem final0_9 (c : Dev nD) : (dat0 (F := Ideal) V c).arrAt 9 cfg0.N = arr0_9 V c :=
  (dat0 (F := Ideal) V c).arrAt_eq_of_cover 9 (arr0_9 V c) (fun t _ => flushed0_9_eq V c t) (cover0_9)

/-- … read at row `r`. -/
theorem arrAt0_9_apply (c : Dev nD) (r : Fin 5000) :
    ((dat0 (F := Ideal) V c).arrAt 9 cfg0.N : S5000x1.Idx → EReal) (ix2 r 0)
      = max (∑ n : Fin 10000, a_arg1 V c (ix2 (rowB r) n)) (Ideal.ofBits .f32 0x2B8CBCCC#32) :=
  congrFun (final0_9 V c) (ix2 r 0)

end Cert.KernelIdeal.BlockValue

end
-- ==== Proof.BlocksIdeal1.lean ====
/-
  From blocks to the array, second pass.

  The pass runs over 25 points. At point `t` it reads rows `200·t …` of the adjacency's top half and of its bottom
  half (block rows `t` and `t + 25` of the one array), the whole of the projected rows and of the bias, and block row
  `t` of each half's degree column, and writes block row `t` of each half's result. Every block a point writes is the
  restriction to its rows of ONE function of the arrays the pass is entered with; the 25 blocks tile the 5000 rows, so
  the array after the pass is that function.
-/
import proofs.«115625_g20418274525701_cont_8to1_1804_5_alg».proof.Proof.BlocksIdealDefs
import proofs.«115625_g20418274525701_cont_8to1_1804_5_alg».proof.Proof.Payload
import Idealize.ShloMosaic.Lib.Pipeline.Value

noncomputable section

namespace Cert.KernelIdeal.BlockValue

open Cert.KernelIdeal Cert.KernelIdeal.Gen Cert.KernelIdeal.PayloadValue Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The printed index maps over the 25 points: block row `t` (top half, degrees, results), block row `t + 25` (bottom
    half), block `(0, 0)` (whole arrays). -/
theorem idx1 : ∀ t : Fin cfg1.N,
    win1_0.index t (0 : Fin 2) = t.val ∧ win1_0.index t (1 : Fin 2) = 0
    ∧ win1_1.index t (0 : Fin 2) = t.val + 25 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-! ## Each input block read at an entry is the array at the block's place -/

theorem iblk1_0_apply (c : Dev nD) (t : Fin cfg1.N) (p : Fin 200) (q : Fin 10000) (k : S10000x10000.Idx)
    (hk0 : (k 0).val = 200 * t.val + p.val) (hk1 : (k 1).val = q.val) :
    (iblk1 V c 0 t : S200x10000.Idx → EReal) (ix2 p q) = a_arg1 V c k := by
  have hi := idx1 t
  unfold iblk1
  rw [View.read_apply]
  show a_arg1 V c _ = a_arg1 V c _
  congr 1
  funext a
  apply Fin.ext
  match a with
  | ⟨0, _⟩ => show win1_0.index t (0 : Fin 2) * 200 + 1 * p.val = (k 0).val; rw [hk0]; omega
  | ⟨1, _⟩ => show win1_0.index t (1 : Fin 2) * 10000 + 1 * q.val = (k 1).val; rw [hk1]; omega

theorem iblk1_1_apply (c : Dev nD) (t : Fin cfg1.N) (p : Fin 200) (q : Fin 10000) (k : S10000x10000.Idx)
    (hk0 : (k 0).val = 5000 + 200 * t.val + p.val) (hk1 : (k 1).val = q.val) :
    (iblk1 V c 1 t : S200x10000.Idx → EReal) (ix2 p q) = a_arg1 V c k := by
  have hi := idx1 t
  unfold iblk1
  rw [View.read_apply]
  show a_arg1 V c _ = a_arg1 V c _
  congr 1
  funext a
  apply Fin.ext
  match a with
  | ⟨0, _⟩ => show win1_1.index t (0 : Fin 2) * 200 + 1 * p.val = (k 0).val; rw [hk0]; omega
  | ⟨1, _⟩ => show win1_1.index t (1 : Fin 2) * 10000 + 1 * q.val = (k 1).val; rw [hk1]; omega

theorem iblk1_2_apply (c : Dev nD) (t : Fin cfg1.N) (p : Fin 10000) (q : Fin 40) (k : S10000x40.Idx)
    (hk0 : (k 0).val = 0 + p.val) (hk1 : (k 1).val = q.val) :
    (iblk1 V c 2 t : S10000x40.Idx → EReal) (ix2 p q) = a_v3 V c k := by
  have hi := idx1 t
  unfold iblk1
  rw [View.read_apply]
  show a_v3 V c _ = a_v3 V c _
  congr 1
  funext a
  apply Fin.ext
  match a with
  | ⟨0, _⟩ => show win1_2.index t (0 : Fin 2) * 10000 + 1 * p.val = (k 0).val; rw [hk0]; omega
  | ⟨1, _⟩ => show win1_2.index t (1 : Fin 2) * 40 + 1 * q.val = (k 1).val; rw [hk1]; omega

theorem iblk1_3_apply (c : Dev nD) (t : Fin cfg1.N) (p : Fin 200) (q : Fin 1) (k : S5000x1.Idx)
    (hk0 : (k 0).val = 200 * t.val + p.val) (hk1 : (k 1).val = q.val) :
    (iblk1 V c 3 t : S200x1.Idx → EReal) (ix2 p q) = a_v2_2 V c k := by
  have hi := idx1 t
  unfold iblk1
  rw [View.read_apply]
  show a_v2_2 V c _ = a_v2_2 V c _
  congr 1
  funext a
  apply Fin.ext
  match a with
  | ⟨0, _⟩ => show win1_3.index t (0 : Fin 2) * 200 + 1 * p.val = (k 0).val; rw [hk0]; omega
  | ⟨1, _⟩ => show win1_3.index t (1 : Fin 2) * 1 + 1 * q.val = (k 1).val; rw [hk1]; omega

theorem iblk1_4_apply (c : Dev nD) (t : Fin cfg1.N) (p : Fin 200) (q : Fin 1) (k : S5000x1.Idx)
    (hk0 : (k 0).val = 200 * t.val + p.val) (hk1 : (k 1).val = q.val) :
    (iblk1 V c 4 t : S200x1.Idx → EReal) (ix2 p q) = a_v2_3 V c k := by
  have hi := idx1 t
  unfold iblk1
  rw [View.read_apply]
  show a_v2_3 V c _ = a_v2_3 V c _
  congr 1
  funext a
  apply Fin.ext
  match a with
  | ⟨0, _⟩ => show win1_4.index t (0 : Fin 2) * 200 + 1 * p.val = (k 0).val; rw [hk0]; omega
  | ⟨1, _⟩ => show win1_4.index t (1 : Fin 2) * 1 + 1 * q.val = (k 1).val; rw [hk1]; omega

theorem iblk1_5_apply (c : Dev nD) (t : Fin cfg1.N) (p : Fin 1) (q : Fin 40) (k : S1x40.Idx)
    (hk0 : (k 0).val = 0 + p.val) (hk1 : (k 1).val = q.val) :
    (iblk1 V c 5 t : S1x40.Idx → EReal) (ix2 p q) = a_v1 V c k := by
  have hi := idx1 t
  unfold iblk1
  rw [View.read_apply]
  show a_v1 V c _ = a_v1 V c _
  congr 1
  funext a
  apply Fin.ext
  match a with
  | ⟨0, _⟩ => show win1_5.index t (0 : Fin 2) * 1 + 1 * p.val = (k 0).val; rw [hk0]; omega
  | ⟨1, _⟩ => show win1_5.index t (1 : Fin 2) * 40 + 1 * q.val = (k 1).val; rw [hk1]; omega

/-! ## Result window 6: the top half -/

/-- The top half's result at `(r, j)`: the aggregated projected rows over the stored degree, plus the bias. -/
def out1_6 (c : Dev nD) (r : Fin 5000) (j : Fin 40) : EReal :=
  Ideal.div (∑ n : Fin 10000, a_arg1 V c (ix2 (rowT r) n) * a_v3 V c (ix2 n j)) (a_v2_2 V c (ix2 r 0)) + a_v1 V c (ix2 0 j)

/-- The same as one function of the array's index. -/
def arr1_6 (c : Dev nD) : S5000x40.Idx → EReal := fun i => out1_6 V c ⟨(i 0).val, (i 0).isLt⟩ ⟨(i 1).val, (i 1).isLt⟩

/-- What point `t` writes back is block row `t` of that function. -/
theorem flushed1_6_eq (c : Dev nD) (t : Fin cfg1.N) :
    (dat1 (F := Ideal) V c).flushed 6 t = ((cfg1.win 6).blk t).view.read (Elt Ideal) (arr1_6 V c) := by
  show (cfg1.win 6).cut (grid1.coords t) ((dat1 V c).after 6 t) = _
  rw [after1_6]
  have hi := idx1 t
  funext y
  have hy0 : (y 0).val < 200 := (y 0).isLt
  have hy1 : (y 1).val < 40 := (y 1).isLt
  have hy : ((cfg1.win 6).xinj (grid1.coords t) y : S200x40.Idx) = ix2 (⟨(y 0).val, hy0⟩ : Fin 200) (⟨(y 1).val, hy1⟩ : Fin 40) :=
    funext fun a => Fin.ext (by match a with | ⟨0, _⟩ => rfl | ⟨1, _⟩ => rfl)
  show Gen.k1_pay3 (F := Ideal) (iblk1 V c 2 t) (iblk1 V c 5 t) (iblk1 V c 0 t) (iblk1 V c 3 t)
      ((cfg1.win 6).xinj (grid1.coords t) y) = arr1_6 V c (((cfg1.win 6).blk t).view.emb y)
  rw [hy]
  refine (k1_pay3_apply _ _ _ _ _ _).trans ?_
  have he0 : ((((cfg1.win 6).blk t).view.emb y) 0).val = 200 * t.val + (y 0).val := by
    show win1_6.index t (0 : Fin 2) * 200 + 1 * (y 0).val = _; omega
  have he1 : ((((cfg1.win 6).blk t).view.emb y) 1).val = (y 1).val := by
    show win1_6.index t (1 : Fin 2) * 40 + 1 * (y 1).val = _; omega
  show _ = out1_6 V c ⟨((((cfg1.win 6).blk t).view.emb y) 0).val, _⟩ ⟨((((cfg1.win 6).blk t).view.emb y) 1).val, _⟩
  unfold out1_6
  refine congrArg₂ (· + ·) (congrArg₂ Ideal.div (Finset.sum_congr rfl fun n _ => congrArg₂ (· * ·) ?_ ?_) ?_) ?_
  · exact iblk1_0_apply V c t _ n _ (by show ((((cfg1.win 6).blk t).view.emb y) 0).val = 200 * t.val + (y 0).val; exact he0) rfl
  · exact iblk1_2_apply V c t n _ _ (by show n.val = 0 + n.val; omega) he1
  · exact iblk1_3_apply V c t _ 0 _ (by show ((((cfg1.win 6).blk t).view.emb y) 0).val = 200 * t.val + (y 0).val; exact he0) rfl
  · exact iblk1_5_apply V c t 0 _ _ (by show (0 : Nat) = 0 + 0; rfl) he1

/-- An index of the array is in point `t`'s block iff each coordinate is in the block's range on its axis. -/
theorem mem_blk1_6 (t : Fin cfg1.N) (i : S5000x40.Idx) :
    i ∈ ((cfg1.win 6).blk t).view.set ↔ ∀ a : Fin 2, win1_6.index t a * S200x40.size a ≤ (i a).val
      ∧ (i a).val < win1_6.index t a * S200x40.size a + S200x40.size a := by
  show i ∈ ((View.whole main_v4_0).slice (win1_6.rect t)).set ↔ _
  rw [View.set_slice_whole, Rect.mem_set_unit]
  exact Iff.rfl

/-- Row `r` is in the block of point `r / 200`: the 25 blocks cover the array. -/
theorem cover1_6 (i : S5000x40.Idx) :
    ∃ t : Fin cfg1.N, (cfg1.win 6).flush t = true ∧ i ∈ ((cfg1.win 6).blk t).view.set := by
  have hi0 : (i 0).val < 5000 := (i 0).isLt
  have hi1 : (i 1).val < 40 := (i 1).isLt
  have hN : cfg1.N = 25 := N_1
  obtain ⟨t, ht⟩ : ∃ t : Fin cfg1.N, t.val = (i 0).val / 200 := ⟨⟨(i 0).val / 200, by rw [hN]; omega⟩, rfl⟩
  have hidx := idx1 t
  refine ⟨t, flush1_6 t, ?_⟩
  rw [mem_blk1_6]
  intro a
  match a with
  | ⟨0, _⟩ =>
    show win1_6.index t (0 : Fin 2) * 200 ≤ (i 0).val ∧ (i 0).val < win1_6.index t (0 : Fin 2) * 200 + 200
    omega
  | ⟨1, _⟩ =>
    show win1_6.index t (1 : Fin 2) * 40 ≤ (i 1).val ∧ (i 1).val < win1_6.index t (1 : Fin 2) * 40 + 40
    omega

/-- The top half's result array after the pass, as one function of the arrays the pass is entered with. -/
theorem final1_6 (c : Dev nD) : (dat1 (F := Ideal) V c).arrAt 6 cfg1.N = arr1_6 V c :=
  (dat1 (F := Ideal) V c).arrAt_eq_of_cover 6 (arr1_6 V c) (fun t _ => flushed1_6_eq V c t) (cover1_6)

/-- … read at `(r, j)`. -/
theorem arrAt1_6_apply (c : Dev nD) (r : Fin 5000) (j : Fin 40) :
    ((dat1 (F := Ideal) V c).arrAt 6 cfg1.N : S5000x40.Idx → EReal) (ix2 r j)
      = Ideal.div (∑ n : Fin 10000, a_arg1 V c (ix2 (rowT r) n) * a_v3 V c (ix2 n j)) (a_v2_2 V c (ix2 r 0)) + a_v1 V c (ix2 0 j) :=
  congrFun (final1_6 V c) (ix2 r j)

/-! ## Result window 7: the bottom half -/

/-- The bottom half's result at `(r, j)`: the aggregated projected rows over the stored degree, plus the bias. -/
def out1_7 (c : Dev nD) (r : Fin 5000) (j : Fin 40) : EReal :=
  Ideal.div (∑ n : Fin 10000, a_arg1 V c (ix2 (rowB r) n) * a_v3 V c (ix2 n j)) (a_v2_3 V c (ix2 r 0)) + a_v1 V c (ix2 0 j)

/-- The same as one function of the array's index. -/
def arr1_7 (c : Dev nD) : S5000x40.Idx → EReal := fun i => out1_7 V c ⟨(i 0).val, (i 0).isLt⟩ ⟨(i 1).val, (i 1).isLt⟩

/-- What point `t` writes back is block row `t` of that function. -/
theorem flushed1_7_eq (c : Dev nD) (t : Fin cfg1.N) :
    (dat1 (F := Ideal) V c).flushed 7 t = ((cfg1.win 7).blk t).view.read (Elt Ideal) (arr1_7 V c) := by
  show (cfg1.win 7).cut (grid1.coords t) ((dat1 V c).after 7 t) = _
  rw [after1_7]
  have hi := idx1 t
  funext y
  have hy0 : (y 0).val < 200 := (y 0).isLt
  have hy1 : (y 1).val < 40 := (y 1).isLt
  have hy : ((cfg1.win 7).xinj (grid1.coords t) y : S200x40.Idx) = ix2 (⟨(y 0).val, hy0⟩ : Fin 200) (⟨(y 1).val, hy1⟩ : Fin 40) :=
    funext fun a => Fin.ext (by match a with | ⟨0, _⟩ => rfl | ⟨1, _⟩ => rfl)
  show Gen.k1_pay4 (F := Ideal) (iblk1 V c 2 t) (iblk1 V c 5 t) (iblk1 V c 1 t) (iblk1 V c 4 t)
      ((cfg1.win 7).xinj (grid1.coords t) y) = arr1_7 V c (((cfg1.win 7).blk t).view.emb y)
  rw [hy]
  refine (k1_pay4_apply _ _ _ _ _ _).trans ?_
  have he0 : ((((cfg1.win 7).blk t).view.emb y) 0).val = 200 * t.val + (y 0).val := by
    show win1_7.index t (0 : Fin 2) * 200 + 1 * (y 0).val = _; omega
  have he1 : ((((cfg1.win 7).blk t).view.emb y) 1).val = (y 1).val := by
    show win1_7.index t (1 : Fin 2) * 40 + 1 * (y 1).val = _; omega
  show _ = out1_7 V c ⟨((((cfg1.win 7).blk t).view.emb y) 0).val, _⟩ ⟨((((cfg1.win 7).blk t).view.emb y) 1).val, _⟩
  unfold out1_7
  refine congrArg₂ (· + ·) (congrArg₂ Ideal.div (Finset.sum_congr rfl fun n _ => congrArg₂ (· * ·) ?_ ?_) ?_) ?_
  · exact iblk1_1_apply V c t _ n _ (by show ((((cfg1.win 7).blk t).view.emb y) 0).val + 5000 = 5000 + 200 * t.val + (y 0).val; omega) rfl
  · exact iblk1_2_apply V c t n _ _ (by show n.val = 0 + n.val; omega) he1
  · exact iblk1_4_apply V c t _ 0 _ (by show ((((cfg1.win 7).blk t).view.emb y) 0).val = 200 * t.val + (y 0).val; exact he0) rfl
  · exact iblk1_5_apply V c t 0 _ _ (by show (0 : Nat) = 0 + 0; rfl) he1

/-- An index of the array is in point `t`'s block iff each coordinate is in the block's range on its axis. -/
theorem mem_blk1_7 (t : Fin cfg1.N) (i : S5000x40.Idx) :
    i ∈ ((cfg1.win 7).blk t).view.set ↔ ∀ a : Fin 2, win1_7.index t a * S200x40.size a ≤ (i a).val
      ∧ (i a).val < win1_7.index t a * S200x40.size a + S200x40.size a := by
  show i ∈ ((View.whole main_v4_1).slice (win1_7.rect t)).set ↔ _
  rw [View.set_slice_whole, Rect.mem_set_unit]
  exact Iff.rfl

/-- Row `r` is in the block of point `r / 200`: the 25 blocks cover the array. -/
theorem cover1_7 (i : S5000x40.Idx) :
    ∃ t : Fin cfg1.N, (cfg1.win 7).flush t = true ∧ i ∈ ((cfg1.win 7).blk t).view.set := by
  have hi0 : (i 0).val < 5000 := (i 0).isLt
  have hi1 : (i 1).val < 40 := (i 1).isLt
  have hN : cfg1.N = 25 := N_1
  obtain ⟨t, ht⟩ : ∃ t : Fin cfg1.N, t.val = (i 0).val / 200 := ⟨⟨(i 0).val / 200, by rw [hN]; omega⟩, rfl⟩
  have hidx := idx1 t
  refine ⟨t, flush1_7 t, ?_⟩
  rw [mem_blk1_7]
  intro a
  match a with
  | ⟨0, _⟩ =>
    show win1_7.index t (0 : Fin 2) * 200 ≤ (i 0).val ∧ (i 0).val < win1_7.index t (0 : Fin 2) * 200 + 200
    omega
  | ⟨1, _⟩ =>
    show win1_7.index t (1 : Fin 2) * 40 ≤ (i 1).val ∧ (i 1).val < win1_7.index t (1 : Fin 2) * 40 + 40
    omega

/-- The bottom half's result array after the pass, as one function of the arrays the pass is entered with. -/
theorem final1_7 (c : Dev nD) : (dat1 (F := Ideal) V c).arrAt 7 cfg1.N = arr1_7 V c :=
  (dat1 (F := Ideal) V c).arrAt_eq_of_cover 7 (arr1_7 V c) (fun t _ => flushed1_7_eq V c t) (cover1_7)

/-- … read at `(r, j)`. -/
theorem arrAt1_7_apply (c : Dev nD) (r : Fin 5000) (j : Fin 40) :
    ((dat1 (F := Ideal) V c).arrAt 7 cfg1.N : S5000x40.Idx → EReal) (ix2 r j)
      = Ideal.div (∑ n : Fin 10000, a_arg1 V c (ix2 (rowB r) n) * a_v3 V c (ix2 n j)) (a_v2_3 V c (ix2 r 0)) + a_v1 V c (ix2 0 j) :=
  congrFun (final1_7 V c) (ix2 r j)

end Cert.KernelIdeal.BlockValue

end
-- ==== Proof.KernelValue.lean ====
/-
  The kernel's result, entry by entry, is the project-first form of the two-layer mean-aggregation network.

  The program runs two passes with host operations around them. The first pass leaves, for each half of the rows,
  the projected hidden rows and the floored degrees; the halves of the projected rows are laid end to end; the second
  pass aggregates the projected rows over each half's adjacency rows, divides by the half's degrees and adds the second
  bias; its halves are laid end to end again. Given what each pass writes as a function of what it is entered with
  (the six block facts, proved apart), the buffers between the items are read back to the launch memory
  one stage at a time, and the result at (R, j) is the specification's expression at R, j.
-/
import proofs.«115625_g20418274525701_cont_8to1_1804_5_alg».proof.Proof.FoldIdeal
import proofs.«115625_g20418274525701_cont_8to1_1804_5_alg».proof.Proof.HostGlue
import proofs.«115625_g20418274525701_cont_8to1_1804_5_alg».proof.Proof.Spec
import proofs.«115625_g20418274525701_cont_8to1_1804_5_alg».proof.Proof.Rows
import proofs.«115625_g20418274525701_cont_8to1_1804_5_alg».proof.Proof.BlocksIdeal0
import proofs.«115625_g20418274525701_cont_8to1_1804_5_alg».proof.Proof.BlocksIdeal1
import Idealize.ShloMosaic.Lib.ValueIdx

noncomputable section

namespace Cert.KernelIdeal.KernelValue

open Cert.KernelIdeal Cert.KernelIdeal.Gen Cert.KernelIdeal.HostValue Cert.KernelIdeal.BlockValue Cert.Sage
open Idealize.ShloMosaic Idealize.ShloMosaic.TcCoe Idealize.ShloMosaic.ValueIdx Idealize.SL.Sem

/-- The floor of the degree: the extended real the f32 pattern 0x2B8CBCCC denotes. -/
abbrev eps : EReal := Ideal.ofBits .f32 0x2B8CBCCC#32

variable (m : (ℓ : Loc nD τ sig) → Buf (Elt Ideal) ℓ) (c : Dev nD)

/-! ## The six arguments by coordinates -/

/-- The adjacency. -/
abbrev argA : Fin 10000 → Fin 10000 → EReal := fun r n => (m ((c : Thread nD τ).loc main_arg1) : S10000x10000.Idx → EReal) (ix2 r n)
/-- The features. -/
abbrev argX : Fin 10000 → Fin 128 → EReal := fun n d => (m ((c : Thread nD τ).loc main_arg0) : S10000x128.Idx → EReal) (ix2 n d)
/-- The first linear map. -/
abbrev argW1 : Fin 128 → Fin 256 → EReal := fun d k => (m ((c : Thread nD τ).loc main_arg2) : S128x256.Idx → EReal) (ix2 d k)
/-- The first bias. -/
abbrev argB1 : Fin 256 → EReal := fun k => (m ((c : Thread nD τ).loc main_arg3) : S256.Idx → EReal) (ix1 k)
/-- The second linear map. -/
abbrev argW2 : Fin 256 → Fin 40 → EReal := fun k j => (m ((c : Thread nD τ).loc main_arg4) : S256x40.Idx → EReal) (ix2 k j)
/-- The second bias. -/
abbrev argB2 : Fin 40 → EReal := fun j => (m ((c : Thread nD τ).loc main_arg5) : S40.Idx → EReal) (ix1 j)

/-! ## The two passes' expressions against the specification's, over arbitrary arrays -/

/-- The first pass's expression at adjacency row R, with the bias row read at its column, is the projected hidden layer. -/
theorem proj_form (A : S10000x10000.Idx → EReal) (X : S10000x128.Idx → EReal) (Wa : S128x256.Idx → EReal)
    (B : S1x256.Idx → EReal) (Wb : S256x40.Idx → EReal) (b1 : Fin 256 → EReal) (hb : ∀ k, B (ix2 (0 : Fin 1) k) = b1 k)
    (R : Fin 10000) (j : Fin 40) :
    ∑ k : Fin 256, max ((∑ d : Fin 128, Ideal.div (∑ n : Fin 10000, A (ix2 R n) * X (ix2 n d))
          (max (∑ n : Fin 10000, A (ix2 R n)) (Ideal.ofBits .f32 0x2B8CBCCC#32)) * Wa (ix2 d k)) + B (ix2 (0 : Fin 1) k)) 0
        * Wb (ix2 k j)
      = proj eps (fun r n => A (ix2 r n)) (fun n d => X (ix2 n d)) (fun d k => Wa (ix2 d k)) b1 (fun k j => Wb (ix2 k j)) R j := by
  simp only [proj, hid, agg, deg, hb]

/-- The floored degree's expression at adjacency row R. -/
theorem deg_form (A : S10000x10000.Idx → EReal) (R : Fin 10000) :
    max (∑ n : Fin 10000, A (ix2 R n)) (Ideal.ofBits .f32 0x2B8CBCCC#32) = deg eps (fun r n => A (ix2 r n)) R := by
  simp only [deg]

/-- The second pass's expression, with the projected rows, the stored degree and the bias row read back. -/
theorem out_form (A : S10000x10000.Idx → EReal) (P : S10000x40.Idx → EReal) (D : S5000x1.Idx → EReal) (B : S1x40.Idx → EReal)
    (pr : Fin 10000 → Fin 40 → EReal) (dg : EReal) (b2 : Fin 40 → EReal) (hP : ∀ n j, P (ix2 n j) = pr n j)
    (r : Fin 5000) (hD : D (ix2 r (0 : Fin 1)) = dg) (hB : ∀ j, B (ix2 (0 : Fin 1) j) = b2 j) (R : Fin 10000) (j : Fin 40) :
    Ideal.div (∑ n : Fin 10000, A (ix2 R n) * P (ix2 n j)) (D (ix2 r (0 : Fin 1))) + B (ix2 (0 : Fin 1) j)
      = Ideal.div (∑ n : Fin 10000, A (ix2 R n) * pr n j) dg + b2 j := by
  simp only [hP, hD, hB]

/-! ## What the first pass is entered with -/

theorem T1_arg0 : T1 m c main_arg0 = m ((c : Thread nD τ).loc main_arg0) := W1_kept m c main_arg0 (by decide)
theorem T1_arg1 : T1 m c main_arg1 = m ((c : Thread nD τ).loc main_arg1) := W1_kept m c main_arg1 (by decide)
theorem T1_arg2 : T1 m c main_arg2 = m ((c : Thread nD τ).loc main_arg2) := W1_kept m c main_arg2 (by decide)
theorem T1_arg4 : T1 m c main_arg4 = m ((c : Thread nD τ).loc main_arg4) := W1_kept m c main_arg4 (by decide)

/-- The first bias as a row, at its column. -/
theorem T1_v0 (k : Fin 256) : (T1 m c main_v0 : S1x256.Idx → EReal) (ix2 (0 : Fin 1) k) = argB1 m c k := by
  show (StableHlo.after hostOps0 (W0 m c) (Proc.devRef .tc main_v0) : S1x256.Idx → EReal) (ix2 (0 : Fin 1) k) = _
  rw [after0_main_v0 (W0 m c)]
  exact reshape_256_apply _ _ k

/-- The second bias as a row, at its column. -/
theorem W1_v1 (j : Fin 40) : (W1 m c main_v1 : S1x40.Idx → EReal) (ix2 (0 : Fin 1) j) = argB2 m c j := by
  show (StableHlo.after hostOps0 (W0 m c) (Proc.devRef .tc main_v1) : S1x40.Idx → EReal) (ix2 (0 : Fin 1) j) = _
  rw [after0_main_v1 (W0 m c)]
  exact reshape_40_apply _ _ j

/-! ## What the first pass writes -/

/-- The top half's projected hidden rows. -/
theorem proj_top (r : Fin 5000) (j : Fin 40) :
    (W2 m c main_v2_0 : S5000x40.Idx → EReal) (ix2 r j)
      = proj eps (argA m c) (argX m c) (argW1 m c) (argB1 m c) (argW2 m c) (rowT r) j := by
  refine (congrFun (W2_v2_0 m c) (ix2 r j)).trans ((arrAt0_6_apply (T1 m) c r j).trans ?_)
  have e0 : a_arg0 (T1 m) c = m ((c : Thread nD τ).loc main_arg0) := T1_arg0 m c
  have e1 : a_arg1 (T1 m) c = m ((c : Thread nD τ).loc main_arg1) := T1_arg1 m c
  have e2 : a_arg2 (T1 m) c = m ((c : Thread nD τ).loc main_arg2) := T1_arg2 m c
  have e4 : a_arg4 (T1 m) c = m ((c : Thread nD τ).loc main_arg4) := T1_arg4 m c
  rw [e0, e1, e2, e4]
  exact proj_form _ _ _ (a_v0 (T1 m) c) _ (argB1 m c) (T1_v0 m c) (rowT r) j

/-- The bottom half's projected hidden rows. -/
theorem proj_bot (r : Fin 5000) (j : Fin 40) :
    (W2 m c main_v2_1 : S5000x40.Idx → EReal) (ix2 r j)
      = proj eps (argA m c) (argX m c) (argW1 m c) (argB1 m c) (argW2 m c) (rowB r) j := by
  refine (congrFun (W2_v2_1 m c) (ix2 r j)).trans ((arrAt0_7_apply (T1 m) c r j).trans ?_)
  have e0 : a_arg0 (T1 m) c = m ((c : Thread nD τ).loc main_arg0) := T1_arg0 m c
  have e1 : a_arg1 (T1 m) c = m ((c : Thread nD τ).loc main_arg1) := T1_arg1 m c
  have e2 : a_arg2 (T1 m) c = m ((c : Thread nD τ).loc main_arg2) := T1_arg2 m c
  have e4 : a_arg4 (T1 m) c = m ((c : Thread nD τ).loc main_arg4) := T1_arg4 m c
  rw [e0, e1, e2, e4]
  exact proj_form _ _ _ (a_v0 (T1 m) c) _ (argB1 m c) (T1_v0 m c) (rowB r) j

/-- The top half's floored degrees. -/
theorem deg_top (r : Fin 5000) :
    (W2 m c main_v2_2 : S5000x1.Idx → EReal) (ix2 r (0 : Fin 1)) = deg eps (argA m c) (rowT r) := by
  refine (congrFun (W2_v2_2 m c) (ix2 r (0 : Fin 1))).trans ((arrAt0_8_apply (T1 m) c r).trans ?_)
  have e1 : a_arg1 (T1 m) c = m ((c : Thread nD τ).loc main_arg1) := T1_arg1 m c
  rw [e1]
  exact deg_form _ (rowT r)

/-- The bottom half's floored degrees. -/
theorem deg_bot (r : Fin 5000) :
    (W2 m c main_v2_3 : S5000x1.Idx → EReal) (ix2 r (0 : Fin 1)) = deg eps (argA m c) (rowB r) := by
  refine (congrFun (W2_v2_3 m c) (ix2 r (0 : Fin 1))).trans ((arrAt0_9_apply (T1 m) c r).trans ?_)
  have e1 : a_arg1 (T1 m) c = m ((c : Thread nD τ).loc main_arg1) := T1_arg1 m c
  rw [e1]
  exact deg_form _ (rowB r)

/-! ## What the second pass is entered with -/

theorem T3_arg1 : T3 m c main_arg1 = m ((c : Thread nD τ).loc main_arg1) :=
  W3_kept m c main_arg1 (by decide) (by decide) (by decide)

theorem T3_v2_2 : T3 m c main_v2_2 = W2 m c main_v2_2 := W3_of m c main_v2_2 (by decide)
theorem T3_v2_3 : T3 m c main_v2_3 = W2 m c main_v2_3 := W3_of m c main_v2_3 (by decide)

theorem T3_v1 (j : Fin 40) : (T3 m c main_v1 : S1x40.Idx → EReal) (ix2 (0 : Fin 1) j) = argB2 m c j := by
  have e : T3 m c main_v1 = W1 m c main_v1 := (W3_of m c main_v1 (by decide)).trans (W2_of m c main_v1 (by decide))
  rw [e]
  exact W1_v1 m c j

/-- The projected hidden rows, all 10000: the two halves laid end to end. -/
theorem proj_row (n : Fin 10000) (j : Fin 40) :
    (T3 m c main_v3 : S10000x40.Idx → EReal) (ix2 n j)
      = proj eps (argA m c) (argX m c) (argW1 m c) (argB1 m c) (argW2 m c) n j := by
  show (StableHlo.after hostOps1 (W2 m c) (Proc.devRef .tc main_v3) : S10000x40.Idx → EReal) (ix2 n j) = _
  rw [after1_main_v3 (W2 m c), concat_apply]
  by_cases hn : n.val < 5000
  · rw [dif_pos hn]
    exact proj_top m c ⟨n.val, hn⟩ j
  · rw [dif_neg hn]
    have hlt : n.val - 5000 < 5000 := by have := n.isLt; omega
    have e : rowB ⟨n.val - 5000, hlt⟩ = n := Fin.ext (by show n.val - 5000 + 5000 = n.val; omega)
    exact (proj_bot m c ⟨n.val - 5000, hlt⟩ j).trans (by rw [e])

/-! ## What the second pass writes -/

/-- The top half's result rows. -/
theorem out_top (r : Fin 5000) (j : Fin 40) :
    (W4 m c main_v4_0 : S5000x40.Idx → EReal) (ix2 r j)
      = outProjFirst eps (argA m c) (argX m c) (argW1 m c) (argB1 m c) (argW2 m c) (argB2 m c) (rowT r) j := by
  refine (congrFun (W4_v4_0 m c) (ix2 r j)).trans ((arrAt1_6_apply (T3 m) c r j).trans ?_)
  have e1 : a_arg1 (T3 m) c = m ((c : Thread nD τ).loc main_arg1) := T3_arg1 m c
  rw [e1]
  refine (out_form _ (a_v3 (T3 m) c) (a_v2_2 (T3 m) c) (a_v1 (T3 m) c)
    (proj eps (argA m c) (argX m c) (argW1 m c) (argB1 m c) (argW2 m c)) (deg eps (argA m c) (rowT r)) (argB2 m c)
    (proj_row m c) r ((congrFun (T3_v2_2 m c) (ix2 r (0 : Fin 1))).trans (deg_top m c r)) (T3_v1 m c) (rowT r) j).trans ?_
  rfl

/-- The bottom half's result rows. -/
theorem out_bot (r : Fin 5000) (j : Fin 40) :
    (W4 m c main_v4_1 : S5000x40.Idx → EReal) (ix2 r j)
      = outProjFirst eps (argA m c) (argX m c) (argW1 m c) (argB1 m c) (argW2 m c) (argB2 m c) (rowB r) j := by
  refine (congrFun (W4_v4_1 m c) (ix2 r j)).trans ((arrAt1_7_apply (T3 m) c r j).trans ?_)
  have e1 : a_arg1 (T3 m) c = m ((c : Thread nD τ).loc main_arg1) := T3_arg1 m c
  rw [e1]
  refine (out_form _ (a_v3 (T3 m) c) (a_v2_3 (T3 m) c) (a_v1 (T3 m) c)
    (proj eps (argA m c) (argX m c) (argW1 m c) (argB1 m c) (argW2 m c)) (deg eps (argA m c) (rowB r)) (argB2 m c)
    (proj_row m c) r ((congrFun (T3_v2_3 m c) (ix2 r (0 : Fin 1))).trans (deg_bot m c r)) (T3_v1 m c) (rowB r) j).trans ?_
  rfl

/-! ## The result -/

/-- THE KERNEL'S VALUE: the result at (R, j) is the project-first form of the network of the six arguments. -/
theorem result_eq (R : Fin 10000) (j : Fin 40) :
    (W5 m c main_v5 : S10000x40.Idx → EReal) (ix2 R j)
      = outProjFirst (Ideal.ofBits .f32 0x2B8CBCCC#32)
          (fun r n => (m ((c : Thread nD τ).loc main_arg1) : S10000x10000.Idx → EReal) (ix2 r n))
          (fun n d => (m ((c : Thread nD τ).loc main_arg0) : S10000x128.Idx → EReal) (ix2 n d))
          (fun d k => (m ((c : Thread nD τ).loc main_arg2) : S128x256.Idx → EReal) (ix2 d k))
          (fun k => (m ((c : Thread nD τ).loc main_arg3) : S256.Idx → EReal) (ix1 k))
          (fun k j => (m ((c : Thread nD τ).loc main_arg4) : S256x40.Idx → EReal) (ix2 k j))
          (fun j => (m ((c : Thread nD τ).loc main_arg5) : S40.Idx → EReal) (ix1 j)) R j := by
  show (StableHlo.after hostOps2 (W4 m c) (Proc.devRef .tc main_v5) : S10000x40.Idx → EReal) (ix2 R j) = _
  rw [after2_main_v5 (W4 m c), concat_apply]
  by_cases hR : R.val < 5000
  · rw [dif_pos hR]
    exact out_top m c ⟨R.val, hR⟩ j
  · rw [dif_neg hR]
    have hlt : R.val - 5000 < 5000 := by have := R.isLt; omega
    have e : rowB ⟨R.val - 5000, hlt⟩ = R := Fin.ext (by show R.val - 5000 + 5000 = R.val; omega)
    exact (out_bot m c ⟨R.val - 5000, hlt⟩ j).trans (by rw [e])

end Cert.KernelIdeal.KernelValue

end
-- ==== Proof.Algebraic.lean ====
/-
  The value claim. Run from memories that agree on the six arguments, the kernel's reading over the extended reals ends
  with its result buffer at the last stage of its fold, which entry by entry is the network with the second linear map
  applied BEFORE the second aggregation; the reference ends at its operations' composed term, which entry by entry is the
  network with the aggregation first. Every input being finite, the two are one function: the degree is a positive
  real, the hidden layer is real, and (Σ_n A r n · Σ_k h n k · W k j) / deg = Σ_k ((Σ_n A r n · h n k) / deg) · W k j.
-/
import proofs.«115625_g20418274525701_cont_8to1_1804_5_alg».proof.Proof.Frames
import proofs.«115625_g20418274525701_cont_8to1_1804_5_alg».proof.Proof.RefLaw
import proofs.«115625_g20418274525701_cont_8to1_1804_5_alg».proof.Proof.KernelValue

noncomputable section

namespace Cert.Proof.Value

open Idealize.ShloMosaic Idealize.ShloMosaic.TcCoe Idealize.SL.Sem Idealize.ShloMosaic.ValueIdx

theorem algebraic : Cert.algebraic_KernelIdeal_ReferenceIdeal := by
  intro m ρ m' ρ' hpre hagree
  refine ⟨fun c => Cert.KernelIdeal.Gen.W5 m c Cert.KernelIdeal.main_v5,
    Cert.KernelIdeal.Gen.run_result (F := Ideal) m ρ (fun c => Cert.KernelIdeal.Gen.body_obligation0 _ c)
      (fun c => Cert.KernelIdeal.Gen.body_obligation1 _ c), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, (hagree c).1, (hagree c).2.1, (hagree c).2.2.1, (hagree c).2.2.2.1,
    (hagree c).2.2.2.2.1, (hagree c).2.2.2.2.2]
  funext i
  obtain ⟨R, j, rfl⟩ : ∃ (R : Fin 10000) (j : Fin 40), i = ix2 R j := ⟨i 0, i 1, eq_ix2 i⟩
  exact (Cert.ReferenceIdeal.RefValue.val_main_v18_eq_outProjFirst _ _ _ _ _ _ (hpre c) R j).trans
    (Cert.KernelIdeal.KernelValue.result_eq m c R j).symm

end Cert.Proof.Value

end
-- ==== Proof.lean ====
/-
  A two-layer mean-aggregation network on a dense adjacency `A` (10000 × 10000): with deg r = max (Σ_n A r n) ε,
    h = relu (((A · X) / deg) · W1 + b1),   out = ((A · h) / deg) · W2 + b2.
  The kernel streams `A` twice. Its first pass computes, for the top and for the bottom half of the rows at once, the
  floored degrees and the hidden rows already multiplied by `W2`; its second pass aggregates those projected rows,
  divides by the degree and adds `b2`. The reference aggregates the hidden rows first and multiplies by `W2` after.
  Over the extended reals, every input finite, the two results are equal entry by entry: division by the positive real
  degree is multiplication by its inverse, which moves across the finite sums, and the two sums over neighbours and
  over hidden units exchange.

  The three frame claims are the runs of the programs (each pass hands the adjacency to two windows, so its buffer is
  held at two half shares during a pass and whole between passes); nothing was rewritten between the word-level
  kernel and its reading over the extended reals, so that conjunct is trivial.
-/
import proofs.«115625_g20418274525701_cont_8to1_1804_5_alg».proof.Defs
import proofs.«115625_g20418274525701_cont_8to1_1804_5_alg».proof.Proof.Gen.Kernel
import proofs.«115625_g20418274525701_cont_8to1_1804_5_alg».proof.Proof.Gen.KernelIdeal
import proofs.«115625_g20418274525701_cont_8to1_1804_5_alg».proof.Proof.Gen.ReferenceIdeal
import proofs.«115625_g20418274525701_cont_8to1_1804_5_alg».proof.Proof.Gen.Pre_finite_inputs
import proofs.«115625_g20418274525701_cont_8to1_1804_5_alg».proof.Proof.Frames
import proofs.«115625_g20418274525701_cont_8to1_1804_5_alg».proof.Proof.Algebraic

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Frames.frame_k, Cert.Proof.Frames.frame_ki, Cert.Proof.Frames.frame_ri, trivial, Cert.Proof.Value.algebraic⟩

end Cert.Proof

end
